-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S2x200000 : Shape := ⟨2, ![2, 200000]⟩
abbrev S32x256 : Shape := ⟨2, ![32, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128x64 .f32) (main_arg16 : FVec F S64 .f32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S128x128 .f32) (main_arg14 : FVec F S128 .f32) (main_arg15 : FVec F S128x64 .f32) (main_arg16 : FVec F S64 .f32) (main_arg17 : FVec F S64x1 .f32) (main_arg18 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S128x128 .f32) (main_arg14 : FVec F S128 .f32) (main_arg15 : FVec F S128x64 .f32) (main_arg16 : FVec F S64 .f32) (main_arg17 : FVec F S64x1 .f32) (main_arg18 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x32 .f32) (main_arg1 : IVec S2x1600000 32) (main_arg2 : IVec S2x200000 32) (main_arg3 : FVec F S32x256 .f32) (main_arg4 : FVec F S256 .f32) (main_arg5 : FVec F S256x128 .f32) (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S128x128 .f32) (main_arg14 : FVec F S128 .f32) (main_arg15 : FVec F S128x64 .f32) (main_arg16 : FVec F S64 .f32) (main_arg17 : FVec F S64x1 .f32) (main_arg18 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x256 .f32 := Host.absf main_arg3
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S2x1600000 : Shape := ⟨2, ![2, 1600000]⟩
abbrev S2x200000 : Shape := ⟨2, ![2, 200000]⟩
abbrev S32x256 : Shape := ⟨2, ![32, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x32 : Shape := ⟨2, ![4000, 32]⟩
abbrev S4000x1 : Shape := ⟨2, ![4000, 1]⟩
abbrev S4000x64 : Shape := ⟨2, ![4000, 64]⟩
abbrev S4000x256 : Shape := ⟨2, ![4000, 256]⟩
abbrev S1x256 : Shape := ⟨2, ![1, 256]⟩
abbrev S4000x128 : Shape := ⟨2, ![4000, 128]⟩
abbrev S1x128 : Shape := ⟨2, ![1, 128]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S64x128 : Shape := ⟨2, ![64, 128]⟩
abbrev S1x1 : Shape := ⟨2, ![1, 1]⟩

abbrev nBuf : Space → Nat
  | .hbm => 118
  | .vmem => 55
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S2x200000, .i32⟩
  | .hbm, ⟨3, _⟩ => ⟨S32x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x64, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .bf16⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .hbm, ⟨60, _⟩ => ⟨S100000x64, .bf16⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .bf16⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S100000x64, .f32⟩
  | .hbm, ⟨76, _⟩ => ⟨S100000x64, .bf16⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .bf16⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S100000x64, .bf16⟩
  | .hbm, ⟨92, _⟩ => ⟨S1x200000, .i32⟩
  | .hbm, ⟨93, _⟩ => ⟨S200000, .i32⟩
  | .hbm, ⟨94, _⟩ => ⟨S_, .i32⟩
  | .hbm, ⟨95, _⟩ => ⟨S200000, .i32⟩
  | .hbm, ⟨96, _⟩ => ⟨S200000, .i1⟩
  | .hbm, ⟨97, _⟩ => ⟨S_, .i32⟩
  | .hbm, ⟨98, _⟩ => ⟨S200000, .i32⟩
  | .hbm, ⟨99, _⟩ => ⟨S200000, .i32⟩
  | .hbm, ⟨100, _⟩ => ⟨S200000, .i32⟩
  | .hbm, ⟨101, _⟩ => ⟨S200000x1, .i32⟩
  | .hbm, ⟨102, _⟩ => ⟨S200000x64, .bf16⟩
  | .hbm, ⟨103, _⟩ => ⟨S1x200000, .i32⟩
  | .hbm, ⟨104, _⟩ => ⟨S200000, .i32⟩
  | .hbm, ⟨105, _⟩ => ⟨S_, .i32⟩
  | .hbm, ⟨106, _⟩ => ⟨S200000, .i32⟩
  | .hbm, ⟨107, _⟩ => ⟨S200000, .i1⟩
  | .hbm, ⟨108, _⟩ => ⟨S_, .i32⟩
  | .hbm, ⟨109, _⟩ => ⟨S200000, .i32⟩
  | .hbm, ⟨110, _⟩ => ⟨S200000, .i32⟩
  | .hbm, ⟨111, _⟩ => ⟨S200000, .i32⟩
  | .hbm, ⟨112, _⟩ => ⟨S200000x1, .i32⟩
  | .hbm, ⟨113, _⟩ => ⟨S200000x64, .bf16⟩
  | .hbm, ⟨114, _⟩ => ⟨S64x128, .f32⟩
  | .hbm, ⟨115, _⟩ => ⟨S64x128, .f32⟩
  | .hbm, ⟨116, _⟩ => ⟨S200000x1, .f32⟩
  | .hbm, ⟨117, _⟩ => ⟨S200000, .f32⟩
  | .local _ .vmem, ⟨0, _⟩ => ⟨S4000x32, .f32⟩
  | .local _ .vmem, ⟨1, _⟩ => ⟨S4000x32, .f32⟩
  | .local _ .vmem, ⟨2, _⟩ => ⟨S32x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x64, .f32⟩
  | .local _ .vmem, ⟨7, _⟩ => ⟨S4000x1, .f32⟩
  | .local _ .vmem, ⟨8, _⟩ => ⟨S4000x1, .f32⟩
  | .local _ .vmem, ⟨9, _⟩ => ⟨S4000x64, .bf16⟩
  | .local _ .vmem, ⟨10, _⟩ => ⟨S4000x64, .bf16⟩
  | .local _ .vmem, ⟨11, _⟩ => ⟨S4000x64, .f32⟩
  | .local _ .vmem, ⟨12, _⟩ => ⟨S4000x64, .f32⟩
  | .local _ .vmem, ⟨13, _⟩ => ⟨S64, .f32⟩
  | .local _ .vmem, ⟨14, _⟩ => ⟨S4000x1, .f32⟩
  | .local _ .vmem, ⟨15, _⟩ => ⟨S4000x1, .f32⟩
  | .local _ .vmem, ⟨16, _⟩ => ⟨S64x64, .f32⟩
  | .local _ .vmem, ⟨17, _⟩ => ⟨S4000x64, .f32⟩
  | .local _ .vmem, ⟨18, _⟩ => ⟨S4000x64, .f32⟩
  | .local _ .vmem, ⟨19, _⟩ => ⟨S4000x64, .bf16⟩
  | .local _ .vmem, ⟨20, _⟩ => ⟨S4000x64, .bf16⟩
  | .local _ .vmem, ⟨21, _⟩ => ⟨S4000x64, .f32⟩
  | .local _ .vmem, ⟨22, _⟩ => ⟨S4000x64, .f32⟩
  | .local _ .vmem, ⟨23, _⟩ => ⟨S64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S4000x64, .f32⟩
  | .local _ .vmem, ⟨30, _⟩ => ⟨S4000x64, .f32⟩
  | .local _ .vmem, ⟨31, _⟩ => ⟨S4000x64, .bf16⟩
  | .local _ .vmem, ⟨32, _⟩ => ⟨S4000x64, .bf16⟩
  | .local _ .vmem, ⟨33, _⟩ => ⟨S4000x64, .f32⟩
  | .local _ .vmem, ⟨34, _⟩ => ⟨S4000x64, .f32⟩
  | .local _ .vmem, ⟨35, _⟩ => ⟨S64, .f32⟩
  | .local _ .vmem, ⟨36, _⟩ => ⟨S4000x1, .f32⟩
  | .local _ .vmem, ⟨37, _⟩ => ⟨S4000x1, .f32⟩
  | .local _ .vmem, ⟨38, _⟩ => ⟨S4000x64, .f32⟩
  | .local _ .vmem, ⟨39, _⟩ => ⟨S4000x64, .f32⟩
  | .local _ .vmem, ⟨40, _⟩ => ⟨S4000x64, .bf16⟩
  | .local _ .vmem, ⟨41, _⟩ => ⟨S4000x64, .bf16⟩
  | .local _ .vmem, ⟨42, _⟩ => ⟨S4000x64, .bf16⟩
  | .local _ .vmem, ⟨43, _⟩ => ⟨S4000x64, .bf16⟩
  | .local _ .vmem, ⟨44, _⟩ => ⟨S4000x64, .bf16⟩
  | .local _ .vmem, ⟨45, _⟩ => ⟨S4000x64, .bf16⟩
  | .local _ .vmem, ⟨46, _⟩ => ⟨S64x128, .f32⟩
  | .local _ .vmem, ⟨47, _⟩ => ⟨S64x128, .f32⟩
  | .local _ .vmem, ⟨48, _⟩ => ⟨S128, .f32⟩
  | .local _ .vmem, ⟨49, _⟩ => ⟨S128x64, .f32⟩
  | .local _ .vmem, ⟨50, _⟩ => ⟨S64, .f32⟩
  | .local _ .vmem, ⟨51, _⟩ => ⟨S64x1, .f32⟩
  | .local _ .vmem, ⟨52, _⟩ => ⟨S1, .f32⟩
  | .local _ .vmem, ⟨53, _⟩ => ⟨S4000x1, .f32⟩
  | .local _ .vmem, ⟨54, _⟩ => ⟨S4000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30_0 : Ref sig .tc := ⟨.hbm, 59, rfl⟩
abbrev main_v30_1 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_c_9 : Ref sig .tc := ⟨.hbm, 77, rfl⟩
abbrev main_v43 : Ref sig .tc := ⟨.hbm, 78, rfl⟩
abbrev main_v44 : Ref sig .tc := ⟨.hbm, 79, rfl⟩
abbrev main_c_10 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_12 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_c_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg9_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem9_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S128x128_S64x128_0_0 : S128x128.Slices ![0, 0] S64x128
  slices_S128x128_S64x128_64_0 : S128x128.Slices ![64, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  shapeCasts_S200000x1_S200000 : S200000x1.ShapeCasts S200000
  scatter_S100000_S1700000x1_S1700000_n_0_0_1_wf : ScatterDims.WF S100000 S1700000x1 S1700000 [] [0] [0] 1
  dot_S4000x32_S32x256_S4000x256_1_0_0_1_n_n_wf : DotDims.WF S4000x32 S32x256 S4000x256 [1] [0] [0] [1] [] []
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x64_S4000x64_1_0_0_1_n_n_wf : DotDims.WF S4000x64 S64x64 S4000x64 [1] [0] [0] [1] [] []
  gather_S100000x64_S200000x1_S200000x64_1_0_n_n_0_1_164_wf : GatherDims.WF S100000x64 S200000x1 S200000x64 [1] [0] [] [0] [] 1 ![1, 64]
  dot_S4000x64_S64x128_S4000x128_1_0_0_1_n_n_wf : DotDims.WF S4000x64 S64x128 S4000x128 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S100000x1.size a
  hwx0_6 : ∀ i : grid0.Coords, EltTy.bits .f32 = 32 ∨ (Rect.block (s := S100000x1) S4000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .bf16 = 32 ∨ (Rect.block (s := S100000x64) S4000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .bf16 = 32 ∨ (Rect.block (s := S100000x64) S4000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .bf16 = 32 ∨ (Rect.block (s := S100000x64) S4000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S200000x64.size a
  hwx4_0 : ∀ i : grid4.Coords, EltTy.bits .bf16 = 32 ∨ (Rect.block (s := S200000x64) S4000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S200000x64.size a
  hwx4_1 : ∀ i : grid4.Coords, EltTy.bits .bf16 = 32 ∨ (Rect.block (s := S200000x64) S4000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1.size a ≤ S1.size a
  hwx4_8 : ∀ i : grid4.Coords, EltTy.bits .f32 = 32 ∨ (Rect.block (s := S1) S1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x1.size a ≤ S200000x1.size a
  hwx4_9 : ∀ i : grid4.Coords, EltTy.bits .f32 = 32 ∨ (Rect.block (s := S200000x1) S4000x1.size (cc4_transform_9 i) (hinb4_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v29) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_0) S4000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_1) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S4000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v54) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S64x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg18) S1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v75) S4000x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S2x200000 : Shape := ⟨2, ![2, 200000]⟩
abbrev S32x256 : Shape := ⟨2, ![32, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S128x128 : Shape := ⟨2, ![128, 128]⟩
abbrev S64x1 : Shape := ⟨2, ![64, 1]⟩
abbrev S1 : Shape := ⟨1, ![1]⟩
abbrev S100000x256 : Shape := ⟨2, ![100000, 256]⟩
abbrev S1x256 : Shape := ⟨2, ![1, 256]⟩
abbrev S_ : Shape := ⟨0, ![]⟩
abbrev S100000x128 : Shape := ⟨2, ![100000, 128]⟩
abbrev S1x128 : Shape := ⟨2, ![1, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x32, .f32⟩
  | 1 => ⟨S2x1600000, .i32⟩
  | 2 => ⟨S2x200000, .i32⟩
  | 3 => ⟨S32x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S128x128, .f32⟩
  | 14 => ⟨S128, .f32⟩
  | 15 => ⟨S128x64, .f32⟩
  | 16 => ⟨S64, .f32⟩
  | 17 => ⟨S64x1, .f32⟩
  | 18 => ⟨S1, .f32⟩
  | 19 => ⟨S100000x256, .f32⟩
  | 20 => ⟨S1x256, .f32⟩
  | 21 => ⟨S100000x256, .f32⟩
  | 22 => ⟨S100000x256, .f32⟩
  | 23 => ⟨S_, .f32⟩
  | 24 => ⟨S100000x256, .f32⟩
  | 25 => ⟨S100000x256, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000, .i32⟩
  | 34 => ⟨S1x1600000, .i32⟩
  | 35 => ⟨S1600000, .i32⟩
  | 36 => ⟨S1700000, .i32⟩
  | 37 => ⟨S1x1600000, .i32⟩
  | 38 => ⟨S1600000, .i32⟩
  | 39 => ⟨S1700000, .i32⟩
  | 40 => ⟨S_, .f32⟩
  | 41 => ⟨S1700000, .f32⟩
  | 42 => ⟨S_, .f32⟩
  | 43 => ⟨S100000, .f32⟩
  | 44 => ⟨S1700000x1, .i32⟩
  | 45 => ⟨S100000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000, .f32⟩
  | 75 => ⟨S1700000, .f32⟩
  | 76 => ⟨S1700000x1, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x64, .f32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x32, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S1x200000, .i32⟩
  | 18 => ⟨S200000, .i32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x64, .f32⟩
  | 28 => ⟨S1x200000, .i32⟩
  | 29 => ⟨S200000, .i32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x64, .f32⟩
  | 39 => ⟨S200000x128, .f32⟩
  | 40 => ⟨S200000x128, .f32⟩
  | 41 => ⟨S1x128, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x64, .f32⟩
  | 48 => ⟨S1x64, .f32⟩
  | 49 => ⟨S200000x64, .f32⟩
  | 50 => ⟨S200000x64, .f32⟩
  | 51 => ⟨S_, .f32⟩
  | 52 => ⟨S200000x64, .f32⟩
  | 53 => ⟨S200000x64, .f32⟩
  | 54 => ⟨S200000x1, .f32⟩
  | 55 => ⟨S1x1, .f32⟩
  | 56 => ⟨S200000x1, .f32⟩
  | 57 => ⟨S200000x1, .f32⟩
  | 58 => ⟨S200000x1, .f32⟩
  | 59 => ⟨S200000x1, .f32⟩
  | 60 => ⟨S_, .f32⟩
  | 61 => ⟨S200000x1, .f32⟩
  | 62 => ⟨S200000x1, .f32⟩
  | 63 => ⟨S_, .f32⟩
  | 64 => ⟨S200000x1, .f32⟩
  | 65 => ⟨S200000x1, .f32⟩
  | 66 => ⟨S200000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v26 : Ref sig .tc := ⟨.hbm, 56, rfl⟩
abbrev main_c : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_7 : Ref sig .tc := ⟨.hbm, 78, rfl⟩
abbrev main_v44 : Ref sig .tc := ⟨.hbm, 79, rfl⟩
abbrev main_v45 : Ref sig .tc := ⟨.hbm, 80, rfl⟩
abbrev main_c_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call3_cst : Ref sig .tc := ⟨.hbm, 96, rfl⟩
abbrev main_call3_v0 : Ref sig .tc := ⟨.hbm, 97, rfl⟩
abbrev main_v59 : Ref sig .tc := ⟨.hbm, 98, rfl⟩
abbrev main_v60 : Ref sig .tc := ⟨.hbm, 99, rfl⟩
abbrev main_c_10 : Ref sig .tc := ⟨.hbm, 100, rfl⟩
abbrev main_v61 : Ref sig .tc := ⟨.hbm, 101, rfl⟩
abbrev main_v62 : Ref sig .tc := ⟨.hbm, 102, rfl⟩
abbrev main_c_11 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_12 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call4_cst : Ref sig .tc := ⟨.hbm, 118, rfl⟩
abbrev main_call4_v0 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_13 : Ref sig .tc := ⟨.hbm, 123, rfl⟩
abbrev main_v79 : Ref sig .tc := ⟨.hbm, 124, rfl⟩
abbrev main_v80 : Ref sig .tc := ⟨.hbm, 125, rfl⟩
abbrev main_c_14 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_15 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call5_cst : Ref sig .tc := ⟨.hbm, 141, rfl⟩
abbrev main_call5_v0 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_16 : Ref sig .tc := ⟨.hbm, 147, rfl⟩
abbrev main_v98 : Ref sig .tc := ⟨.hbm, 148, rfl⟩
abbrev main_v99 : Ref sig .tc := ⟨.hbm, 149, rfl⟩
abbrev main_c_17 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_18 : Ref sig .tc := ⟨.hbm, 158, rfl⟩
abbrev main_v107 : Ref sig .tc := ⟨.hbm, 159, rfl⟩
abbrev main_v108 : Ref sig .tc := ⟨.hbm, 160, rfl⟩
abbrev main_c_19 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_call6_cst : Ref sig .tc := ⟨.hbm, 172, rfl⟩
abbrev main_call6_v0 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call7_cst : Ref sig .tc := ⟨.hbm, 179, rfl⟩
abbrev main_call7_v0 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_20 : Ref sig .tc := ⟨.hbm, 188, rfl⟩
abbrev main_v131 : Ref sig .tc := ⟨.hbm, 189, rfl⟩
abbrev main_v132 : Ref sig .tc := ⟨.hbm, 190, rfl⟩
abbrev main_cst_21 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  dot_S100000x32_S32x256_S100000x256_1_0_0_1_n_n_wf : DotDims.WF S100000x32 S32x256 S100000x256 [1] [0] [0] [1] [] []
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x128_S200000x128_1_0_0_1_n_n_wf : DotDims.WF S200000x128 S128x128 S200000x128 [1] [0] [0] [1] [] []
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def dot_S100000x32_S32x256_S100000x256_1_0_0_1_n_n : DotDims S100000x32 S32x256 S100000x256 where
  lhsContracting := [1]
  rhsContracting := [0]
  lhsNonContracting := [0]
  rhsNonContracting := [1]
  lhsBatch := []
  rhsBatch := []
  wf := dot_S100000x32_S32x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.RefSegs.lean ====
/-
  The reference program's line of host operations, cut into eight stretches.

  The cuts fall where few values are still to be read: after the node encoder, after the degree scale, after the
  per-edge factor, after each of the three layers, and after the two gathered rows of the edge predictor are joined.
  The stretches, one after the other, are the line.  An operation of an inlined call reads and writes its buffers through
  typed references, which move contents along the equation between a buffer's type and the value's; for the literal
  buffers of this program both types are the same, and the moves are identities.
-/
import proofs.«151212_j72112500900409_2_alg».proof.Proof.RefOps
import proofs.«151212_j72112500900409_2_alg».proof.Proof.LibTypedRef
import Idealize.ShloMosaic.PureOps.Ideal.Laws

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Operations 1 … 14: the node encoder. -/
def seg0 : List (HloOp τ sig (Elt F)) :=
  [ binary main_arg0 main_arg3 main_v0 ((fun l r => Host.dotGeneral dot_S100000x32_S32x256_S100000x256_1_0_0_1_n_n none l r) : (⟨S100000x32, .f32⟩ : BufTy).Contents (Elt F) → (⟨S32x256, .f32⟩ : BufTy).Contents (Elt F) → (⟨S100000x256, .f32⟩ : BufTy).Contents (Elt F)),
    unary main_arg4 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v3) (TRef.of (T := ⟨S100000x256, .f32⟩) main_call0_v0) (TRef.of (T := ⟨S100000x256, .f32⟩) main_v4) maximumf,
    binary main_v4 main_arg5 main_v5 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v8) (TRef.of (T := ⟨S100000x128, .f32⟩) main_call1_v0) (TRef.of (T := ⟨S100000x128, .f32⟩) main_v9) maximumf ]

/-- Operations 15 … 38: the edge lists with their self-loops and the degree scale. -/
def seg1 : List (HloOp τ sig (Elt F)) :=
  [ nullary main_v10 (iotaInDim S100000 32 0),
    unary main_arg1 main_v11 ((extractStridedSlice S1x1600000 ![0, 0] · slices_S2x1600000_S1x1600000_0_0) : (⟨S2x1600000, .i32⟩ : BufTy).Contents (Elt F) → (⟨S1x1600000, .i32⟩ : BufTy).Contents (Elt F)),
    reshape main_v11 main_v12 rfl shapeCasts_S1x1600000_S1600000,
    binary main_v12 main_v10 main_v13 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v14 ((extractStridedSlice S1x1600000 ![1, 0] · slices_S2x1600000_S1x1600000_1_0) : (⟨S2x1600000, .i32⟩ : BufTy).Contents (Elt F) → (⟨S1x1600000, .i32⟩ : BufTy).Contents (Elt F)),
    reshape main_v14 main_v15 rfl shapeCasts_S1x1600000_S1600000,
    binary main_v15 main_v10 main_v16 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v17 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v18 (broadcastInDim S100000 ![] bcast_S_S100000 : (⟨S_, .f32⟩ : BufTy).Contents (Elt F) → (⟨S100000, .f32⟩ : BufTy).Contents (Elt F)),
    unary main_v16 main_v19 (broadcastInDim S1700000x1 ![0] bcast_S1700000_S1700000x1_0 : (⟨S1700000, .i32⟩ : BufTy).Contents (Elt F) → (⟨S1700000x1, .i32⟩ : BufTy).Contents (Elt F)),
    ternary main_v18 main_v19 main_v17 main_v20 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v21 (broadcastInDim S100000 ![] bcast_S_S100000 : (⟨S_, .f32⟩ : BufTy).Contents (Elt F) → (⟨S100000, .f32⟩ : BufTy).Contents (Elt F)),
    binary main_v20 main_v21 main_v22 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v23 (broadcastInDim S100000 ![] bcast_S_S100000 : (⟨S_, .f32⟩ : BufTy).Contents (Elt F) → (⟨S100000, .f32⟩ : BufTy).Contents (Elt F)),
    binary main_v20 main_v23 main_v24 (maximumf : (⟨S100000, .f32⟩ : BufTy).Contents (Elt F) → (⟨S100000, .f32⟩ : BufTy).Contents (Elt F) → (⟨S100000, .f32⟩ : BufTy).Contents (Elt F)),
    unary main_v24 main_v25 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v22) (TRef.of (T := ⟨S100000, .f32⟩) main_v25) (TRef.of (T := ⟨S100000, .f32⟩) main_call2_v1) (TRef.of (T := ⟨S100000, .f32⟩) main_v26) select ]

/-- Operations 39 … 58: the per-edge factor: the product of the two end points' scales. -/
def seg2 : List (HloOp τ sig (Elt F)) :=
  [ nullary main_c (constantI S_ 32 0#32),
    unary main_c main_v27 (broadcastInDim S1700000 ![] bcast_S_S1700000 : (⟨S_, .i32⟩ : BufTy).Contents (Elt F) → (⟨S1700000, .i32⟩ : BufTy).Contents (Elt F)),
    binary main_v13 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v29 (broadcastInDim S1700000 ![] bcast_S_S1700000 : (⟨S_, .i32⟩ : BufTy).Contents (Elt F) → (⟨S1700000, .i32⟩ : BufTy).Contents (Elt F)),
    binary main_v13 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v13 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v26 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v34 (broadcastInDim S1700000 ![] bcast_S_S1700000 : (⟨S_, .i32⟩ : BufTy).Contents (Elt F) → (⟨S1700000, .i32⟩ : BufTy).Contents (Elt F)),
    binary main_v16 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v36 (broadcastInDim S1700000 ![] bcast_S_S1700000 : (⟨S_, .i32⟩ : BufTy).Contents (Elt F) → (⟨S1700000, .i32⟩ : BufTy).Contents (Elt F)),
    binary main_v16 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v16 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v26 main_v39 main_v40 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v33 main_v40 main_v41 (mulf : (⟨S1700000, .f32⟩ : BufTy).Contents (Elt F) → (⟨S1700000, .f32⟩ : BufTy).Contents (Elt F) → (⟨S1700000, .f32⟩ : BufTy).Contents (Elt F)),
    unary main_v41 main_v42 (broadcastInDim S1700000x1 ![0] bcast_S1700000_S1700000x1_0 : (⟨S1700000, .f32⟩ : BufTy).Contents (Elt F) → (⟨S1700000x1, .f32⟩ : BufTy).Contents (Elt F)) ]

/-- Operations 59 … 80: the first layer. -/
def seg3 : List (HloOp τ sig (Elt F)) :=
  [ binary main_v9 main_arg7 main_v43 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v44 (broadcastInDim S1700000 ![] bcast_S_S1700000 : (⟨S_, .i32⟩ : BufTy).Contents (Elt F) → (⟨S1700000, .i32⟩ : BufTy).Contents (Elt F)),
    binary main_v13 main_v44 main_v45 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v46 (broadcastInDim S1700000 ![] bcast_S_S1700000 : (⟨S_, .i32⟩ : BufTy).Contents (Elt F) → (⟨S1700000, .i32⟩ : BufTy).Contents (Elt F)),
    binary main_v13 main_v46 main_v47 (addi : (⟨S1700000, .i32⟩ : BufTy).Contents (Elt F) → (⟨S1700000, .i32⟩ : BufTy).Contents (Elt F) → (⟨S1700000, .i32⟩ : BufTy).Contents (Elt F)),
    ternary main_v45 main_v47 main_v13 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v48 main_v49 (broadcastInDim S1700000x1 ![0] bcast_S1700000_S1700000x1_0 : (⟨S1700000, .i32⟩ : BufTy).Contents (Elt F) → (⟨S1700000x1, .i32⟩ : BufTy).Contents (Elt F)),
    binary main_v43 main_v49 main_v50 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v42 main_v51 (broadcastInDim S1700000x64 ![0, 1] bcast_S1700000x1_S1700000x64_0_1 : (⟨S1700000x1, .f32⟩ : BufTy).Contents (Elt F) → (⟨S1700000x64, .f32⟩ : BufTy).Contents (Elt F)),
    binary main_v50 main_v51 main_v52 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v53 (broadcastInDim S100000x64 ![] bcast_S_S100000x64 : (⟨S_, .f32⟩ : BufTy).Contents (Elt F) → (⟨S100000x64, .f32⟩ : BufTy).Contents (Elt F)),
    unary main_v16 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v55 main_v57 main_v58 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v58) (TRef.of (T := ⟨S100000x64, .f32⟩) main_call3_v0) (TRef.of (T := ⟨S100000x64, .f32⟩) main_v59) maximumf ]

/-- Operations 81 … 103: the second layer and its residual. -/
def seg4 : List (HloOp τ sig (Elt F)) :=
  [ binary main_v59 main_arg9 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v61 (broadcastInDim S1700000 ![] bcast_S_S1700000 : (⟨S_, .i32⟩ : BufTy).Contents (Elt F) → (⟨S1700000, .i32⟩ : BufTy).Contents (Elt F)),
    binary main_v13 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v63 (broadcastInDim S1700000 ![] bcast_S_S1700000 : (⟨S_, .i32⟩ : BufTy).Contents (Elt F) → (⟨S1700000, .i32⟩ : BufTy).Contents (Elt F)),
    binary main_v13 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v13 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v60 main_v66 main_v67 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v42 main_v68 (broadcastInDim S1700000x64 ![0, 1] bcast_S1700000x1_S1700000x64_0_1 : (⟨S1700000x1, .f32⟩ : BufTy).Contents (Elt F) → (⟨S1700000x64, .f32⟩ : BufTy).Contents (Elt F)),
    binary main_v67 main_v68 main_v69 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v70 (broadcastInDim S100000x64 ![] bcast_S_S100000x64 : (⟨S_, .f32⟩ : BufTy).Contents (Elt F) → (⟨S100000x64, .f32⟩ : BufTy).Contents (Elt F)),
    unary main_v16 main_v71 (broadcastInDim S1700000x1 ![0] bcast_S1700000_S1700000x1_0 : (⟨S1700000, .i32⟩ : BufTy).Contents (Elt F) → (⟨S1700000x1, .i32⟩ : BufTy).Contents (Elt F)),
    ternary main_v70 main_v71 main_v69 main_v72 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg10 main_v73 (broadcastInDim S1x64 ![1] bcast_S64_S1x64_1 : (⟨S64, .f32⟩ : BufTy).Contents (Elt F) → (⟨S1x64, .f32⟩ : BufTy).Contents (Elt F)),
    unary main_v73 main_v74 (broadcastInDim S100000x64 ![0, 1] bcast_S1x64_S100000x64_0_1 : (⟨S1x64, .f32⟩ : BufTy).Contents (Elt F) → (⟨S100000x64, .f32⟩ : BufTy).Contents (Elt F)),
    binary main_v72 main_v74 main_v75 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v75) (TRef.of (T := ⟨S100000x64, .f32⟩) main_call4_v0) (TRef.of (T := ⟨S100000x64, .f32⟩) main_v76) maximumf,
    binary main_v59 main_v76 main_v77 (addf : (⟨S100000x64, .f32⟩ : BufTy).Contents (Elt F) → (⟨S100000x64, .f32⟩ : BufTy).Contents (Elt F) → (⟨S100000x64, .f32⟩ : BufTy).Contents (Elt F)) ]

/-- Operations 104 … 126: the third layer and its residual. -/
def seg5 : List (HloOp τ sig (Elt F)) :=
  [ binary main_v77 main_arg11 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v79 (broadcastInDim S1700000 ![] bcast_S_S1700000 : (⟨S_, .i32⟩ : BufTy).Contents (Elt F) → (⟨S1700000, .i32⟩ : BufTy).Contents (Elt F)),
    binary main_v13 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v81 (broadcastInDim S1700000 ![] bcast_S_S1700000 : (⟨S_, .i32⟩ : BufTy).Contents (Elt F) → (⟨S1700000, .i32⟩ : BufTy).Contents (Elt F)),
    binary main_v13 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v13 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v42 main_v86 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v86 main_v87 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v88 (broadcastInDim S100000x64 ![] bcast_S_S100000x64 : (⟨S_, .f32⟩ : BufTy).Contents (Elt F) → (⟨S100000x64, .f32⟩ : BufTy).Contents (Elt F)),
    unary main_v16 main_v89 (broadcastInDim S1700000x1 ![0] bcast_S1700000_S1700000x1_0 : (⟨S1700000, .i32⟩ : BufTy).Contents (Elt F) → (⟨S1700000x1, .i32⟩ : BufTy).Contents (Elt F)),
    ternary main_v88 main_v89 main_v87 main_v90 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg12 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v90 main_v92 main_v93 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v93) (TRef.of (T := ⟨S100000x64, .f32⟩) main_call5_v0) (TRef.of (T := ⟨S100000x64, .f32⟩) main_v94) maximumf,
    binary main_v77 main_v94 main_v95 (addf : (⟨S100000x64, .f32⟩ : BufTy).Contents (Elt F) → (⟨S100000x64, .f32⟩ : BufTy).Contents (Elt F) → (⟨S100000x64, .f32⟩ : BufTy).Contents (Elt F)) ]

/-- Operations 127 … 149: the candidate edges' two gathered rows, joined. -/
def seg6 : List (HloOp τ sig (Elt F)) :=
  [ unary main_arg2 main_v96 ((extractStridedSlice S1x200000 ![0, 0] · slices_S2x200000_S1x200000_0_0) : (⟨S2x200000, .i32⟩ : BufTy).Contents (Elt F) → (⟨S1x200000, .i32⟩ : BufTy).Contents (Elt F)),
    reshape main_v96 main_v97 rfl shapeCasts_S1x200000_S200000,
    nullary main_c_16 (constantI S_ 32 0#32),
    unary main_c_16 main_v98 (broadcastInDim S200000 ![] bcast_S_S200000 : (⟨S_, .i32⟩ : BufTy).Contents (Elt F) → (⟨S200000, .i32⟩ : BufTy).Contents (Elt F)),
    binary main_v97 main_v98 main_v99 (cmpi .slt : (⟨S200000, .i32⟩ : BufTy).Contents (Elt F) → (⟨S200000, .i32⟩ : BufTy).Contents (Elt F) → (⟨S200000, .i1⟩ : BufTy).Contents (Elt F)),
    nullary main_c_17 (constantI S_ 32 100000#32),
    unary main_c_17 main_v100 (broadcastInDim S200000 ![] bcast_S_S200000 : (⟨S_, .i32⟩ : BufTy).Contents (Elt F) → (⟨S200000, .i32⟩ : BufTy).Contents (Elt F)),
    binary main_v97 main_v100 main_v101 (addi : (⟨S200000, .i32⟩ : BufTy).Contents (Elt F) → (⟨S200000, .i32⟩ : BufTy).Contents (Elt F) → (⟨S200000, .i32⟩ : BufTy).Contents (Elt F)),
    ternary main_v99 main_v101 main_v97 main_v102 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v102 main_v103 (broadcastInDim S200000x1 ![0] bcast_S200000_S200000x1_0 : (⟨S200000, .i32⟩ : BufTy).Contents (Elt F) → (⟨S200000x1, .i32⟩ : BufTy).Contents (Elt F)),
    binary main_v95 main_v103 main_v104 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    unary main_arg2 main_v105 ((extractStridedSlice S1x200000 ![1, 0] · slices_S2x200000_S1x200000_1_0) : (⟨S2x200000, .i32⟩ : BufTy).Contents (Elt F) → (⟨S1x200000, .i32⟩ : BufTy).Contents (Elt F)),
    reshape main_v105 main_v106 rfl shapeCasts_S1x200000_S200000,
    nullary main_c_18 (constantI S_ 32 0#32),
    unary main_c_18 main_v107 (broadcastInDim S200000 ![] bcast_S_S200000 : (⟨S_, .i32⟩ : BufTy).Contents (Elt F) → (⟨S200000, .i32⟩ : BufTy).Contents (Elt F)),
    binary main_v106 main_v107 main_v108 (cmpi .slt : (⟨S200000, .i32⟩ : BufTy).Contents (Elt F) → (⟨S200000, .i32⟩ : BufTy).Contents (Elt F) → (⟨S200000, .i1⟩ : BufTy).Contents (Elt F)),
    nullary main_c_19 (constantI S_ 32 100000#32),
    unary main_c_19 main_v109 (broadcastInDim S200000 ![] bcast_S_S200000 : (⟨S_, .i32⟩ : BufTy).Contents (Elt F) → (⟨S200000, .i32⟩ : BufTy).Contents (Elt F)),
    binary main_v106 main_v109 main_v110 (addi : (⟨S200000, .i32⟩ : BufTy).Contents (Elt F) → (⟨S200000, .i32⟩ : BufTy).Contents (Elt F) → (⟨S200000, .i32⟩ : BufTy).Contents (Elt F)),
    ternary main_v108 main_v110 main_v106 main_v111 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v111 main_v112 (broadcastInDim S200000x1 ![0] bcast_S200000_S200000x1_0 : (⟨S200000, .i32⟩ : BufTy).Contents (Elt F) → (⟨S200000x1, .i32⟩ : BufTy).Contents (Elt F)),
    binary main_v95 main_v112 main_v113 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    binary main_v104 main_v113 main_v114 ((fun a b => concatenate S200000x128 1 [⟨S200000x64, a⟩, ⟨S200000x64, b⟩] concatenates_S200000x64_S200000x64_S200000x128_d1) : (⟨S200000x64, .f32⟩ : BufTy).Contents (Elt F) → (⟨S200000x64, .f32⟩ : BufTy).Contents (Elt F) → (⟨S200000x128, .f32⟩ : BufTy).Contents (Elt F)) ]

/-- Operations 150 … 176: the edge predictor's three dense layers and the logistic. -/
def seg7 : List (HloOp τ sig (Elt F)) :=
  [ binary main_v114 main_arg13 main_v115 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg14 main_v116 (broadcastInDim S1x128 ![1] bcast_S128_S1x128_1 : (⟨S128, .f32⟩ : BufTy).Contents (Elt F) → (⟨S1x128, .f32⟩ : BufTy).Contents (Elt F)),
    unary main_v116 main_v117 (broadcastInDim S200000x128 ![0, 1] bcast_S1x128_S200000x128_0_1 : (⟨S1x128, .f32⟩ : BufTy).Contents (Elt F) → (⟨S200000x128, .f32⟩ : BufTy).Contents (Elt F)),
    binary main_v115 main_v117 main_v118 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S200000x128, .f32⟩) main_call6_v0) (broadcastInDim S200000x128 ![] bcast_S_S200000x128),
    TRef.binary (TRef.of (T := ⟨S200000x128, .f32⟩) main_v118) (TRef.of (T := ⟨S200000x128, .f32⟩) main_call6_v0) (TRef.of (T := ⟨S200000x128, .f32⟩) main_v119) maximumf,
    binary main_v119 main_arg15 main_v120 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg16 main_v121 (broadcastInDim S1x64 ![1] bcast_S64_S1x64_1 : (⟨S64, .f32⟩ : BufTy).Contents (Elt F) → (⟨S1x64, .f32⟩ : BufTy).Contents (Elt F)),
    unary main_v121 main_v122 (broadcastInDim S200000x64 ![0, 1] bcast_S1x64_S200000x64_0_1 : (⟨S1x64, .f32⟩ : BufTy).Contents (Elt F) → (⟨S200000x64, .f32⟩ : BufTy).Contents (Elt F)),
    binary main_v120 main_v122 main_v123 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S200000x64, .f32⟩) main_call7_v0) (broadcastInDim S200000x64 ![] bcast_S_S200000x64),
    TRef.binary (TRef.of (T := ⟨S200000x64, .f32⟩) main_v123) (TRef.of (T := ⟨S200000x64, .f32⟩) main_call7_v0) (TRef.of (T := ⟨S200000x64, .f32⟩) main_v124) maximumf,
    binary main_v124 main_arg17 main_v125 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    unary main_arg18 main_v126 (broadcastInDim S1x1 ![1] bcast_S1_S1x1_1 : (⟨S1, .f32⟩ : BufTy).Contents (Elt F) → (⟨S1x1, .f32⟩ : BufTy).Contents (Elt F)),
    unary main_v126 main_v127 (broadcastInDim S200000x1 ![0, 1] bcast_S1x1_S200000x1_0_1 : (⟨S1x1, .f32⟩ : BufTy).Contents (Elt F) → (⟨S200000x1, .f32⟩ : BufTy).Contents (Elt F)),
    binary main_v125 main_v127 main_v128 (addf : (⟨S200000x1, .f32⟩ : BufTy).Contents (Elt F) → (⟨S200000x1, .f32⟩ : BufTy).Contents (Elt F) → (⟨S200000x1, .f32⟩ : BufTy).Contents (Elt F)),
    unary main_v128 main_v129 (Host.negf : (⟨S200000x1, .f32⟩ : BufTy).Contents (Elt F) → (⟨S200000x1, .f32⟩ : BufTy).Contents (Elt F)),
    unary main_v129 main_v130 (Host.exp : (⟨S200000x1, .f32⟩ : BufTy).Contents (Elt F) → (⟨S200000x1, .f32⟩ : BufTy).Contents (Elt F)),
    nullary main_cst_20 (constant S_ .f32 0x3F800000#32),
    unary main_cst_20 main_v131 (broadcastInDim S200000x1 ![] bcast_S_S200000x1 : (⟨S_, .f32⟩ : BufTy).Contents (Elt F) → (⟨S200000x1, .f32⟩ : BufTy).Contents (Elt F)),
    binary main_v131 main_v130 main_v132 (addf : (⟨S200000x1, .f32⟩ : BufTy).Contents (Elt F) → (⟨S200000x1, .f32⟩ : BufTy).Contents (Elt F) → (⟨S200000x1, .f32⟩ : BufTy).Contents (Elt F)),
    nullary main_cst_21 (constant S_ .f32 0x3F800000#32),
    unary main_cst_21 main_v133 (broadcastInDim S200000x1 ![] bcast_S_S200000x1 : (⟨S_, .f32⟩ : BufTy).Contents (Elt F) → (⟨S200000x1, .f32⟩ : BufTy).Contents (Elt F)),
    binary main_v133 main_v132 main_v134 (Host.divf : (⟨S200000x1, .f32⟩ : BufTy).Contents (Elt F) → (⟨S200000x1, .f32⟩ : BufTy).Contents (Elt F) → (⟨S200000x1, .f32⟩ : BufTy).Contents (Elt F)),
    reshape main_v134 main_v135 rfl shapeCasts_S200000x1_S200000 ]

/-- The line is its stretches, in order. -/
theorem ops_eq_segs : (ops : List (HloOp τ sig (Elt F)))
    = seg0 ++ seg1 ++ seg2 ++ seg3 ++ seg4 ++ seg5 ++ seg6 ++ seg7 := rfl

/-! ## The typed references' moves are identities -/

theorem toBuf_main_call0_cst (v : (⟨S_, .f32⟩ : BufTy).Contents (Elt Ideal)) :
    (TRef.of (T := ⟨S_, .f32⟩) main_call0_cst).toBuf v = v := Cert.TypedRef.toBuf_eq (TRef.of (T := ⟨S_, .f32⟩) main_call0_cst) v v HEq.rfl
theorem ofBuf_main_call0_cst (v : (⟨S_, .f32⟩ : BufTy).Contents (Elt Ideal)) :
    (TRef.of (T := ⟨S_, .f32⟩) main_call0_cst).ofBuf v = v := Cert.TypedRef.ofBuf_eq (TRef.of (T := ⟨S_, .f32⟩) main_call0_cst) v v HEq.rfl
theorem toBuf_main_call0_v0 (v : (⟨S100000x256, .f32⟩ : BufTy).Contents (Elt Ideal)) :
    (TRef.of (T := ⟨S100000x256, .f32⟩) main_call0_v0).toBuf v = v := Cert.TypedRef.toBuf_eq (TRef.of (T := ⟨S100000x256, .f32⟩) main_call0_v0) v v HEq.rfl
theorem ofBuf_main_call0_v0 (v : (⟨S100000x256, .f32⟩ : BufTy).Contents (Elt Ideal)) :
    (TRef.of (T := ⟨S100000x256, .f32⟩) main_call0_v0).ofBuf v = v := Cert.TypedRef.ofBuf_eq (TRef.of (T := ⟨S100000x256, .f32⟩) main_call0_v0) v v HEq.rfl
theorem toBuf_main_v3 (v : (⟨S100000x256, .f32⟩ : BufTy).Contents (Elt Ideal)) :
    (TRef.of (T := ⟨S100000x256, .f32⟩) main_v3).toBuf v = v := Cert.TypedRef.toBuf_eq (TRef.of (T := ⟨S100000x256, .f32⟩) main_v3) v v HEq.rfl
theorem ofBuf_main_v3 (v : (⟨S100000x256, .f32⟩ : BufTy).Contents (Elt Ideal)) :
    (TRef.of (T := ⟨S100000x256, .f32⟩) main_v3).ofBuf v = v := Cert.TypedRef.ofBuf_eq (TRef.of (T := ⟨S100000x256, .f32⟩) main_v3) v v HEq.rfl
theorem toBuf_main_v4 (v : (⟨S100000x256, .f32⟩ : BufTy).Contents (Elt Ideal)) :
    (TRef.of (T := ⟨S100000x256, .f32⟩) main_v4).toBuf v = v := Cert.TypedRef.toBuf_eq (TRef.of (T := ⟨S100000x256, .f32⟩) main_v4) v v HEq.rfl
theorem ofBuf_main_v4 (v : (⟨S100000x256, .f32⟩ : BufTy).Contents (Elt Ideal)) :
    (TRef.of (T := ⟨S100000x256, .f32⟩) main_v4).ofBuf v = v := Cert.TypedRef.ofBuf_eq (TRef.of (T := ⟨S100000x256, .f32⟩) main_v4) v v HEq.rfl
theorem toBuf_main_call1_cst (v : (⟨S_, .f32⟩ : BufTy).Contents (Elt Ideal)) :
    (TRef.of (T := ⟨S_, .f32⟩) main_call1_cst).toBuf v = v := Cert.TypedRef.toBuf_eq (TRef.of (T := ⟨S_, .f32⟩) main_call1_cst) v v HEq.rfl
theorem ofBuf_main_call1_cst (v : (⟨S_, .f32⟩ : BufTy).Contents (Elt Ideal)) :
    (TRef.of (T := ⟨S_, .f32⟩) main_call1_cst).ofBuf v = v := Cert.TypedRef.ofBuf_eq (TRef.of (T := ⟨S_, .f32⟩) main_call1_cst) v v HEq.rfl
theorem toBuf_main_call1_v0 (v : (⟨S100000x128, .f32⟩ : BufTy).Contents (Elt Ideal)) :
    (TRef.of (T := ⟨S100000x128, .f32⟩) main_call1_v0).toBuf v = v := Cert.TypedRef.toBuf_eq (TRef.of (T := ⟨S100000x128, .f32⟩) main_call1_v0) v v HEq.rfl
theorem ofBuf_main_call1_v0 (v : (⟨S100000x128, .f32⟩ : BufTy).Contents (Elt Ideal)) :
    (TRef.of (T := ⟨S100000x128, .f32⟩) main_call1_v0).ofBuf v = v := Cert.TypedRef.ofBuf_eq (TRef.of (T := ⟨S100000x128, .f32⟩) main_call1_v0) v v HEq.rfl
theorem toBuf_main_v8 (v : (⟨S100000x128, .f32⟩ : BufTy).Contents (Elt Ideal)) :
    (TRef.of (T := ⟨S100000x128, .f32⟩) main_v8).toBuf v = v := Cert.TypedRef.toBuf_eq (TRef.of (T := ⟨S100000x128, .f32⟩) main_v8) v v HEq.rfl
theorem ofBuf_main_v8 (v : (⟨S100000x128, .f32⟩ : BufTy).Contents (Elt Ideal)) :
    (TRef.of (T := ⟨S100000x128, .f32⟩) main_v8).ofBuf v = v := Cert.TypedRef.ofBuf_eq (TRef.of (T := ⟨S100000x128, .f32⟩) main_v8) v v HEq.rfl
theorem toBuf_main_v9 (v : (⟨S100000x128, .f32⟩ : BufTy).Contents (Elt Ideal)) :
    (TRef.of (T := ⟨S100000x128, .f32⟩) main_v9).toBuf v = v := Cert.TypedRef.toBuf_eq (TRef.of (T := ⟨S100000x128, .f32⟩) main_v9) v v HEq.rfl
theorem ofBuf_main_v9 (v : (⟨S100000x128, .f32⟩ : BufTy).Contents (Elt Ideal)) :
    (TRef.of (T := ⟨S100000x128, .f32⟩) main_v9).ofBuf v = v := Cert.TypedRef.ofBuf_eq (TRef.of (T := ⟨S100000x128, .f32⟩) main_v9) v v HEq.rfl
theorem toBuf_main_cst_3 (v : (⟨S_, .f32⟩ : BufTy).Contents (Elt Ideal)) :
    (TRef.of (T := ⟨S_, .f32⟩) main_cst_3).toBuf v = v := Cert.TypedRef.toBuf_eq (TRef.of (T := ⟨S_, .f32⟩) main_cst_3) v v HEq.rfl
theorem ofBuf_main_cst_3 (v : (⟨S_, .f32⟩ : BufTy).Contents (Elt Ideal)) :
    (TRef.of (T := ⟨S_, .f32⟩) main_cst_3).ofBuf v = v := Cert.TypedRef.ofBuf_eq (TRef.of (T := ⟨S_, .f32⟩) main_cst_3) v v HEq.rfl
theorem toBuf_main_call2_v0 (v : (⟨S_, .f32⟩ : BufTy).Contents (Elt Ideal)) :
    (TRef.of (T := ⟨S_, .f32⟩) main_call2_v0).toBuf v = v := Cert.TypedRef.toBuf_eq (TRef.of (T := ⟨S_, .f32⟩) main_call2_v0) v v HEq.rfl
theorem ofBuf_main_call2_v0 (v : (⟨S_, .f32⟩ : BufTy).Contents (Elt Ideal)) :
    (TRef.of (T := ⟨S_, .f32⟩) main_call2_v0).ofBuf v = v := Cert.TypedRef.ofBuf_eq (TRef.of (T := ⟨S_, .f32⟩) main_call2_v0) v v HEq.rfl
theorem toBuf_main_call2_v1 (v : (⟨S100000, .f32⟩ : BufTy).Contents (Elt Ideal)) :
    (TRef.of (T := ⟨S100000, .f32⟩) main_call2_v1).toBuf v = v := Cert.TypedRef.toBuf_eq (TRef.of (T := ⟨S100000, .f32⟩) main_call2_v1) v v HEq.rfl
theorem ofBuf_main_call2_v1 (v : (⟨S100000, .f32⟩ : BufTy).Contents (Elt Ideal)) :
    (TRef.of (T := ⟨S100000, .f32⟩) main_call2_v1).ofBuf v = v := Cert.TypedRef.ofBuf_eq (TRef.of (T := ⟨S100000, .f32⟩) main_call2_v1) v v HEq.rfl
theorem toBuf_main_v22 (v : (⟨S100000, .i1⟩ : BufTy).Contents (Elt Ideal)) :
    (TRef.of (T := ⟨S100000, .i1⟩) main_v22).toBuf v = v := Cert.TypedRef.toBuf_eq (TRef.of (T := ⟨S100000, .i1⟩) main_v22) v v HEq.rfl
theorem ofBuf_main_v22 (v : (⟨S100000, .i1⟩ : BufTy).Contents (Elt Ideal)) :
    (TRef.of (T := ⟨S100000, .i1⟩) main_v22).ofBuf v = v := Cert.TypedRef.ofBuf_eq (TRef.of (T := ⟨S100000, .i1⟩) main_v22) v v HEq.rfl
theorem toBuf_main_v25 (v : (⟨S100000, .f32⟩ : BufTy).Contents (Elt Ideal)) :
    (TRef.of (T := ⟨S100000, .f32⟩) main_v25).toBuf v = v := Cert.TypedRef.toBuf_eq (TRef.of (T := ⟨S100000, .f32⟩) main_v25) v v HEq.rfl
theorem ofBuf_main_v25 (v : (⟨S100000, .f32⟩ : BufTy).Contents (Elt Ideal)) :
    (TRef.of (T := ⟨S100000, .f32⟩) main_v25).ofBuf v = v := Cert.TypedRef.ofBuf_eq (TRef.of (T := ⟨S100000, .f32⟩) main_v25) v v HEq.rfl
theorem toBuf_main_v26 (v : (⟨S100000, .f32⟩ : BufTy).Contents (Elt Ideal)) :
    (TRef.of (T := ⟨S100000, .f32⟩) main_v26).toBuf v = v := Cert.TypedRef.toBuf_eq (TRef.of (T := ⟨S100000, .f32⟩) main_v26) v v HEq.rfl
theorem ofBuf_main_v26 (v : (⟨S100000, .f32⟩ : BufTy).Contents (Elt Ideal)) :
    (TRef.of (T := ⟨S100000, .f32⟩) main_v26).ofBuf v = v := Cert.TypedRef.ofBuf_eq (TRef.of (T := ⟨S100000, .f32⟩) main_v26) v v HEq.rfl
theorem toBuf_main_call3_cst (v : (⟨S_, .f32⟩ : BufTy).Contents (Elt Ideal)) :
    (TRef.of (T := ⟨S_, .f32⟩) main_call3_cst).toBuf v = v := Cert.TypedRef.toBuf_eq (TRef.of (T := ⟨S_, .f32⟩) main_call3_cst) v v HEq.rfl
theorem ofBuf_main_call3_cst (v : (⟨S_, .f32⟩ : BufTy).Contents (Elt Ideal)) :
    (TRef.of (T := ⟨S_, .f32⟩) main_call3_cst).ofBuf v = v := Cert.TypedRef.ofBuf_eq (TRef.of (T := ⟨S_, .f32⟩) main_call3_cst) v v HEq.rfl
theorem toBuf_main_call3_v0 (v : (⟨S100000x64, .f32⟩ : BufTy).Contents (Elt Ideal)) :
    (TRef.of (T := ⟨S100000x64, .f32⟩) main_call3_v0).toBuf v = v := Cert.TypedRef.toBuf_eq (TRef.of (T := ⟨S100000x64, .f32⟩) main_call3_v0) v v HEq.rfl
theorem ofBuf_main_call3_v0 (v : (⟨S100000x64, .f32⟩ : BufTy).Contents (Elt Ideal)) :
    (TRef.of (T := ⟨S100000x64, .f32⟩) main_call3_v0).ofBuf v = v := Cert.TypedRef.ofBuf_eq (TRef.of (T := ⟨S100000x64, .f32⟩) main_call3_v0) v v HEq.rfl
theorem toBuf_main_v58 (v : (⟨S100000x64, .f32⟩ : BufTy).Contents (Elt Ideal)) :
    (TRef.of (T := ⟨S100000x64, .f32⟩) main_v58).toBuf v = v := Cert.TypedRef.toBuf_eq (TRef.of (T := ⟨S100000x64, .f32⟩) main_v58) v v HEq.rfl
theorem ofBuf_main_v58 (v : (⟨S100000x64, .f32⟩ : BufTy).Contents (Elt Ideal)) :
    (TRef.of (T := ⟨S100000x64, .f32⟩) main_v58).ofBuf v = v := Cert.TypedRef.ofBuf_eq (TRef.of (T := ⟨S100000x64, .f32⟩) main_v58) v v HEq.rfl
theorem toBuf_main_v59 (v : (⟨S100000x64, .f32⟩ : BufTy).Contents (Elt Ideal)) :
    (TRef.of (T := ⟨S100000x64, .f32⟩) main_v59).toBuf v = v := Cert.TypedRef.toBuf_eq (TRef.of (T := ⟨S100000x64, .f32⟩) main_v59) v v HEq.rfl
theorem ofBuf_main_v59 (v : (⟨S100000x64, .f32⟩ : BufTy).Contents (Elt Ideal)) :
    (TRef.of (T := ⟨S100000x64, .f32⟩) main_v59).ofBuf v = v := Cert.TypedRef.ofBuf_eq (TRef.of (T := ⟨S100000x64, .f32⟩) main_v59) v v HEq.rfl
theorem toBuf_main_call4_cst (v : (⟨S_, .f32⟩ : BufTy).Contents (Elt Ideal)) :
    (TRef.of (T := ⟨S_, .f32⟩) main_call4_cst).toBuf v = v := Cert.TypedRef.toBuf_eq (TRef.of (T := ⟨S_, .f32⟩) main_call4_cst) v v HEq.rfl
theorem ofBuf_main_call4_cst (v : (⟨S_, .f32⟩ : BufTy).Contents (Elt Ideal)) :
    (TRef.of (T := ⟨S_, .f32⟩) main_call4_cst).ofBuf v = v := Cert.TypedRef.ofBuf_eq (TRef.of (T := ⟨S_, .f32⟩) main_call4_cst) v v HEq.rfl
theorem toBuf_main_call4_v0 (v : (⟨S100000x64, .f32⟩ : BufTy).Contents (Elt Ideal)) :
    (TRef.of (T := ⟨S100000x64, .f32⟩) main_call4_v0).toBuf v = v := Cert.TypedRef.toBuf_eq (TRef.of (T := ⟨S100000x64, .f32⟩) main_call4_v0) v v HEq.rfl
theorem ofBuf_main_call4_v0 (v : (⟨S100000x64, .f32⟩ : BufTy).Contents (Elt Ideal)) :
    (TRef.of (T := ⟨S100000x64, .f32⟩) main_call4_v0).ofBuf v = v := Cert.TypedRef.ofBuf_eq (TRef.of (T := ⟨S100000x64, .f32⟩) main_call4_v0) v v HEq.rfl
theorem toBuf_main_v75 (v : (⟨S100000x64, .f32⟩ : BufTy).Contents (Elt Ideal)) :
    (TRef.of (T := ⟨S100000x64, .f32⟩) main_v75).toBuf v = v := Cert.TypedRef.toBuf_eq (TRef.of (T := ⟨S100000x64, .f32⟩) main_v75) v v HEq.rfl
theorem ofBuf_main_v75 (v : (⟨S100000x64, .f32⟩ : BufTy).Contents (Elt Ideal)) :
    (TRef.of (T := ⟨S100000x64, .f32⟩) main_v75).ofBuf v = v := Cert.TypedRef.ofBuf_eq (TRef.of (T := ⟨S100000x64, .f32⟩) main_v75) v v HEq.rfl
theorem toBuf_main_v76 (v : (⟨S100000x64, .f32⟩ : BufTy).Contents (Elt Ideal)) :
    (TRef.of (T := ⟨S100000x64, .f32⟩) main_v76).toBuf v = v := Cert.TypedRef.toBuf_eq (TRef.of (T := ⟨S100000x64, .f32⟩) main_v76) v v HEq.rfl
theorem ofBuf_main_v76 (v : (⟨S100000x64, .f32⟩ : BufTy).Contents (Elt Ideal)) :
    (TRef.of (T := ⟨S100000x64, .f32⟩) main_v76).ofBuf v = v := Cert.TypedRef.ofBuf_eq (TRef.of (T := ⟨S100000x64, .f32⟩) main_v76) v v HEq.rfl
theorem toBuf_main_call5_cst (v : (⟨S_, .f32⟩ : BufTy).Contents (Elt Ideal)) :
    (TRef.of (T := ⟨S_, .f32⟩) main_call5_cst).toBuf v = v := Cert.TypedRef.toBuf_eq (TRef.of (T := ⟨S_, .f32⟩) main_call5_cst) v v HEq.rfl
theorem ofBuf_main_call5_cst (v : (⟨S_, .f32⟩ : BufTy).Contents (Elt Ideal)) :
    (TRef.of (T := ⟨S_, .f32⟩) main_call5_cst).ofBuf v = v := Cert.TypedRef.ofBuf_eq (TRef.of (T := ⟨S_, .f32⟩) main_call5_cst) v v HEq.rfl
theorem toBuf_main_call5_v0 (v : (⟨S100000x64, .f32⟩ : BufTy).Contents (Elt Ideal)) :
    (TRef.of (T := ⟨S100000x64, .f32⟩) main_call5_v0).toBuf v = v := Cert.TypedRef.toBuf_eq (TRef.of (T := ⟨S100000x64, .f32⟩) main_call5_v0) v v HEq.rfl
theorem ofBuf_main_call5_v0 (v : (⟨S100000x64, .f32⟩ : BufTy).Contents (Elt Ideal)) :
    (TRef.of (T := ⟨S100000x64, .f32⟩) main_call5_v0).ofBuf v = v := Cert.TypedRef.ofBuf_eq (TRef.of (T := ⟨S100000x64, .f32⟩) main_call5_v0) v v HEq.rfl
theorem toBuf_main_v93 (v : (⟨S100000x64, .f32⟩ : BufTy).Contents (Elt Ideal)) :
    (TRef.of (T := ⟨S100000x64, .f32⟩) main_v93).toBuf v = v := Cert.TypedRef.toBuf_eq (TRef.of (T := ⟨S100000x64, .f32⟩) main_v93) v v HEq.rfl
theorem ofBuf_main_v93 (v : (⟨S100000x64, .f32⟩ : BufTy).Contents (Elt Ideal)) :
    (TRef.of (T := ⟨S100000x64, .f32⟩) main_v93).ofBuf v = v := Cert.TypedRef.ofBuf_eq (TRef.of (T := ⟨S100000x64, .f32⟩) main_v93) v v HEq.rfl
theorem toBuf_main_v94 (v : (⟨S100000x64, .f32⟩ : BufTy).Contents (Elt Ideal)) :
    (TRef.of (T := ⟨S100000x64, .f32⟩) main_v94).toBuf v = v := Cert.TypedRef.toBuf_eq (TRef.of (T := ⟨S100000x64, .f32⟩) main_v94) v v HEq.rfl
theorem ofBuf_main_v94 (v : (⟨S100000x64, .f32⟩ : BufTy).Contents (Elt Ideal)) :
    (TRef.of (T := ⟨S100000x64, .f32⟩) main_v94).ofBuf v = v := Cert.TypedRef.ofBuf_eq (TRef.of (T := ⟨S100000x64, .f32⟩) main_v94) v v HEq.rfl
theorem toBuf_main_call6_cst (v : (⟨S_, .f32⟩ : BufTy).Contents (Elt Ideal)) :
    (TRef.of (T := ⟨S_, .f32⟩) main_call6_cst).toBuf v = v := Cert.TypedRef.toBuf_eq (TRef.of (T := ⟨S_, .f32⟩) main_call6_cst) v v HEq.rfl
theorem ofBuf_main_call6_cst (v : (⟨S_, .f32⟩ : BufTy).Contents (Elt Ideal)) :
    (TRef.of (T := ⟨S_, .f32⟩) main_call6_cst).ofBuf v = v := Cert.TypedRef.ofBuf_eq (TRef.of (T := ⟨S_, .f32⟩) main_call6_cst) v v HEq.rfl
theorem toBuf_main_call6_v0 (v : (⟨S200000x128, .f32⟩ : BufTy).Contents (Elt Ideal)) :
    (TRef.of (T := ⟨S200000x128, .f32⟩) main_call6_v0).toBuf v = v := Cert.TypedRef.toBuf_eq (TRef.of (T := ⟨S200000x128, .f32⟩) main_call6_v0) v v HEq.rfl
theorem ofBuf_main_call6_v0 (v : (⟨S200000x128, .f32⟩ : BufTy).Contents (Elt Ideal)) :
    (TRef.of (T := ⟨S200000x128, .f32⟩) main_call6_v0).ofBuf v = v := Cert.TypedRef.ofBuf_eq (TRef.of (T := ⟨S200000x128, .f32⟩) main_call6_v0) v v HEq.rfl
theorem toBuf_main_v118 (v : (⟨S200000x128, .f32⟩ : BufTy).Contents (Elt Ideal)) :
    (TRef.of (T := ⟨S200000x128, .f32⟩) main_v118).toBuf v = v := Cert.TypedRef.toBuf_eq (TRef.of (T := ⟨S200000x128, .f32⟩) main_v118) v v HEq.rfl
theorem ofBuf_main_v118 (v : (⟨S200000x128, .f32⟩ : BufTy).Contents (Elt Ideal)) :
    (TRef.of (T := ⟨S200000x128, .f32⟩) main_v118).ofBuf v = v := Cert.TypedRef.ofBuf_eq (TRef.of (T := ⟨S200000x128, .f32⟩) main_v118) v v HEq.rfl
theorem toBuf_main_v119 (v : (⟨S200000x128, .f32⟩ : BufTy).Contents (Elt Ideal)) :
    (TRef.of (T := ⟨S200000x128, .f32⟩) main_v119).toBuf v = v := Cert.TypedRef.toBuf_eq (TRef.of (T := ⟨S200000x128, .f32⟩) main_v119) v v HEq.rfl
theorem ofBuf_main_v119 (v : (⟨S200000x128, .f32⟩ : BufTy).Contents (Elt Ideal)) :
    (TRef.of (T := ⟨S200000x128, .f32⟩) main_v119).ofBuf v = v := Cert.TypedRef.ofBuf_eq (TRef.of (T := ⟨S200000x128, .f32⟩) main_v119) v v HEq.rfl
theorem toBuf_main_call7_cst (v : (⟨S_, .f32⟩ : BufTy).Contents (Elt Ideal)) :
    (TRef.of (T := ⟨S_, .f32⟩) main_call7_cst).toBuf v = v := Cert.TypedRef.toBuf_eq (TRef.of (T := ⟨S_, .f32⟩) main_call7_cst) v v HEq.rfl
theorem ofBuf_main_call7_cst (v : (⟨S_, .f32⟩ : BufTy).Contents (Elt Ideal)) :
    (TRef.of (T := ⟨S_, .f32⟩) main_call7_cst).ofBuf v = v := Cert.TypedRef.ofBuf_eq (TRef.of (T := ⟨S_, .f32⟩) main_call7_cst) v v HEq.rfl
theorem toBuf_main_call7_v0 (v : (⟨S200000x64, .f32⟩ : BufTy).Contents (Elt Ideal)) :
    (TRef.of (T := ⟨S200000x64, .f32⟩) main_call7_v0).toBuf v = v := Cert.TypedRef.toBuf_eq (TRef.of (T := ⟨S200000x64, .f32⟩) main_call7_v0) v v HEq.rfl
theorem ofBuf_main_call7_v0 (v : (⟨S200000x64, .f32⟩ : BufTy).Contents (Elt Ideal)) :
    (TRef.of (T := ⟨S200000x64, .f32⟩) main_call7_v0).ofBuf v = v := Cert.TypedRef.ofBuf_eq (TRef.of (T := ⟨S200000x64, .f32⟩) main_call7_v0) v v HEq.rfl
theorem toBuf_main_v123 (v : (⟨S200000x64, .f32⟩ : BufTy).Contents (Elt Ideal)) :
    (TRef.of (T := ⟨S200000x64, .f32⟩) main_v123).toBuf v = v := Cert.TypedRef.toBuf_eq (TRef.of (T := ⟨S200000x64, .f32⟩) main_v123) v v HEq.rfl
theorem ofBuf_main_v123 (v : (⟨S200000x64, .f32⟩ : BufTy).Contents (Elt Ideal)) :
    (TRef.of (T := ⟨S200000x64, .f32⟩) main_v123).ofBuf v = v := Cert.TypedRef.ofBuf_eq (TRef.of (T := ⟨S200000x64, .f32⟩) main_v123) v v HEq.rfl
theorem toBuf_main_v124 (v : (⟨S200000x64, .f32⟩ : BufTy).Contents (Elt Ideal)) :
    (TRef.of (T := ⟨S200000x64, .f32⟩) main_v124).toBuf v = v := Cert.TypedRef.toBuf_eq (TRef.of (T := ⟨S200000x64, .f32⟩) main_v124) v v HEq.rfl
theorem ofBuf_main_v124 (v : (⟨S200000x64, .f32⟩ : BufTy).Contents (Elt Ideal)) :
    (TRef.of (T := ⟨S200000x64, .f32⟩) main_v124).ofBuf v = v := Cert.TypedRef.ofBuf_eq (TRef.of (T := ⟨S200000x64, .f32⟩) main_v124) v v HEq.rfl

end Cert.ReferenceIdeal.RefRun

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.RefStage0.lean ====
/-
  Stretch 1 of the reference line: the node encoder.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 1 leaves in the buffers read after it. -/
theorem stage0 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha0 : V (Proc.devRef .tc main_arg0) = x0)
    (ha1 : V (Proc.devRef .tc main_arg1) = x1)
    (ha2 : V (Proc.devRef .tc main_arg2) = x2)
    (ha3 : V (Proc.devRef .tc main_arg3) = x3)
    (ha4 : V (Proc.devRef .tc main_arg4) = x4)
    (ha5 : V (Proc.devRef .tc main_arg5) = x5)
    (ha6 : V (Proc.devRef .tc main_arg6) = x6)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18) :
    (after (seg0 (F := Ideal)) V (Proc.devRef .tc main_v9) = val_main_v9 (F := Ideal) x0 x3 x4 x5 x6)
    ∧ (after (seg0 (F := Ideal)) V (Proc.devRef .tc main_arg1) = x1)
    ∧ (after (seg0 (F := Ideal)) V (Proc.devRef .tc main_arg2) = x2)
    ∧ (after (seg0 (F := Ideal)) V (Proc.devRef .tc main_arg7) = x7)
    ∧ (after (seg0 (F := Ideal)) V (Proc.devRef .tc main_arg8) = x8)
    ∧ (after (seg0 (F := Ideal)) V (Proc.devRef .tc main_arg9) = x9)
    ∧ (after (seg0 (F := Ideal)) V (Proc.devRef .tc main_arg10) = x10)
    ∧ (after (seg0 (F := Ideal)) V (Proc.devRef .tc main_arg11) = x11)
    ∧ (after (seg0 (F := Ideal)) V (Proc.devRef .tc main_arg12) = x12)
    ∧ (after (seg0 (F := Ideal)) V (Proc.devRef .tc main_arg13) = x13)
    ∧ (after (seg0 (F := Ideal)) V (Proc.devRef .tc main_arg14) = x14)
    ∧ (after (seg0 (F := Ideal)) V (Proc.devRef .tc main_arg15) = x15)
    ∧ (after (seg0 (F := Ideal)) V (Proc.devRef .tc main_arg16) = x16)
    ∧ (after (seg0 (F := Ideal)) V (Proc.devRef .tc main_arg17) = x17)
    ∧ (after (seg0 (F := Ideal)) V (Proc.devRef .tc main_arg18) = x18) := by
  simp only [seg0]
  refine ⟨?_, ?_, ?_, ?_, ?_, ?_, ?_, ?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha0, ha1, ha2, ha3, ha4, ha5, ha6, ha7, ha8, ha9, ha10, ha11, ha12, ha13, ha14, ha15, ha16, ha17, ha18]
    all_goals rfl
  · eval_line; exact ha1
  · eval_line; exact ha2
  · eval_line; exact ha7
  · eval_line; exact ha8
  · eval_line; exact ha9
  · eval_line; exact ha10
  · eval_line; exact ha11
  · eval_line; exact ha12
  · eval_line; exact ha13
  · eval_line; exact ha14
  · eval_line; exact ha15
  · eval_line; exact ha16
  · eval_line; exact ha17
  · eval_line; exact ha18

end Cert.ReferenceIdeal.RefRun

end
-- ==== Proof.RefStage1.lean ====
/-
  Stretch 2 of the reference line: the edge lists with their self-loops and the degree scale.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 2 leaves in the buffers read after it. -/
theorem stage1 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha1 : V (Proc.devRef .tc main_arg1) = x1)
    (ha2 : V (Proc.devRef .tc main_arg2) = x2)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v9 : V (Proc.devRef .tc main_v9) = val_main_v9 (F := Ideal) x0 x3 x4 x5 x6) :
    (after (seg1 (F := Ideal)) V (Proc.devRef .tc main_v16) = val_main_v16 (F := Ideal) x1)
    ∧ (after (seg1 (F := Ideal)) V (Proc.devRef .tc main_v13) = val_main_v13 (F := Ideal) x1)
    ∧ (after (seg1 (F := Ideal)) V (Proc.devRef .tc main_v26) = val_main_v26 (F := Ideal) x1)
    ∧ (after (seg1 (F := Ideal)) V (Proc.devRef .tc main_v9) = val_main_v9 (F := Ideal) x0 x3 x4 x5 x6)
    ∧ (after (seg1 (F := Ideal)) V (Proc.devRef .tc main_arg2) = x2)
    ∧ (after (seg1 (F := Ideal)) V (Proc.devRef .tc main_arg7) = x7)
    ∧ (after (seg1 (F := Ideal)) V (Proc.devRef .tc main_arg8) = x8)
    ∧ (after (seg1 (F := Ideal)) V (Proc.devRef .tc main_arg9) = x9)
    ∧ (after (seg1 (F := Ideal)) V (Proc.devRef .tc main_arg10) = x10)
    ∧ (after (seg1 (F := Ideal)) V (Proc.devRef .tc main_arg11) = x11)
    ∧ (after (seg1 (F := Ideal)) V (Proc.devRef .tc main_arg12) = x12)
    ∧ (after (seg1 (F := Ideal)) V (Proc.devRef .tc main_arg13) = x13)
    ∧ (after (seg1 (F := Ideal)) V (Proc.devRef .tc main_arg14) = x14)
    ∧ (after (seg1 (F := Ideal)) V (Proc.devRef .tc main_arg15) = x15)
    ∧ (after (seg1 (F := Ideal)) V (Proc.devRef .tc main_arg16) = x16)
    ∧ (after (seg1 (F := Ideal)) V (Proc.devRef .tc main_arg17) = x17)
    ∧ (after (seg1 (F := Ideal)) V (Proc.devRef .tc main_arg18) = x18) := by
  simp only [seg1]
  refine ⟨?_, ?_, ?_, ?_, ?_, ?_, ?_, ?_, ?_, ?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha1, ha2, ha7, ha8, ha9, ha10, ha11, ha12, ha13, ha14, ha15, ha16, ha17, ha18, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha1, ha2, ha7, ha8, ha9, ha10, ha11, ha12, ha13, ha14, ha15, ha16, ha17, ha18, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha1, ha2, ha7, ha8, ha9, ha10, ha11, ha12, ha13, ha14, ha15, ha16, ha17, ha18, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha1, ha2, ha7, ha8, ha9, ha10, ha11, ha12, ha13, ha14, ha15, ha16, ha17, ha18, h_main_v9]
    all_goals rfl
  · eval_line; exact ha2
  · eval_line; exact ha7
  · eval_line; exact ha8
  · eval_line; exact ha9
  · eval_line; exact ha10
  · eval_line; exact ha11
  · eval_line; exact ha12
  · eval_line; exact ha13
  · eval_line; exact ha14
  · eval_line; exact ha15
  · eval_line; exact ha16
  · eval_line; exact ha17
  · eval_line; exact ha18

end Cert.ReferenceIdeal.RefRun

end
-- ==== Proof.RefStage2.lean ====
/-
  Stretch 3 of the reference line: the per-edge factor: the product of the two end points' scales.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 3 leaves in the buffers read after it. -/
theorem stage2 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha2 : V (Proc.devRef .tc main_arg2) = x2)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v16 : V (Proc.devRef .tc main_v16) = val_main_v16 (F := Ideal) x1)
    (h_main_v13 : V (Proc.devRef .tc main_v13) = val_main_v13 (F := Ideal) x1)
    (h_main_v26 : V (Proc.devRef .tc main_v26) = val_main_v26 (F := Ideal) x1)
    (h_main_v9 : V (Proc.devRef .tc main_v9) = val_main_v9 (F := Ideal) x0 x3 x4 x5 x6) :
    (after (seg2 (F := Ideal)) V (Proc.devRef .tc main_v16) = val_main_v16 (F := Ideal) x1)
    ∧ (after (seg2 (F := Ideal)) V (Proc.devRef .tc main_v13) = val_main_v13 (F := Ideal) x1)
    ∧ (after (seg2 (F := Ideal)) V (Proc.devRef .tc main_v9) = val_main_v9 (F := Ideal) x0 x3 x4 x5 x6)
    ∧ (after (seg2 (F := Ideal)) V (Proc.devRef .tc main_v42) = val_main_v42 (F := Ideal) x1)
    ∧ (after (seg2 (F := Ideal)) V (Proc.devRef .tc main_arg2) = x2)
    ∧ (after (seg2 (F := Ideal)) V (Proc.devRef .tc main_arg7) = x7)
    ∧ (after (seg2 (F := Ideal)) V (Proc.devRef .tc main_arg8) = x8)
    ∧ (after (seg2 (F := Ideal)) V (Proc.devRef .tc main_arg9) = x9)
    ∧ (after (seg2 (F := Ideal)) V (Proc.devRef .tc main_arg10) = x10)
    ∧ (after (seg2 (F := Ideal)) V (Proc.devRef .tc main_arg11) = x11)
    ∧ (after (seg2 (F := Ideal)) V (Proc.devRef .tc main_arg12) = x12)
    ∧ (after (seg2 (F := Ideal)) V (Proc.devRef .tc main_arg13) = x13)
    ∧ (after (seg2 (F := Ideal)) V (Proc.devRef .tc main_arg14) = x14)
    ∧ (after (seg2 (F := Ideal)) V (Proc.devRef .tc main_arg15) = x15)
    ∧ (after (seg2 (F := Ideal)) V (Proc.devRef .tc main_arg16) = x16)
    ∧ (after (seg2 (F := Ideal)) V (Proc.devRef .tc main_arg17) = x17)
    ∧ (after (seg2 (F := Ideal)) V (Proc.devRef .tc main_arg18) = x18) := by
  simp only [seg2]
  refine ⟨?_, ?_, ?_, ?_, ?_, ?_, ?_, ?_, ?_, ?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v26, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v26, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v26, h_main_v9]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v26, h_main_v9]
    all_goals rfl
  · eval_line; exact ha2
  · eval_line; exact ha7
  · eval_line; exact ha8
  · eval_line; exact ha9
  · eval_line; exact ha10
  · eval_line; exact ha11
  · eval_line; exact ha12
  · eval_line; exact ha13
  · eval_line; exact ha14
  · eval_line; exact ha15
  · eval_line; exact ha16
  · eval_line; exact ha17
  · eval_line; exact ha18

end Cert.ReferenceIdeal.RefRun

end
-- ==== Proof.RefStage3.lean ====
/-
  Stretch 4 of the reference line: the first layer.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 4 leaves in the buffers read after it. -/
theorem stage3 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha2 : V (Proc.devRef .tc main_arg2) = x2)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v16 : V (Proc.devRef .tc main_v16) = val_main_v16 (F := Ideal) x1)
    (h_main_v13 : V (Proc.devRef .tc main_v13) = val_main_v13 (F := Ideal) x1)
    (h_main_v9 : V (Proc.devRef .tc main_v9) = val_main_v9 (F := Ideal) x0 x3 x4 x5 x6)
    (h_main_v42 : V (Proc.devRef .tc main_v42) = val_main_v42 (F := Ideal) x1) :
    (after (seg3 (F := Ideal)) V (Proc.devRef .tc main_v16) = val_main_v16 (F := Ideal) x1)
    ∧ (after (seg3 (F := Ideal)) V (Proc.devRef .tc main_v13) = val_main_v13 (F := Ideal) x1)
    ∧ (after (seg3 (F := Ideal)) V (Proc.devRef .tc main_v42) = val_main_v42 (F := Ideal) x1)
    ∧ (after (seg3 (F := Ideal)) V (Proc.devRef .tc main_v59) = val_main_v59 (F := Ideal) x0 x1 x3 x4 x5 x6 x7 x8)
    ∧ (after (seg3 (F := Ideal)) V (Proc.devRef .tc main_arg2) = x2)
    ∧ (after (seg3 (F := Ideal)) V (Proc.devRef .tc main_arg9) = x9)
    ∧ (after (seg3 (F := Ideal)) V (Proc.devRef .tc main_arg10) = x10)
    ∧ (after (seg3 (F := Ideal)) V (Proc.devRef .tc main_arg11) = x11)
    ∧ (after (seg3 (F := Ideal)) V (Proc.devRef .tc main_arg12) = x12)
    ∧ (after (seg3 (F := Ideal)) V (Proc.devRef .tc main_arg13) = x13)
    ∧ (after (seg3 (F := Ideal)) V (Proc.devRef .tc main_arg14) = x14)
    ∧ (after (seg3 (F := Ideal)) V (Proc.devRef .tc main_arg15) = x15)
    ∧ (after (seg3 (F := Ideal)) V (Proc.devRef .tc main_arg16) = x16)
    ∧ (after (seg3 (F := Ideal)) V (Proc.devRef .tc main_arg17) = x17)
    ∧ (after (seg3 (F := Ideal)) V (Proc.devRef .tc main_arg18) = x18) := by
  simp only [seg3]
  refine ⟨?_, ?_, ?_, ?_, ?_, ?_, ?_, ?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v9, h_main_v42]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v9, h_main_v42]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v9, h_main_v42]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha7, ha8, ha9, ha10, ha11, ha12, ha13, ha14, ha15, ha16, ha17, ha18, h_main_v16, h_main_v13, h_main_v9, h_main_v42]
    all_goals rfl
  · eval_line; exact ha2
  · eval_line; exact ha9
  · eval_line; exact ha10
  · eval_line; exact ha11
  · eval_line; exact ha12
  · eval_line; exact ha13
  · eval_line; exact ha14
  · eval_line; exact ha15
  · eval_line; exact ha16
  · eval_line; exact ha17
  · eval_line; exact ha18

end Cert.ReferenceIdeal.RefRun

end
-- ==== Proof.RefStage4.lean ====
/-
  Stretch 5 of the reference line: the second layer and its residual.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 5 leaves in the buffers read after it. -/
theorem stage4 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha2 : V (Proc.devRef .tc main_arg2) = x2)
    (ha9 : V (Proc.devRef .tc main_arg9) = x9)
    (ha10 : V (Proc.devRef .tc main_arg10) = x10)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v16 : V (Proc.devRef .tc main_v16) = val_main_v16 (F := Ideal) x1)
    (h_main_v13 : V (Proc.devRef .tc main_v13) = val_main_v13 (F := Ideal) x1)
    (h_main_v42 : V (Proc.devRef .tc main_v42) = val_main_v42 (F := Ideal) x1)
    (h_main_v59 : V (Proc.devRef .tc main_v59) = val_main_v59 (F := Ideal) x0 x1 x3 x4 x5 x6 x7 x8) :
    (after (seg4 (F := Ideal)) V (Proc.devRef .tc main_v16) = val_main_v16 (F := Ideal) x1)
    ∧ (after (seg4 (F := Ideal)) V (Proc.devRef .tc main_v13) = val_main_v13 (F := Ideal) x1)
    ∧ (after (seg4 (F := Ideal)) V (Proc.devRef .tc main_v42) = val_main_v42 (F := Ideal) x1)
    ∧ (after (seg4 (F := Ideal)) V (Proc.devRef .tc main_v77) = val_main_v77 (F := Ideal) x0 x1 x3 x4 x5 x6 x7 x8 x9 x10)
    ∧ (after (seg4 (F := Ideal)) V (Proc.devRef .tc main_arg2) = x2)
    ∧ (after (seg4 (F := Ideal)) V (Proc.devRef .tc main_arg11) = x11)
    ∧ (after (seg4 (F := Ideal)) V (Proc.devRef .tc main_arg12) = x12)
    ∧ (after (seg4 (F := Ideal)) V (Proc.devRef .tc main_arg13) = x13)
    ∧ (after (seg4 (F := Ideal)) V (Proc.devRef .tc main_arg14) = x14)
    ∧ (after (seg4 (F := Ideal)) V (Proc.devRef .tc main_arg15) = x15)
    ∧ (after (seg4 (F := Ideal)) V (Proc.devRef .tc main_arg16) = x16)
    ∧ (after (seg4 (F := Ideal)) V (Proc.devRef .tc main_arg17) = x17)
    ∧ (after (seg4 (F := Ideal)) V (Proc.devRef .tc main_arg18) = x18) := by
  simp only [seg4]
  refine ⟨?_, ?_, ?_, ?_, ?_, ?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha9, ha10, ha11, ha12, ha13, ha14, ha15, ha16, ha17, ha18, h_main_v16, h_main_v13, h_main_v42, h_main_v59]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha9, ha10, ha11, ha12, ha13, ha14, ha15, ha16, ha17, ha18, h_main_v16, h_main_v13, h_main_v42, h_main_v59]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha9, ha10, ha11, ha12, ha13, ha14, ha15, ha16, ha17, ha18, h_main_v16, h_main_v13, h_main_v42, h_main_v59]
    all_goals rfl
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha9, ha10, ha11, ha12, ha13, ha14, ha15, ha16, ha17, ha18, h_main_v16, h_main_v13, h_main_v42, h_main_v59]
    all_goals rfl
  · eval_line; exact ha2
  · eval_line; exact ha11
  · eval_line; exact ha12
  · eval_line; exact ha13
  · eval_line; exact ha14
  · eval_line; exact ha15
  · eval_line; exact ha16
  · eval_line; exact ha17
  · eval_line; exact ha18

end Cert.ReferenceIdeal.RefRun

end
-- ==== Proof.RefStage5.lean ====
/-
  Stretch 6 of the reference line: the third layer and its residual.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 6 leaves in the buffers read after it. -/
theorem stage5 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha2 : V (Proc.devRef .tc main_arg2) = x2)
    (ha11 : V (Proc.devRef .tc main_arg11) = x11)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v16 : V (Proc.devRef .tc main_v16) = val_main_v16 (F := Ideal) x1)
    (h_main_v13 : V (Proc.devRef .tc main_v13) = val_main_v13 (F := Ideal) x1)
    (h_main_v42 : V (Proc.devRef .tc main_v42) = val_main_v42 (F := Ideal) x1)
    (h_main_v77 : V (Proc.devRef .tc main_v77) = val_main_v77 (F := Ideal) x0 x1 x3 x4 x5 x6 x7 x8 x9 x10) :
    (after (seg5 (F := Ideal)) V (Proc.devRef .tc main_v95) = val_main_v95 (F := Ideal) x0 x1 x3 x4 x5 x6 x7 x8 x9 x10 x11 x12)
    ∧ (after (seg5 (F := Ideal)) V (Proc.devRef .tc main_arg2) = x2)
    ∧ (after (seg5 (F := Ideal)) V (Proc.devRef .tc main_arg13) = x13)
    ∧ (after (seg5 (F := Ideal)) V (Proc.devRef .tc main_arg14) = x14)
    ∧ (after (seg5 (F := Ideal)) V (Proc.devRef .tc main_arg15) = x15)
    ∧ (after (seg5 (F := Ideal)) V (Proc.devRef .tc main_arg16) = x16)
    ∧ (after (seg5 (F := Ideal)) V (Proc.devRef .tc main_arg17) = x17)
    ∧ (after (seg5 (F := Ideal)) V (Proc.devRef .tc main_arg18) = x18) := by
  simp only [seg5]
  refine ⟨?_, ?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha11, ha12, ha13, ha14, ha15, ha16, ha17, ha18, h_main_v16, h_main_v13, h_main_v42, h_main_v77]
    all_goals rfl
  · eval_line; exact ha2
  · eval_line; exact ha13
  · eval_line; exact ha14
  · eval_line; exact ha15
  · eval_line; exact ha16
  · eval_line; exact ha17
  · eval_line; exact ha18

end Cert.ReferenceIdeal.RefRun

end
-- ==== Proof.RefStage6.lean ====
/-
  Stretch 7 of the reference line: the candidate edges' two gathered rows, joined.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 7 leaves in the buffers read after it. -/
theorem stage6 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha2 : V (Proc.devRef .tc main_arg2) = x2)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v95 : V (Proc.devRef .tc main_v95) = val_main_v95 (F := Ideal) x0 x1 x3 x4 x5 x6 x7 x8 x9 x10 x11 x12) :
    (after (seg6 (F := Ideal)) V (Proc.devRef .tc main_v114) = val_main_v114 (F := Ideal) x0 x1 x2 x3 x4 x5 x6 x7 x8 x9 x10 x11 x12)
    ∧ (after (seg6 (F := Ideal)) V (Proc.devRef .tc main_arg13) = x13)
    ∧ (after (seg6 (F := Ideal)) V (Proc.devRef .tc main_arg14) = x14)
    ∧ (after (seg6 (F := Ideal)) V (Proc.devRef .tc main_arg15) = x15)
    ∧ (after (seg6 (F := Ideal)) V (Proc.devRef .tc main_arg16) = x16)
    ∧ (after (seg6 (F := Ideal)) V (Proc.devRef .tc main_arg17) = x17)
    ∧ (after (seg6 (F := Ideal)) V (Proc.devRef .tc main_arg18) = x18) := by
  simp only [seg6]
  refine ⟨?_, ?_, ?_, ?_, ?_, ?_, ?_⟩
  · eval_line
    try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
    try simp only [ha2, ha13, ha14, ha15, ha16, ha17, ha18, h_main_v95]
    all_goals rfl
  · eval_line; exact ha13
  · eval_line; exact ha14
  · eval_line; exact ha15
  · eval_line; exact ha16
  · eval_line; exact ha17
  · eval_line; exact ha18

end Cert.ReferenceIdeal.RefRun

end
-- ==== Proof.RefStage7.lean ====
/-
  Stretch 8 of the reference line: the edge predictor's three dense layers and the logistic.

  From any contents in which the buffers the stretch still reads hold their stages, the stretch leaves, in every buffer
  that a later stretch reads, that buffer's stage: walking the stretch backwards from the buffer applies each
  operation's function to what its operands held, down to the buffers found, and the composition is the stage's own
  definition unfolded through the stretch.
-/
import proofs.«151212_j72112500900409_2_alg».proof.Proof.RefSegs
import proofs.«151212_j72112500900409_2_alg».proof.Proof.RefRead
import proofs.«151212_j72112500900409_2_alg».proof.Proof.LibLineEval

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.LineEval

-- several buffers, each walked back through the whole stretch, in one statement
set_option maxHeartbeats 2000000 in
/-- What stretch 8 leaves in the buffers read after it. -/
theorem stage7 (V : Valuation τ sig (Elt Ideal)) (x0 : (⟨S100000x32, .f32⟩ : BufTy).Contents (Elt Ideal)) (x1 : (⟨S2x1600000, .i32⟩ : BufTy).Contents (Elt Ideal)) (x2 : (⟨S2x200000, .i32⟩ : BufTy).Contents (Elt Ideal)) (x3 : (⟨S32x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S128x128, .f32⟩ : BufTy).Contents (Elt Ideal)) (x14 : (⟨S128, .f32⟩ : BufTy).Contents (Elt Ideal)) (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (h_main_v114 : V (Proc.devRef .tc main_v114) = val_main_v114 (F := Ideal) x0 x1 x2 x3 x4 x5 x6 x7 x8 x9 x10 x11 x12) :
    (after (seg7 (F := Ideal)) V (Proc.devRef .tc main_v135) = val_main_v135 (F := Ideal) x0 x1 x2 x3 x4 x5 x6 x7 x8 x9 x10 x11 x12 x13 x14 x15 x16 x17 x18) := by
  simp only [seg7]
  eval_line
  try simp only [toBuf_main_call0_cst, ofBuf_main_call0_cst, toBuf_main_call0_v0, ofBuf_main_call0_v0, toBuf_main_v3, ofBuf_main_v3, toBuf_main_v4, ofBuf_main_v4, toBuf_main_call1_cst, ofBuf_main_call1_cst, toBuf_main_call1_v0, ofBuf_main_call1_v0, toBuf_main_v8, ofBuf_main_v8, toBuf_main_v9, ofBuf_main_v9, toBuf_main_cst_3, ofBuf_main_cst_3, toBuf_main_call2_v0, ofBuf_main_call2_v0, toBuf_main_call2_v1, ofBuf_main_call2_v1, toBuf_main_v22, ofBuf_main_v22, toBuf_main_v25, ofBuf_main_v25, toBuf_main_v26, ofBuf_main_v26, toBuf_main_call3_cst, ofBuf_main_call3_cst, toBuf_main_call3_v0, ofBuf_main_call3_v0, toBuf_main_v58, ofBuf_main_v58, toBuf_main_v59, ofBuf_main_v59, toBuf_main_call4_cst, ofBuf_main_call4_cst, toBuf_main_call4_v0, ofBuf_main_call4_v0, toBuf_main_v75, ofBuf_main_v75, toBuf_main_v76, ofBuf_main_v76, toBuf_main_call5_cst, ofBuf_main_call5_cst, toBuf_main_call5_v0, ofBuf_main_call5_v0, toBuf_main_v93, ofBuf_main_v93, toBuf_main_v94, ofBuf_main_v94, toBuf_main_call6_cst, ofBuf_main_call6_cst, toBuf_main_call6_v0, ofBuf_main_call6_v0, toBuf_main_v118, ofBuf_main_v118, toBuf_main_v119, ofBuf_main_v119, toBuf_main_call7_cst, ofBuf_main_call7_cst, toBuf_main_call7_v0, ofBuf_main_call7_v0, toBuf_main_v123, ofBuf_main_v123, toBuf_main_v124, ofBuf_main_v124]
  try simp only [ha13, ha14, ha15, ha16, ha17, ha18, h_main_v114]
  all_goals rfl

end Cert.ReferenceIdeal.RefRun

end
-- ==== Proof.LibRegionOps.lean ====
/-
  A pipelined region with several output arrays as a short line of pure operations.

  A program that alternates stretches of host operations with pipelined regions leaves, at each boundary, the buffer
  contents obtained by folding its segments over the launch contents.  A region replaces its arrays by what its
  write-backs leave and touches nothing else.  If a list of operations writes exactly the region's output arrays, each
  output array ends at what the list leaves there, and every other array of the region ends as the region found it, then
  the region rewrites the contents exactly as that list does.  With one such list per region the whole program is one
  line of operations, and what a buffer holds at the end is a computation over that line.
-/
import Idealize.ShloMosaic.Lib.Pipeline.FrameSuffix
import Idealize.ShloMosaic.Lib.StableHlo.Run

noncomputable section

namespace Cert.RegionOps

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output arrays (those in `outs`) end at what the line `ops` leaves there, whose other arrays end as
    the region found them, while `ops` writes output arrays only, leaves what `ops` leaves. -/
theorem withArrays_eq_after {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (ops : List (HloOp τ sig Val)) (outs : Finset (Fin W))
    (hw : ∀ op ∈ ops, ∀ b ∈ op.writes, ∃ w ∈ outs, b = Proc.devRef .tc (Pipeline.arrRef win w))
    (hout : ∀ w ∈ outs, A w = after ops V (Proc.devRef .tc (Pipeline.arrRef win w)))
    (hin : ∀ w, w ∉ outs → A w = V (Proc.devRef .tc (Pipeline.arrRef win w))) :
    Pipeline.withArrays win c V A = after ops V := by
  funext b
  by_cases h : ∃ w, Proc.devRef .tc (Pipeline.arrRef win w) = b
  · obtain ⟨w, rfl⟩ := h
    rw [Pipeline.withArrays_arr win hinj]
    by_cases hwo : w ∈ outs
    · exact hout w hwo
    · rw [hin w hwo, after_of_forall_not_mem ops V fun op hop hb => by
        obtain ⟨w', hw', e⟩ := hw op hop _ hb
        exact hwo ((hinj (Proc.devRef_injective _ e)) ▸ hw')]
  · rw [after_of_forall_not_mem ops V fun op hop hb => by
      obtain ⟨w', _, e⟩ := hw op hop _ hb
      exact h ⟨w', e.symm⟩]
    unfold Pipeline.withArrays
    rw [dif_neg h]

end Cert.RegionOps

end
-- ==== Proof.RefResult.lean ====
/-
  The reference program's result buffer, read back over its staged values.

  The reference is one straight line of 176 host operations, each writing its own buffer once.  Every weakly fair
  execution runs the line to its end, and each buffer ends at the fold of the operations' functions over the launch
  contents.  Walking that fold backwards from the result buffer applies each operation's function to what its operand
  buffers ended at; the value met at every buffer is the stage the read module names `val_main_vN` — the same function
  of the same earlier stages — and the argument buffers, which no operation writes, end as launched.  Stating the
  result by the LAST STAGE keeps every shared value (the degree scale is used by each of the three layers, each layer's
  embedding twice by the next) as one named function instead of one copy per use.

  The walk is made stretch by stretch: the line is eight stretches, cut where few buffers are still to be read, and
  each stretch carries "the buffers still read hold their stages" from its start to its end.
-/
import proofs.«151212_j72112500900409_2_alg».proof.Proof.RefOps
import proofs.«151212_j72112500900409_2_alg».proof.Proof.RefRead
import proofs.«151212_j72112500900409_2_alg».proof.Proof.RefSegs
import proofs.«151212_j72112500900409_2_alg».proof.Proof.RefStage0
import proofs.«151212_j72112500900409_2_alg».proof.Proof.RefStage1
import proofs.«151212_j72112500900409_2_alg».proof.Proof.RefStage2
import proofs.«151212_j72112500900409_2_alg».proof.Proof.RefStage3
import proofs.«151212_j72112500900409_2_alg».proof.Proof.RefStage4
import proofs.«151212_j72112500900409_2_alg».proof.Proof.RefStage5
import proofs.«151212_j72112500900409_2_alg».proof.Proof.RefStage6
import proofs.«151212_j72112500900409_2_alg».proof.Proof.RefStage7
import proofs.«151212_j72112500900409_2_alg».proof.Proof.LibRegionOps

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

/-- What the result buffer ends at is the last stage of the arguments as launched. -/
theorem result_eq :
    after (ops (F := Ideal)) (launchContents m c) (Proc.devRef .tc main_v135)
      = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [ops_eq_segs]
  simp only [Cert.RegionOps.after_append]
  obtain ⟨h0_v9, a0_1, a0_2, a0_7, a0_8, a0_9, a0_10, a0_11, a0_12, a0_13, a0_14, a0_15, a0_16, a0_17, a0_18⟩ := stage0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    rfl rfl rfl rfl rfl rfl rfl rfl rfl rfl rfl rfl rfl rfl rfl rfl rfl rfl rfl
  obtain ⟨h1_v16, h1_v13, h1_v26, h1_v9, a1_2, a1_7, a1_8, a1_9, a1_10, a1_11, a1_12, a1_13, a1_14, a1_15, a1_16, a1_17, a1_18⟩ := stage1 (after seg0 (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a0_1 a0_2 a0_7 a0_8 a0_9 a0_10 a0_11 a0_12 a0_13 a0_14 a0_15 a0_16 a0_17 a0_18 h0_v9
  obtain ⟨h2_v16, h2_v13, h2_v9, h2_v42, a2_2, a2_7, a2_8, a2_9, a2_10, a2_11, a2_12, a2_13, a2_14, a2_15, a2_16, a2_17, a2_18⟩ := stage2 (after seg1 (after seg0 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a1_2 a1_7 a1_8 a1_9 a1_10 a1_11 a1_12 a1_13 a1_14 a1_15 a1_16 a1_17 a1_18 h1_v16 h1_v13 h1_v26 h1_v9
  obtain ⟨h3_v16, h3_v13, h3_v42, h3_v59, a3_2, a3_9, a3_10, a3_11, a3_12, a3_13, a3_14, a3_15, a3_16, a3_17, a3_18⟩ := stage3 (after seg2 (after seg1 (after seg0 (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a2_2 a2_7 a2_8 a2_9 a2_10 a2_11 a2_12 a2_13 a2_14 a2_15 a2_16 a2_17 a2_18 h2_v16 h2_v13 h2_v9 h2_v42
  obtain ⟨h4_v16, h4_v13, h4_v42, h4_v77, a4_2, a4_11, a4_12, a4_13, a4_14, a4_15, a4_16, a4_17, a4_18⟩ := stage4 (after seg3 (after seg2 (after seg1 (after seg0 (launchContents m c))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a3_2 a3_9 a3_10 a3_11 a3_12 a3_13 a3_14 a3_15 a3_16 a3_17 a3_18 h3_v16 h3_v13 h3_v42 h3_v59
  obtain ⟨h5_v95, a5_2, a5_13, a5_14, a5_15, a5_16, a5_17, a5_18⟩ := stage5 (after seg4 (after seg3 (after seg2 (after seg1 (after seg0 (launchContents m c)))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a4_2 a4_11 a4_12 a4_13 a4_14 a4_15 a4_16 a4_17 a4_18 h4_v16 h4_v13 h4_v42 h4_v77
  obtain ⟨h6_v114, a6_13, a6_14, a6_15, a6_16, a6_17, a6_18⟩ := stage6 (after seg5 (after seg4 (after seg3 (after seg2 (after seg1 (after seg0 (launchContents m c))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a5_2 a5_13 a5_14 a5_15 a5_16 a5_17 a5_18 h5_v95
  exact stage7 (after seg6 (after seg5 (after seg4 (after seg3 (after seg2 (after seg1 (after seg0 (launchContents m c)))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
    a6_13 a6_14 a6_15 a6_16 a6_17 a6_18 h6_v114

end Cert.ReferenceIdeal.RefRun

end
-- ==== Proof.RefRunH.lean ====
/-
  The reference program's run: every weakly fair execution of its one line of host operations terminates, the result
  buffer ends at the last stage of the arguments as launched (the fold of the line read back: `result_eq`), and the
  argument buffers, which no operation writes, end as launched.
-/
import proofs.«151212_j72112500900409_2_alg».proof.Proof.RefOps
import proofs.«151212_j72112500900409_2_alg».proof.Proof.RefRead
import proofs.«151212_j72112500900409_2_alg».proof.Proof.RefResult

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxRecDepth 8192 in
set_option maxHeartbeats 70400000 in
/-- On every device, from any memory with zero counters: every weakly fair execution of the reference terminates with
    its result at the last stage of the arguments as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v135) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v135).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl)⟩)
    (run_seq scopedRefs_eq scopedSems_eq defs main (fun _ => ops) main_eq (fun _ => ops_sub) m ρ)

end Cert.ReferenceIdeal.RefRun

end
-- ==== Proof.KRun.lean ====
/-
  The idealized program's run with its result named.

  Every weakly fair execution of the program on the cores terminates without a fault; at the end the result buffer
  holds what the fold of the program's segments over the launch contents leaves there (the last boundary's contents,
  `Gen.W13`, read at the result buffer), and every argument array is as launched.
-/
import proofs.«151212_j72112500900409_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: from any memory with zero counters every weakly fair execution of the program terminates, nothing
    faulting; the result buffer ends at the last boundary's contents and the argument arrays end as launched.  The
    last thread state holds every unscoped buffer at the last boundary's contents; read against the final state it
    gives the result buffer directly and each argument through the fold back to the launch memory. -/
theorem run : θ_run defs (onTc (τ := τ) (main (F := F))) ⟨m, fun _ => 0, ρ⟩ (fun r => ∀ c : Dev nD,
      r.2.mem ((c.tc : Thread nD τ).loc main_v76) = W13 (F := F) m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v76 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c)⟩)

end Cert.KernelIdeal.KRun

end
-- ==== Proof.KSpec.lean ====
/-
  The layers of the network as functions of whole arrays, entry by entry, on the extended reals.

  Every function below is local to a row: the entry (r, c) of its result depends on row r of the row-indexed
  arguments and on the whole of the small arguments (weights, bias vectors).  It is stated for any number of rows M,
  so the same definition describes what one grid point computes on its block of 4000 rows and what the whole call
  leaves in the array of all rows; `rows_*` say that the block of a result is the result of the blocks.
-/
import Idealize.ShloMosaic.PureOps.Ideal.Laws
import Idealize.ShloMosaic.Lib.ValueIdx

noncomputable section

open scoped BigOperators

namespace Cert.GSpec

open Idealize.ShloMosaic Idealize.ShloMosaic.ValueIdx

/-- The value of the all-zero f32 word. -/
abbrev z : EReal := Ideal.ofBits .f32 0x00000000#32

/-- An a-by-b array of extended reals. -/
abbrev Mat (a b : Nat) : Type := (⟨2, ![a, b]⟩ : Shape).Idx → EReal
/-- A length-a vector of extended reals. -/
abbrev Vc (a : Nat) : Type := (⟨1, ![a]⟩ : Shape).Idx → EReal

/-- The array whose entry (r, c) is `f r c`. -/
def ofFn2 {a b : Nat} (f : Fin a → Fin b → EReal) : Mat a b := fun j => f (j 0) (j 1)

@[simp] theorem ofFn2_apply {a b : Nat} (f : Fin a → Fin b → EReal) (r : Fin a) (c : Fin b) :
    ofFn2 f (ix2 r c) = f r c := rfl

variable {M K N : Nat}

/-- Rows times a weight matrix. -/
def lin (h : Mat M K) (W : Mat K N) : Mat M N := ofFn2 fun r c => ∑ k : Fin K, h (ix2 r k) * W (ix2 k c)

/-- Rows times a weight matrix plus a bias row, clipped at zero. -/
def dense (h : Mat M K) (W : Mat K N) (b : Vc N) : Mat M N :=
  ofFn2 fun r c => max ((∑ k : Fin K, h (ix2 r k) * W (ix2 k c)) + b (ix1 c)) z

/-- Every row scaled by that row's entry of a one-column array (the scale on the right). -/
def scaleR (X : Mat M N) (d : Mat M 1) : Mat M N := ofFn2 fun r c => X (ix2 r c) * d (ix2 r (0 : Fin 1))

/-- What a graph layer does after aggregation: the row's scale times the aggregate, plus the bias row, clipped at zero. -/
def post (agg : Mat M N) (b : Vc N) (d : Mat M 1) : Mat M N :=
  ofFn2 fun r c => max (d (ix2 r (0 : Fin 1)) * agg (ix2 r c) + b (ix1 c)) z

/-- Entry-wise sum. -/
def addM (A B : Mat M N) : Mat M N := ofFn2 fun r c => A (ix2 r c) + B (ix2 r c)

/-- The two-layer node encoder. -/
def enc (x : Mat M 32) (w1 : Mat 32 256) (b1 : Vc 256) (w2 : Mat 256 128) (b2 : Vc 128) : Mat M 128 :=
  dense (dense x w1 b1) w2 b2

/-- Call 0: the encoder, the first layer's weight, and the source-side scale. -/
def G0 (x : Mat M 32) (w1 : Mat 32 256) (b1 : Vc 256) (w2 : Mat 256 128) (b2 : Vc 128) (w0 : Mat 128 64) (d : Mat M 1) :
    Mat M 64 := scaleR (lin (enc x w1 b1 w2 b2) w0) d

/-- Calls 1 and 2, second output: the finished layer times the next weight, scaled on the source side. -/
def next (h : Mat M K) (W : Mat K N) (d : Mat M 1) : Mat M N := scaleR (lin h W) d

/-- Calls 2 and 3, the finished layer with its residual: the earlier embedding plus the new one. -/
def resid (agg : Mat M N) (b : Vc N) (d : Mat M 1) (res : Mat M N) : Mat M N := addM res (post agg b d)

/-- Call 4: the edge predictor on the two gathered rows, the first weight given as its two halves. -/
def edge (h0 h1 : Mat M 64) (w1a w1b : Mat 64 128) (b1 : Vc 128) (w2 : Mat 128 64) (b2 : Vc 64) (w3 : Mat 64 1)
    (b3 : Vc 1) : Mat M 1 :=
  ofFn2 fun r c => Ideal.logistic
    ((∑ k : Fin 64, max ((∑ j : Fin 128,
        max (((∑ i : Fin 64, h0 (ix2 r i) * w1a (ix2 i j)) + (∑ i : Fin 64, h1 (ix2 r i) * w1b (ix2 i j))) + b1 (ix1 j)) z
          * w2 (ix2 j k)) + b2 (ix1 k)) z * w3 (ix2 k c)) + b3 (ix1 c))

/-! ## Rows of a result from rows of the arguments -/

section Rows
variable {M' : Nat} (off : Nat)

/-- `xb` is the block of `X` that starts at row `off`. -/
def IsRows {n : Nat} (off : Nat) (xb : Mat M' n) (X : Mat M n) : Prop :=
  ∀ (r : Fin M') (h : off + r.val < M) (c : Fin n), xb (ix2 r c) = X (ix2 ⟨off + r.val, h⟩ c)

variable {off}

theorem rows_lin {hb : Mat M' K} {h : Mat M K} (hh : IsRows off hb h) (W : Mat K N) : IsRows off (lin hb W) (lin h W) := by
  intro r hr c
  simp only [lin, ofFn2_apply]
  exact Finset.sum_congr rfl fun k _ => by rw [hh r hr k]

theorem rows_dense {hb : Mat M' K} {h : Mat M K} (hh : IsRows off hb h) (W : Mat K N) (b : Vc N) :
    IsRows off (dense hb W b) (dense h W b) := by
  intro r hr c
  simp only [dense, ofFn2_apply]
  rw [Finset.sum_congr rfl fun k _ => by rw [hh r hr k]]

theorem rows_scaleR {Xb : Mat M' N} {X : Mat M N} {db : Mat M' 1} {d : Mat M 1} (hX : IsRows off Xb X) (hd : IsRows off db d) :
    IsRows off (scaleR Xb db) (scaleR X d) := by
  intro r hr c
  simp only [scaleR, ofFn2_apply]
  rw [hX r hr c, hd r hr 0]

theorem rows_post {ab : Mat M' N} {a : Mat M N} {db : Mat M' 1} {d : Mat M 1} (ha : IsRows off ab a) (hd : IsRows off db d)
    (b : Vc N) : IsRows off (post ab b db) (post a b d) := by
  intro r hr c
  simp only [post, ofFn2_apply]
  rw [ha r hr c, hd r hr 0]

theorem rows_addM {Ab : Mat M' N} {A : Mat M N} {Bb : Mat M' N} {B : Mat M N} (hA : IsRows off Ab A) (hB : IsRows off Bb B) :
    IsRows off (addM Ab Bb) (addM A B) := by
  intro r hr c
  simp only [addM, ofFn2_apply]
  rw [hA r hr c, hB r hr c]

theorem rows_edge {h0b h1b : Mat M' 64} {h0 h1 : Mat M 64} (e0 : IsRows off h0b h0) (e1 : IsRows off h1b h1)
    (w1a w1b : Mat 64 128) (b1 : Vc 128) (w2 : Mat 128 64) (b2 : Vc 64) (w3 : Mat 64 1) (b3 : Vc 1) :
    IsRows off (edge h0b h1b w1a w1b b1 w2 b2 w3 b3) (edge h0 h1 w1a w1b b1 w2 b2 w3 b3) := by
  intro r hr c
  simp only [edge, ofFn2_apply]
  simp only [e0 r hr, e1 r hr]

end Rows

end Cert.GSpec

end
-- ==== Proof.KTerm.lean ====
/-
  The idealized program's intermediate values, stage by stage, as functions of the launch memory.

  The program is a three-layer graph network followed by an edge predictor.  Its host operations prepare the edge
  lists (a self-loop is appended for every node, negative indices are wrapped), compute every node's inverse square
  root degree, aggregate along the edges between the calls (gather the source rows, add them up at the destinations)
  and gather the two end points of every candidate edge; each pipelined call computes, row by row, one of the layer
  functions of `Cert.GSpec`.  Every definition below is one value of that chain: a host operation's own function
  applied to earlier values, or a call's layer function of the values its windows read.
-/
import proofs.«151212_j72112500900409_2_alg».proof.Proof.Gen.KernelIdeal
import proofs.«151212_j72112500900409_2_alg».proof.Proof.KSpec

noncomputable section

namespace Cert.KernelIdeal.KTerm

open Idealize.ShloMosaic Cert.KernelIdeal Cert.KernelIdeal.Facts₀ Cert.KernelIdeal.Facts

variable (m : (ℓ : Loc nD τ sig) → Buf (Elt Ideal) ℓ) (c : Dev nD)

/-! ## The argument arrays as launched -/

/-- The node features, one row of 32 per node. -/
abbrev a0 : (⟨S100000x32, .f32⟩ : BufTy).Contents (Elt Ideal) := m ((c.tc : Thread nD τ).loc main_arg0)
/-- The graph's edges: row 0 the sources, row 1 the destinations. -/
abbrev a1 : (⟨S2x1600000, .i32⟩ : BufTy).Contents (Elt Ideal) := m ((c.tc : Thread nD τ).loc main_arg1)
/-- The candidate edges to score: row 0 one end, row 1 the other. -/
abbrev a2 : (⟨S2x200000, .i32⟩ : BufTy).Contents (Elt Ideal) := m ((c.tc : Thread nD τ).loc main_arg2)
/-- The encoder's first weight. -/
abbrev a3 : (⟨S32x256, .f32⟩ : BufTy).Contents (Elt Ideal) := m ((c.tc : Thread nD τ).loc main_arg3)
/-- The encoder's first bias. -/
abbrev a4 : (⟨S256, .f32⟩ : BufTy).Contents (Elt Ideal) := m ((c.tc : Thread nD τ).loc main_arg4)
/-- The encoder's second weight. -/
abbrev a5 : (⟨S256x128, .f32⟩ : BufTy).Contents (Elt Ideal) := m ((c.tc : Thread nD τ).loc main_arg5)
/-- The encoder's second bias. -/
abbrev a6 : (⟨S128, .f32⟩ : BufTy).Contents (Elt Ideal) := m ((c.tc : Thread nD τ).loc main_arg6)
/-- The first layer's weight. -/
abbrev a7 : (⟨S128x64, .f32⟩ : BufTy).Contents (Elt Ideal) := m ((c.tc : Thread nD τ).loc main_arg7)
/-- The first layer's bias. -/
abbrev a8 : (⟨S64, .f32⟩ : BufTy).Contents (Elt Ideal) := m ((c.tc : Thread nD τ).loc main_arg8)
/-- The second layer's weight. -/
abbrev a9 : (⟨S64x64, .f32⟩ : BufTy).Contents (Elt Ideal) := m ((c.tc : Thread nD τ).loc main_arg9)
/-- The second layer's bias. -/
abbrev a10 : (⟨S64, .f32⟩ : BufTy).Contents (Elt Ideal) := m ((c.tc : Thread nD τ).loc main_arg10)
/-- The third layer's weight. -/
abbrev a11 : (⟨S64x64, .f32⟩ : BufTy).Contents (Elt Ideal) := m ((c.tc : Thread nD τ).loc main_arg11)
/-- The third layer's bias. -/
abbrev a12 : (⟨S64, .f32⟩ : BufTy).Contents (Elt Ideal) := m ((c.tc : Thread nD τ).loc main_arg12)
/-- The edge predictor's first weight, the two ends' halves stacked. -/
abbrev a13 : (⟨S128x128, .f32⟩ : BufTy).Contents (Elt Ideal) := m ((c.tc : Thread nD τ).loc main_arg13)
/-- The edge predictor's first bias. -/
abbrev a14 : (⟨S128, .f32⟩ : BufTy).Contents (Elt Ideal) := m ((c.tc : Thread nD τ).loc main_arg14)
/-- The edge predictor's second weight. -/
abbrev a15 : (⟨S128x64, .f32⟩ : BufTy).Contents (Elt Ideal) := m ((c.tc : Thread nD τ).loc main_arg15)
/-- The edge predictor's second bias. -/
abbrev a16 : (⟨S64, .f32⟩ : BufTy).Contents (Elt Ideal) := m ((c.tc : Thread nD τ).loc main_arg16)
/-- The edge predictor's last weight, one column. -/
abbrev a17 : (⟨S64x1, .f32⟩ : BufTy).Contents (Elt Ideal) := m ((c.tc : Thread nD τ).loc main_arg17)
/-- The edge predictor's last bias. -/
abbrev a18 : (⟨S1, .f32⟩ : BufTy).Contents (Elt Ideal) := m ((c.tc : Thread nD τ).loc main_arg18)

/-! ## The edge lists with a self-loop per node -/

/-- The node numbers 0, 1, …, 99999: the end points of the self-loops. -/
def nodeIds : (⟨S100000, .i32⟩ : BufTy).Contents (Elt Ideal) := iotaInDim S100000 32 0

/-- The sources of the 1700000 edges: the graph's 1600000 sources, then every node once (its self-loop). -/
def srcRaw : (⟨S1700000, .i32⟩ : BufTy).Contents (Elt Ideal) :=
  concatenate S1700000 0
    [⟨S1600000, shapeCast S1600000 (extractStridedSlice S1x1600000 ![0, 0] (a1 m c) slices_S2x1600000_S1x1600000_0_0)
        shapeCasts_S1x1600000_S1600000⟩,
     ⟨S100000, nodeIds⟩] concatenates_S1600000_S100000_S1700000_d0

/-- The destinations of the 1700000 edges: the graph's 1600000 destinations, then every node once. -/
def dstRaw : (⟨S1700000, .i32⟩ : BufTy).Contents (Elt Ideal) :=
  concatenate S1700000 0
    [⟨S1600000, shapeCast S1600000 (extractStridedSlice S1x1600000 ![1, 0] (a1 m c) slices_S2x1600000_S1x1600000_1_0)
        shapeCasts_S1x1600000_S1600000⟩,
     ⟨S100000, nodeIds⟩] concatenates_S1600000_S100000_S1700000_d0

/-- The destinations as a one-column index array: where each edge's row is added. -/
def dstI : (⟨S1700000x1, .i32⟩ : BufTy).Contents (Elt Ideal) :=
  broadcastInDim S1700000x1 ![0] bcast_S1700000_S1700000x1_0 (dstRaw m c)

/-- The sources with negative indices wrapped (100000 added to an index below zero), as a one-column index array: which
    row each edge reads. -/
def srcI : (⟨S1700000x1, .i32⟩ : BufTy).Contents (Elt Ideal) :=
  broadcastInDim S1700000x1 ![0] bcast_S1700000_S1700000x1_0
    (select (cmpi .slt (srcRaw m c) (broadcastInDim S1700000 ![] bcast_S_S1700000 (constantI S_ 32 0#32)))
      (addi (srcRaw m c) (broadcastInDim S1700000 ![] bcast_S_S1700000 (constantI S_ 32 100000#32)))
      (srcRaw m c))

/-! ## The degree scale -/

/-- Every node's degree: one added at the destination of every edge, self-loops included. -/
def deg : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (dstI m c)
    (broadcastInDim S1700000 ![] bcast_S_S1700000 (constant (F := Ideal) S_ .f32 0x3F800000#32))

/-- Every node's scale: one over the square root of its degree (of at least one) where the degree is positive, zero
    elsewhere. -/
def dinv : (⟨S100000, .f32⟩ : BufTy).Contents (Elt Ideal) :=
  select (cmpf (F := Ideal) .ogt (deg m c) (broadcastInDim S100000 ![] bcast_S_S100000 (constant (F := Ideal) S_ .f32 0x00000000#32)))
    (Host.rsqrt (F := Ideal) (maximumf (F := Ideal) (deg m c) (broadcastInDim S100000 ![] bcast_S_S100000 (constant (F := Ideal) S_ .f32 0x3F800000#32))))
    (broadcastInDim S100000 ![] bcast_S_S100000 (constant (F := Ideal) S_ .f32 0x00000000#32))

/-- The scales as a one-column array, one row per node. -/
def dinv2d : (⟨S100000x1, .f32⟩ : BufTy).Contents (Elt Ideal) :=
  broadcastInDim S100000x1 ![0] bcast_S100000_S100000x1_0 (dinv m c)

/-! ## The layers -/

/-- Aggregation along the edges: every edge reads its source's row of `X` and adds it to its destination's row of an
    all-zero array. -/
def agg (X : (⟨S100000x64, .bf16⟩ : BufTy).Contents (Elt Ideal)) : (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (dstI m c)
    ((extf (F := Ideal) .f32 · bitsLt_bf16_f32) (Host.gather gather_S100000x64_S1700000x1_S1700000x64_1_0_n_n_0_1_164 X (srcI m c)))

/-- Call 0: the encoded features times the first layer's weight, every row scaled by its node's scale. -/
def xw0 : (⟨S100000x64, .bf16⟩ : BufTy).Contents (Elt Ideal) :=
  GSpec.G0 (a0 m c) (a3 m c) (a4 m c) (a5 m c) (a6 m c) (a7 m c) (dinv2d m c)

/-- Call 1, first output: the first layer's embedding. -/
def ha : (⟨S100000x64, .f32⟩ : BufTy).Contents (Elt Ideal) := GSpec.post (agg m c (xw0 m c)) (a8 m c) (dinv2d m c)

/-- Call 1, second output: the first embedding times the second layer's weight, scaled. -/
def xw1 : (⟨S100000x64, .bf16⟩ : BufTy).Contents (Elt Ideal) := GSpec.next (ha m c) (a9 m c) (dinv2d m c)

/-- Call 2, first output: the second layer's embedding, the first added to it. -/
def hb : (⟨S100000x64, .f32⟩ : BufTy).Contents (Elt Ideal) :=
  GSpec.resid (agg m c (xw1 m c)) (a10 m c) (dinv2d m c) (ha m c)

/-- Call 2, second output: the second embedding times the third layer's weight, scaled. -/
def xw2 : (⟨S100000x64, .bf16⟩ : BufTy).Contents (Elt Ideal) := GSpec.next (hb m c) (a11 m c) (dinv2d m c)

/-- Call 3: the final embedding, the second added to the third layer's. -/
def hfin : (⟨S100000x64, .bf16⟩ : BufTy).Contents (Elt Ideal) :=
  GSpec.resid (agg m c (xw2 m c)) (a12 m c) (dinv2d m c) (hb m c)

/-! ## The edge predictor -/

/-- The candidate edges' first ends, negative indices wrapped, as a one-column index array. -/
def eli0 : (⟨S200000x1, .i32⟩ : BufTy).Contents (Elt Ideal) :=
  broadcastInDim S200000x1 ![0] bcast_S200000_S200000x1_0
    (select
      (cmpi .slt
        (shapeCast S200000 (extractStridedSlice S1x200000 ![0, 0] (a2 m c) slices_S2x200000_S1x200000_0_0) shapeCasts_S1x200000_S200000)
        (broadcastInDim S200000 ![] bcast_S_S200000 (constantI S_ 32 0#32)))
      (addi
        (shapeCast S200000 (extractStridedSlice S1x200000 ![0, 0] (a2 m c) slices_S2x200000_S1x200000_0_0) shapeCasts_S1x200000_S200000)
        (broadcastInDim S200000 ![] bcast_S_S200000 (constantI S_ 32 100000#32)))
      (shapeCast S200000 (extractStridedSlice S1x200000 ![0, 0] (a2 m c) slices_S2x200000_S1x200000_0_0) shapeCasts_S1x200000_S200000))

/-- The candidate edges' second ends, negative indices wrapped, as a one-column index array. -/
def eli1 : (⟨S200000x1, .i32⟩ : BufTy).Contents (Elt Ideal) :=
  broadcastInDim S200000x1 ![0] bcast_S200000_S200000x1_0
    (select
      (cmpi .slt
        (shapeCast S200000 (extractStridedSlice S1x200000 ![1, 0] (a2 m c) slices_S2x200000_S1x200000_1_0) shapeCasts_S1x200000_S200000)
        (broadcastInDim S200000 ![] bcast_S_S200000 (constantI S_ 32 0#32)))
      (addi
        (shapeCast S200000 (extractStridedSlice S1x200000 ![1, 0] (a2 m c) slices_S2x200000_S1x200000_1_0) shapeCasts_S1x200000_S200000)
        (broadcastInDim S200000 ![] bcast_S_S200000 (constantI S_ 32 100000#32)))
      (shapeCast S200000 (extractStridedSlice S1x200000 ![1, 0] (a2 m c) slices_S2x200000_S1x200000_1_0) shapeCasts_S1x200000_S200000))

/-- The final embeddings of the candidate edges' first ends. -/
def g0 : (⟨S200000x64, .bf16⟩ : BufTy).Contents (Elt Ideal) :=
  Host.gather gather_S100000x64_S200000x1_S200000x64_1_0_n_n_0_1_164 (hfin m c) (eli0 m c)

/-- The final embeddings of the candidate edges' second ends. -/
def g1 : (⟨S200000x64, .bf16⟩ : BufTy).Contents (Elt Ideal) :=
  Host.gather gather_S100000x64_S200000x1_S200000x64_1_0_n_n_0_1_164 (hfin m c) (eli1 m c)

/-- The half of the predictor's first weight that multiplies the first end's embedding: rows 0 … 63. -/
def w1a : (⟨S64x128, .f32⟩ : BufTy).Contents (Elt Ideal) :=
  extractStridedSlice S64x128 ![0, 0] (a13 m c) slices_S128x128_S64x128_0_0

/-- The half that multiplies the second end's embedding: rows 64 … 127. -/
def w1b : (⟨S64x128, .f32⟩ : BufTy).Contents (Elt Ideal) :=
  extractStridedSlice S64x128 ![64, 0] (a13 m c) slices_S128x128_S64x128_64_0

/-- Call 4: every candidate edge's score, one column. -/
def e : (⟨S200000x1, .f32⟩ : BufTy).Contents (Elt Ideal) :=
  GSpec.edge (g0 m c) (g1 m c) (w1a m c) (w1b m c) (a14 m c) (a15 m c) (a16 m c) (a17 m c) (a18 m c)

/-- The program's result: the scores as a vector of length 200000. -/
def out : (⟨S200000, .f32⟩ : BufTy).Contents (Elt Ideal) := shapeCast S200000 (e m c) shapeCasts_S200000x1_S200000

end Cert.KernelIdeal.KTerm

end
-- ==== Proof.KOps.lean ====
/-
  The pipelined calls as pure operations.

  Each call of the program reads some arrays through its windows and leaves each of its output arrays at a layer
  function of the arrays it read.  The weights and biases among them are argument arrays, which nothing in the program
  writes; closing the layer function over them leaves a function of the few arrays computed by the program itself, and
  the call then rewrites the buffer contents as one host operation per output array with that function would.
-/
import proofs.«151212_j72112500900409_2_alg».proof.Proof.KTerm
import Idealize.ShloMosaic.Lib.StableHlo.Run

noncomputable section

namespace Cert.KernelIdeal.KFold

open Idealize.ShloMosaic Idealize.ShloMosaic.StableHlo Cert.KernelIdeal Cert.KernelIdeal.Facts₀ Cert.KernelIdeal.Facts
open Cert.KernelIdeal.KTerm

variable (m : (ℓ : Loc nD τ sig) → Buf (Elt Ideal) ℓ) (c : Dev nD)

/-- Call 0 as one operation: the scaled first-layer input from the scale column. -/
def ops0 : List (HloOp τ sig (Elt Ideal)) :=
  [ StableHlo.unary main_v17 main_v18
      ((fun d => GSpec.G0 (a0 m c) (a3 m c) (a4 m c) (a5 m c) (a6 m c) (a7 m c) d) :
        (⟨S100000x1, .f32⟩ : BufTy).Contents (Elt Ideal) → (⟨S100000x64, .bf16⟩ : BufTy).Contents (Elt Ideal)) ]

/-- Call 1 as two operations: the first embedding, and the scaled second-layer input, from the aggregate and the scale
    column. -/
def ops1 : List (HloOp τ sig (Elt Ideal)) :=
  [ StableHlo.binary main_v29 main_v17 main_v30_0
      ((fun x d => GSpec.post x (a8 m c) d) :
        (⟨S100000x64, .f32⟩ : BufTy).Contents (Elt Ideal) → (⟨S100000x1, .f32⟩ : BufTy).Contents (Elt Ideal) → (⟨S100000x64, .f32⟩ : BufTy).Contents (Elt Ideal)),
    StableHlo.binary main_v29 main_v17 main_v30_1
      ((fun x d => GSpec.next (GSpec.post x (a8 m c) d) (a9 m c) d) :
        (⟨S100000x64, .f32⟩ : BufTy).Contents (Elt Ideal) → (⟨S100000x1, .f32⟩ : BufTy).Contents (Elt Ideal) → (⟨S100000x64, .bf16⟩ : BufTy).Contents (Elt Ideal)) ]

/-- Call 2 as two operations: the second embedding with its residual, and the scaled third-layer input, from the
    aggregate, the scale column and the first embedding. -/
def ops2 : List (HloOp τ sig (Elt Ideal)) :=
  [ StableHlo.ternary main_v41 main_v17 main_v30_0 main_v42_0
      ((fun x d r => GSpec.resid x (a10 m c) d r) :
        (⟨S100000x64, .f32⟩ : BufTy).Contents (Elt Ideal) → (⟨S100000x1, .f32⟩ : BufTy).Contents (Elt Ideal) → (⟨S100000x64, .f32⟩ : BufTy).Contents (Elt Ideal) → (⟨S100000x64, .f32⟩ : BufTy).Contents (Elt Ideal)),
    StableHlo.ternary main_v41 main_v17 main_v30_0 main_v42_1
      ((fun x d r => GSpec.next (GSpec.resid x (a10 m c) d r) (a11 m c) d) :
        (⟨S100000x64, .f32⟩ : BufTy).Contents (Elt Ideal) → (⟨S100000x1, .f32⟩ : BufTy).Contents (Elt Ideal) → (⟨S100000x64, .f32⟩ : BufTy).Contents (Elt Ideal) → (⟨S100000x64, .bf16⟩ : BufTy).Contents (Elt Ideal)) ]

/-- Call 3 as one operation: the final embedding from the aggregate, the scale column and the second embedding. -/
def ops3 : List (HloOp τ sig (Elt Ideal)) :=
  [ StableHlo.ternary main_v53 main_v17 main_v42_0 main_v54
      ((fun x d r => GSpec.resid x (a12 m c) d r) :
        (⟨S100000x64, .f32⟩ : BufTy).Contents (Elt Ideal) → (⟨S100000x1, .f32⟩ : BufTy).Contents (Elt Ideal) → (⟨S100000x64, .f32⟩ : BufTy).Contents (Elt Ideal) → (⟨S100000x64, .bf16⟩ : BufTy).Contents (Elt Ideal)) ]

/-- Call 4 as one operation: the scores from the two gathered embeddings and the two halves of the first weight. -/
def ops4 : List (HloOp τ sig (Elt Ideal)) :=
  [ StableHlo.quaternary main_v63 main_v72 main_v73 main_v74 main_v75
      ((fun p q u v => GSpec.edge p q u v (a14 m c) (a15 m c) (a16 m c) (a17 m c) (a18 m c)) :
        (⟨S200000x64, .bf16⟩ : BufTy).Contents (Elt Ideal) → (⟨S200000x64, .bf16⟩ : BufTy).Contents (Elt Ideal) → (⟨S64x128, .f32⟩ : BufTy).Contents (Elt Ideal) → (⟨S64x128, .f32⟩ : BufTy).Contents (Elt Ideal) → (⟨S200000x1, .f32⟩ : BufTy).Contents (Elt Ideal)) ]

end Cert.KernelIdeal.KFold

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«151212_j72112500900409_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Val0Pay.lean ====
/-
  What one grid point of the first call computes on its block of 4000 rows.

  The body rounds its operands to a narrower format before each of its three matrix products; on the extended
  reals a change of format is the identity, so the body is the two-layer encoder (rows times weight, plus the
  bias row, clipped at zero, twice), then the rows times the first graph weight, then every row multiplied by
  that row's entry of the one-column scale.  The bias vectors enter as one row repeated over the rows of the
  block, the scale as one column repeated over the columns.
-/
import proofs.«151212_j72112500900409_2_alg».proof.Proof.Gen.KernelIdeal.Skeleton
import proofs.«151212_j72112500900409_2_alg».proof.Proof.KSpec
import proofs.«151212_j72112500900409_2_alg».proof.Proof.LibRowOps
import proofs.«151212_j72112500900409_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val0

open Cert.KernelIdeal Cert.KernelIdeal.Gen Idealize.ShloMosaic Idealize.ShloMosaic.ValueIdx
open Cert.RowOps Cert.Dense

/-! ## The two shapes of a step, for any block height -/

section Steps

variable {M K N : Nat} {d : DotDims ⟨2, ![M, K]⟩ ⟨2, ![K, N]⟩ ⟨2, ![M, N]⟩}

/-- Rows and weight narrowed, multiplied into a zero accumulator, the bias row added, clipped at zero: a dense layer. -/
theorem denseStep (hd : IsPlain d) (x : FVec Ideal ⟨2, ![M, K]⟩ .f32) (w : FVec Ideal ⟨2, ![K, N]⟩ .f32)
    (b : FVec Ideal ⟨1, ![N]⟩ .f32) (hx hw : FTy.bits .bf16 < FTy.bits .f32)
    (hs : (⟨1, ![N]⟩ : Shape).ShapeCasts ⟨2, ![1, N]⟩) (hb : (⟨2, ![1, N]⟩ : Shape).Broadcasts ⟨2, ![M, N]⟩) :
    maximumf (addf (matmul d none (truncf .bf16 x hx) (truncf .bf16 w hw) (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32))
      = GSpec.dense x w b := by
  funext j
  obtain ⟨r, c, rfl⟩ : ∃ (r : Fin M) (c : Fin N), j = ix2 r c := ⟨j 0, j 1, eq_ix2 j⟩
  rw [maximumf_apply, addf_apply, rowBias_apply, broadcast_apply]
  exact congrArg (fun s => max (s + b (ix1 c)) GSpec.z) (matmul_zero_apply hd none _ _ r c)

/-- Rows and weight narrowed, multiplied into a zero accumulator, every row times its entry of the scale column, narrowed. -/
theorem scaledStep (hd : IsPlain d) (h : FVec Ideal ⟨2, ![M, K]⟩ .f32) (w : FVec Ideal ⟨2, ![K, N]⟩ .f32)
    (dv : FVec Ideal ⟨2, ![M, 1]⟩ .f32) (hh hw ho : FTy.bits .bf16 < FTy.bits .f32)
    (hs : (⟨2, ![M, 1]⟩ : Shape).ShapeCasts ⟨2, ![M, 1]⟩) (hb : (⟨2, ![M, 1]⟩ : Shape).Broadcasts ⟨2, ![M, N]⟩) :
    truncf .bf16 (mulf (matmul d none (truncf .bf16 h hh) (truncf .bf16 w hw) (constant ⟨2, ![M, N]⟩ .f32 0x00000000#32))
        (broadcastTo ⟨2, ![M, N]⟩ (shapeCast ⟨2, ![M, 1]⟩ dv hs) hb)) ho
      = GSpec.scaleR (GSpec.lin h w) dv := by
  funext j
  obtain ⟨r, c, rfl⟩ : ∃ (r : Fin M) (c : Fin N), j = ix2 r c := ⟨j 0, j 1, eq_ix2 j⟩
  rw [truncf_apply, mulf_apply, spread_apply, shapeCast_self]
  exact congrArg (fun s => s * dv (ix2 r (0 : Fin 1))) (matmul_zero_apply hd none _ _ r c)

end Steps

/-! ## The body's stored value -/

theorem plain1 : IsPlain dot_S4000x32_S32x256_S4000x256_1_0_0_1_n_n := ⟨rfl, rfl, rfl, rfl, rfl, rfl⟩
theorem plain2 : IsPlain dot_S4000x256_S256x128_S4000x128_1_0_0_1_n_n := ⟨rfl, rfl, rfl, rfl, rfl, rfl⟩
theorem plain3 : IsPlain dot_S4000x128_S128x64_S4000x64_1_0_0_1_n_n := ⟨rfl, rfl, rfl, rfl, rfl, rfl⟩

/-- The value the body stores is the first call's function of the blocks it loaded. -/
theorem pay_eq (x0 : Vec Ideal S4000x32 .f32) (x1 : Vec Ideal S32x256 .f32) (x2 : Vec Ideal S256 .f32)
    (x3 : Vec Ideal S256x128 .f32) (x4 : Vec Ideal S128 .f32) (x5 : Vec Ideal S128x64 .f32) (x6 : Vec Ideal S4000x1 .f32) :
    k0_pay1 (F := Ideal) x0 x1 x2 x3 x4 x5 x6 = GSpec.G0 x0 x1 x2 x3 x4 x5 x6 := by
  unfold k0_pay1 GSpec.G0 GSpec.enc
  refine (scaledStep plain3 _ x5 x6 _ _ _ _ _).trans ?_
  refine congrArg (fun h => GSpec.scaleR (GSpec.lin h x5) x6) ?_
  refine (denseStep plain2 _ x3 x4 _ _ _ _).trans ?_
  exact congrArg (fun h => GSpec.dense h x3 x4) (denseStep plain1 x0 x1 x2 _ _ _ _)

end Cert.KernelIdeal.Val0

end
-- ==== Proof.Val0.lean ====
/-
  What the first call leaves in its output array, as one function of the arrays it finds.

  The call walks 25 grid points; point t fetches rows 4000·t … 4000·t + 3999 of the node features and of the
  one-column scale, the whole of every weight and bias vector, and writes back rows 4000·t … of the output.  Every
  layer is local to a row, so the block a point writes back is the same block of rows of the whole-array function
  applied to the whole arrays; the 25 blocks of rows cover the 100000 rows, so the array ends at that function.
-/
import proofs.«151212_j72112500900409_2_alg».proof.Proof.Gen.KernelIdeal.Frame
import proofs.«151212_j72112500900409_2_alg».proof.Proof.KSpec
import proofs.«151212_j72112500900409_2_alg».proof.Proof.Val0Pay
import Idealize.ShloMosaic.Lib.Pipeline.Value
import Idealize.ShloMosaic.Lib.ValueIdx

noncomputable section

namespace Cert.KernelIdeal.Val0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## Row-locality of the whole call -/

/-- The first call's function of a block of rows is that block of rows of its function of all rows. -/
theorem rows_G0 {M' M off : Nat} {xb : GSpec.Mat M' 32} {x : GSpec.Mat M 32} {db : GSpec.Mat M' 1} {d : GSpec.Mat M 1}
    (hx : GSpec.IsRows off xb x) (hd : GSpec.IsRows off db d) (w1 : GSpec.Mat 32 256) (b1 : GSpec.Vc 256)
    (w2 : GSpec.Mat 256 128) (b2 : GSpec.Vc 128) (w0 : GSpec.Mat 128 64) :
    GSpec.IsRows off (GSpec.G0 xb w1 b1 w2 b2 w0 db) (GSpec.G0 x w1 b1 w2 b2 w0 d) :=
  GSpec.rows_scaleR (GSpec.rows_lin (GSpec.rows_dense (GSpec.rows_dense hx w1 b1) w2 b2) w0) hd

/-! ## Where each window's block sits in its array -/

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point: the three row windows move one block of rows per point,
    the weights and bias vectors stay at their one block. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Window 0's block at point t is rows 4000·t … of the node features. -/
theorem rows_w0 (t : Fin cfg0.N) :
    GSpec.IsRows (M' := 4000) (M := 100000) (n := 32) (4000 * t.val) (iblk0 V c 0 t) (V c (Pipeline.arrRef spec0 0)) := by
  intro r hr k
  obtain ⟨⟨e0, e1⟩, -⟩ := idx_facts t
  unfold iblk0
  rw [View.read_apply]
  show V c (Pipeline.arrRef spec0 0) (((cfg0.win 0).blk t).view.emb (ix2 r k))
    = V c (Pipeline.arrRef spec0 0) (ix2 ⟨4000 * t.val + r.val, hr⟩ k)
  refine congrArg _ (funext fun a => Fin.ext ?_)
  match a with
  | ⟨0, _⟩ => show win0_0.index t (0 : Fin 2) * 4000 + 1 * r.val = 4000 * t.val + r.val; omega
  | ⟨1, _⟩ => show win0_0.index t (1 : Fin 2) * 32 + 1 * k.val = k.val; omega

/-- Window 6's block at point t is rows 4000·t … of the one-column scale. -/
theorem rows_w6 (t : Fin cfg0.N) :
    GSpec.IsRows (M' := 4000) (M := 100000) (n := 1) (4000 * t.val) (iblk0 V c 6 t) (V c (Pipeline.arrRef spec0 6)) := by
  intro r hr k
  obtain ⟨-, -, -, -, -, -, ⟨e0, e1⟩, -⟩ := idx_facts t
  unfold iblk0
  rw [View.read_apply]
  show V c (Pipeline.arrRef spec0 6) (((cfg0.win 6).blk t).view.emb (ix2 r k))
    = V c (Pipeline.arrRef spec0 6) (ix2 ⟨4000 * t.val + r.val, hr⟩ k)
  refine congrArg _ (funext fun a => Fin.ext ?_)
  match a with
  | ⟨0, _⟩ => show win0_6.index t (0 : Fin 2) * 4000 + 1 * r.val = 4000 * t.val + r.val; omega
  | ⟨1, _⟩ => show win0_6.index t (1 : Fin 2) * 1 + 1 * k.val = k.val; omega

/-- Window 1's block at every point is the whole first encoder weight. -/
theorem whole_w1 (t : Fin cfg0.N) : (iblk0 V c 1 t : GSpec.Mat 32 256) = V c (Pipeline.arrRef spec0 1) := by
  obtain ⟨-, ⟨e0, e1⟩, -⟩ := idx_facts t
  funext j
  unfold iblk0
  rw [View.read_apply]
  show V c (Pipeline.arrRef spec0 1) (((cfg0.win 1).blk t).view.emb j) = V c (Pipeline.arrRef spec0 1) j
  refine congrArg _ (funext fun a => Fin.ext ?_)
  match a with
  | ⟨0, _⟩ => show win0_1.index t (0 : Fin 2) * 32 + 1 * (j 0).val = (j 0).val; omega
  | ⟨1, _⟩ => show win0_1.index t (1 : Fin 2) * 256 + 1 * (j 1).val = (j 1).val; omega

/-- Window 2's block at every point is the whole first encoder bias. -/
theorem whole_w2 (t : Fin cfg0.N) : (iblk0 V c 2 t : GSpec.Vc 256) = V c (Pipeline.arrRef spec0 2) := by
  obtain ⟨-, -, e0, -⟩ := idx_facts t
  funext j
  unfold iblk0
  rw [View.read_apply]
  show V c (Pipeline.arrRef spec0 2) (((cfg0.win 2).blk t).view.emb j) = V c (Pipeline.arrRef spec0 2) j
  refine congrArg _ (funext fun a => Fin.ext ?_)
  match a with
  | ⟨0, _⟩ => show win0_2.index t (0 : Fin 1) * 256 + 1 * (j 0).val = (j 0).val; omega

/-- Window 3's block at every point is the whole second encoder weight. -/
theorem whole_w3 (t : Fin cfg0.N) : (iblk0 V c 3 t : GSpec.Mat 256 128) = V c (Pipeline.arrRef spec0 3) := by
  obtain ⟨-, -, -, ⟨e0, e1⟩, -⟩ := idx_facts t
  funext j
  unfold iblk0
  rw [View.read_apply]
  show V c (Pipeline.arrRef spec0 3) (((cfg0.win 3).blk t).view.emb j) = V c (Pipeline.arrRef spec0 3) j
  refine congrArg _ (funext fun a => Fin.ext ?_)
  match a with
  | ⟨0, _⟩ => show win0_3.index t (0 : Fin 2) * 256 + 1 * (j 0).val = (j 0).val; omega
  | ⟨1, _⟩ => show win0_3.index t (1 : Fin 2) * 128 + 1 * (j 1).val = (j 1).val; omega

/-- Window 4's block at every point is the whole second encoder bias. -/
theorem whole_w4 (t : Fin cfg0.N) : (iblk0 V c 4 t : GSpec.Vc 128) = V c (Pipeline.arrRef spec0 4) := by
  obtain ⟨-, -, -, -, e0, -⟩ := idx_facts t
  funext j
  unfold iblk0
  rw [View.read_apply]
  show V c (Pipeline.arrRef spec0 4) (((cfg0.win 4).blk t).view.emb j) = V c (Pipeline.arrRef spec0 4) j
  refine congrArg _ (funext fun a => Fin.ext ?_)
  match a with
  | ⟨0, _⟩ => show win0_4.index t (0 : Fin 1) * 128 + 1 * (j 0).val = (j 0).val; omega

/-- Window 5's block at every point is the whole first graph weight. -/
theorem whole_w5 (t : Fin cfg0.N) : (iblk0 V c 5 t : GSpec.Mat 128 64) = V c (Pipeline.arrRef spec0 5) := by
  obtain ⟨-, -, -, -, -, ⟨e0, e1⟩, -⟩ := idx_facts t
  funext j
  unfold iblk0
  rw [View.read_apply]
  show V c (Pipeline.arrRef spec0 5) (((cfg0.win 5).blk t).view.emb j) = V c (Pipeline.arrRef spec0 5) j
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 64 + 1 * (j 1).val = (j 1).val; omega

/-! ## What a point writes back -/

/-- The whole-array function of the arrays the call finds. -/
abbrev whole0 : GSpec.Mat 100000 64 :=
  GSpec.G0 (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6))

/-- Point t writes back rows 4000·t … of the whole-array function. -/
theorem flushed_eq (t : Fin cfg0.N) :
    (dat0 V c).flushed 7 t = ((cfg0.win 7).blk t).view.read (Elt Ideal) (whole0 V c) := by
  show (cfg0.win 7).cut (grid0.coords t) ((dat0 V c).after 7 t) = _
  rw [after0_7]
  unfold out0_7
  rw [View.canon_unit_zero hz2]
  simp only [View.ld_unit_zero (S := S4000x32) hz2, View.ld_unit_zero (S := S32x256) hz2, View.ld_unit_zero (S := S256) hz1,
    View.ld_unit_zero (S := S256x128) hz2, View.ld_unit_zero (S := S128) hz1, View.ld_unit_zero (S := S128x64) hz2,
    View.ld_unit_zero (S := S4000x1) hz2]
  rw [pay_eq, whole_w1 V c t, whole_w2 V c t, whole_w3 V c t, whole_w4 V c t, whole_w5 V c t]
  have hR := rows_G0 (rows_w0 V c t) (rows_w6 V c t) (V c (Pipeline.arrRef spec0 1)) (V c (Pipeline.arrRef spec0 2))
    (V c (Pipeline.arrRef spec0 3)) (V c (Pipeline.arrRef spec0 4)) (V c (Pipeline.arrRef spec0 5))
  have hN : cfg0.N = 25 := N_0
  obtain ⟨-, -, -, -, -, -, -, ⟨e0, e1⟩⟩ := idx_facts t
  funext j
  have hj0 : (j 0).val < 4000 := (j 0).isLt
  have hj1 : (j 1).val < 64 := (j 1).isLt
  have hlt : 4000 * t.val + (j 0).val < 100000 := by have := t.isLt; omega
  have hx : (win0 7).xinj (grid0.coords t) j = ix2 (⟨(j 0).val, hj0⟩ : Fin 4000) (⟨(j 1).val, hj1⟩ : Fin 64) :=
    funext fun a => by match a with | ⟨0, _⟩ => rfl | ⟨1, _⟩ => rfl
  rw [View.read_apply]
  show GSpec.G0 (iblk0 V c 0 t) _ _ _ _ _ (iblk0 V c 6 t) ((win0 7).xinj (grid0.coords t) j)
    = whole0 V c (((cfg0.win 7).blk t).view.emb j)
  rw [hx]
  refine (hR ⟨(j 0).val, hj0⟩ hlt ⟨(j 1).val, hj1⟩).trans (congrArg _ (funext fun a => Fin.ext ?_))
  match a with
  | ⟨0, _⟩ => show 4000 * t.val + (j 0).val = win0_7.index t (0 : Fin 2) * 4000 + 1 * (j 0).val; omega
  | ⟨1, _⟩ => show (j 1).val = win0_7.index t (1 : Fin 2) * 64 + 1 * (j 1).val; omega

/-! ## The blocks of rows cover the array -/

/-- An index of the output array is in point t's block iff each coordinate is in the block's range on its axis. -/
theorem mem_blk (t : Fin cfg0.N) (i : S100000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v18).slice (win0_7.rect t)).set ↔ _
  rw [View.set_slice_whole, Rect.mem_set_unit]
  exact Iff.rfl

/-- Row r of the output is written back by point r / 4000. -/
theorem cover (i : S100000x64.Idx) :
    ∃ t : Fin cfg0.N, (cfg0.win 7).flush t = true ∧ i ∈ ((cfg0.win 7).blk t).view.set := by
  have hN : cfg0.N = 25 := N_0
  have hi0 : (i 0).val < 100000 := (i 0).isLt
  have hi1 : (i 1).val < 64 := (i 1).isLt
  have ht : (i 0).val / 4000 < cfg0.N := by rw [hN]; omega
  obtain ⟨-, -, -, -, -, -, -, ⟨e0, e1⟩⟩ := idx_facts ⟨(i 0).val / 4000, ht⟩
  refine ⟨⟨(i 0).val / 4000, ht⟩, flush0_7 _, ?_⟩
  rw [mem_blk]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 64 ≤ (i 1).val
      ∧ (i 1).val < win0_7.index ⟨(i 0).val / 4000, ht⟩ (1 : Fin 2) * 64 + 64
    rw [e1]; omega

/-! ## The array after the call -/

/-- After the 25 write-backs the output array holds the first call's function of the arrays the call found. -/
theorem arr0_7 : (dat0 (F := Ideal) V c).arrAt 7 cfg0.N
    = GSpec.G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) :=
  (dat0 V c).arrAt_eq_of_cover 7 (whole0 V c) (fun t _ => flushed_eq V c t) cover

end Cert.KernelIdeal.Val0

end
-- ==== Proof.KReg0.lean ====
/-
  Call 0 rewrites the buffer contents as its one operation does.

  When the call is entered its six weight and feature windows read argument arrays, which still hold what was
  launched; the call's output array ends at the layer function of the seven arrays read, every other window's array
  ends as found, and the call touches no other buffer.
-/
import proofs.«151212_j72112500900409_2_alg».proof.Proof.Gen.KernelIdeal.Frame
import proofs.«151212_j72112500900409_2_alg».proof.Proof.KOps
import proofs.«151212_j72112500900409_2_alg».proof.Proof.LibRegionOps
import proofs.«151212_j72112500900409_2_alg».proof.Proof.LibLineEval
import proofs.«151212_j72112500900409_2_alg».proof.Proof.Val0

set_option maxRecDepth 16384

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval
open Idealize.ShloMosaic.Pipeline (Dat)

variable (m : (ℓ : Loc nD τ sig) → Buf (Elt Ideal) ℓ) (ρ : Dev nD → PrngReg) (c : Dev nD)

open Cert.KernelIdeal.Val0 (arr0_7)

/-- The host operations before call 0 write no argument array. -/
theorem pre0_keeps (V : Valuation τ sig (Elt Ideal)) :
    (after hostOps0_2 (after hostOps0_1 (after hostOps0 V)) (Proc.devRef .tc main_arg0) = V (Proc.devRef .tc main_arg0))
    ∧ (after hostOps0_2 (after hostOps0_1 (after hostOps0 V)) (Proc.devRef .tc main_arg3) = V (Proc.devRef .tc main_arg3))
    ∧ (after hostOps0_2 (after hostOps0_1 (after hostOps0 V)) (Proc.devRef .tc main_arg4) = V (Proc.devRef .tc main_arg4))
    ∧ (after hostOps0_2 (after hostOps0_1 (after hostOps0 V)) (Proc.devRef .tc main_arg5) = V (Proc.devRef .tc main_arg5))
    ∧ (after hostOps0_2 (after hostOps0_1 (after hostOps0 V)) (Proc.devRef .tc main_arg6) = V (Proc.devRef .tc main_arg6))
    ∧ (after hostOps0_2 (after hostOps0_1 (after hostOps0 V)) (Proc.devRef .tc main_arg7) = V (Proc.devRef .tc main_arg7)) := by
  simp only [hostOps0, hostOps0_1, hostOps0_2]
  refine ⟨?_, ?_, ?_, ?_, ?_, ?_⟩ <;> eval_line

/-- What the call's operation leaves in the output array. -/
theorem ops0_out (V : Valuation τ sig (Elt Ideal)) :
    after (ops0 m c) V (Proc.devRef .tc main_v18)
      = GSpec.G0 (a0 m c) (a3 m c) (a4 m c) (a5 m c) (a6 m c) (a7 m c) (V (Proc.devRef .tc main_v17)) := by
  simp only [ops0]; eval_line

/-- Call 0 leaves what its operation leaves. -/
theorem W4_eq : W4 (F := Ideal) m ρ c = after (ops0 m c) (W3 m ρ c) := by
  have hio : ∀ w : Fin 8, w ∉ ({7} : Finset (Fin 8)) → (cfg0.win w).isOut = false := by decide
  obtain ⟨k0, k3, k4, k5, k6, k7⟩ := pre0_keeps (W0 m ρ c)
  unfold W4
  refine Cert.RegionOps.withArrays_eq_after spec0 launch0.win.arr_inj c _ _ (ops0 m c) {7} ?_ ?_ ?_
  · intro op hop b hb
    simp only [ops0, List.mem_singleton] at hop
    subst hop
    rw [unary_writes, Finset.mem_singleton] at hb
    exact ⟨7, by decide, hb⟩
  · intro w hw
    obtain rfl : w = 7 := Finset.mem_singleton.mp hw
    show (dat0 (V3 m ρ) c).arrAt 7 cfg0.N = after (ops0 m c) (W3 m ρ c) (Proc.devRef .tc main_v18)
    rw [arr0_7, ops0_out]
    show GSpec.G0 (W3 m ρ c (Proc.devRef .tc main_arg0)) (W3 m ρ c (Proc.devRef .tc main_arg3))
      (W3 m ρ c (Proc.devRef .tc main_arg4)) (W3 m ρ c (Proc.devRef .tc main_arg5)) (W3 m ρ c (Proc.devRef .tc main_arg6))
      (W3 m ρ c (Proc.devRef .tc main_arg7)) (W3 m ρ c (Proc.devRef .tc main_v17)) = _
    rw [show W3 m ρ c (Proc.devRef .tc main_arg0) = a0 m c from k0, show W3 m ρ c (Proc.devRef .tc main_arg3) = a3 m c from k3,
      show W3 m ρ c (Proc.devRef .tc main_arg4) = a4 m c from k4, show W3 m ρ c (Proc.devRef .tc main_arg5) = a5 m c from k5,
      show W3 m ρ c (Proc.devRef .tc main_arg6) = a6 m c from k6, show W3 m ρ c (Proc.devRef .tc main_arg7) = a7 m c from k7]
  · intro w hw
    exact ((dat0 (V3 m ρ) c).arrAt_in w (hio w hw) _).trans (A_eq0 (V3 m ρ) c w)

end Cert.KernelIdeal.KFold

end
-- ==== Proof.ValRows.lean ====
/-
  Blocks of rows, continued: an entry of a block read at the array's index it sits at, and the two composed
  layers of the specification (`next`, `resid`) on a block of rows.
-/
import proofs.«151212_j72112500900409_2_alg».proof.Proof.KSpec

noncomputable section

open scoped BigOperators

namespace Cert.KernelIdeal.ValRows

open Idealize.ShloMosaic Idealize.ShloMosaic.ValueIdx Cert.GSpec

variable {M M' K N n : Nat} {off : Nat}

/-- An entry of the block that starts at row `off` is the array's entry `off` rows further down, whatever the
    indices' spelling. -/
theorem isRows_apply {xb : Mat M' n} {X : Mat M n} (h : IsRows off xb X)
    (y : (⟨2, ![M', n]⟩ : Shape).Idx) (i : (⟨2, ![M, n]⟩ : Shape).Idx)
    (h0 : (i 0).val = off + (y 0).val) (h1 : (i 1).val = (y 1).val) : xb y = X i := by
  have hr : off + (y 0).val < M := h0 ▸ (i 0).isLt
  refine (congrArg xb (eq_ix2 y)).trans ((h (y 0) hr (y 1)).trans (congrArg X ?_))
  funext a
  match a with
  | ⟨0, _⟩ => exact Fin.ext h0.symm
  | ⟨1, _⟩ => exact Fin.ext h1.symm

theorem rows_next {hb : Mat M' K} {h : Mat M K} {db : Mat M' 1} {d : Mat M 1} (hh : IsRows off hb h) (W : Mat K N)
    (hd : IsRows off db d) : IsRows off (next hb W db) (next h W d) :=
  rows_scaleR (rows_lin hh W) hd

theorem rows_resid {ab : Mat M' N} {a : Mat M N} {db : Mat M' 1} {d : Mat M 1} {rb : Mat M' N} {r : Mat M N}
    (ha : IsRows off ab a) (hd : IsRows off db d) (hr : IsRows off rb r) (b : Vc N) :
    IsRows off (resid ab b db rb) (resid a b d r) :=
  rows_addM hr (rows_post ha hd b)

end Cert.KernelIdeal.ValRows

end
-- ==== Proof.Val1Pay.lean ====
/-
  What one grid point of the first layer-finishing call computes on its block of 4000 rows, as the layer
  functions of the specification at 4000 rows.

  The body scales the aggregate's row r by the row's entry of the one-column scale block, adds the bias row and
  clips at zero (`post`); it then multiplies the finished block by the next layer's weight and scales each row
  again (`next`).  A change of float format is the identity on the extended reals and a reshape between equal
  shapes moves nothing, so each stored value is the specification's expression entry by entry.
-/
import proofs.«151212_j72112500900409_2_alg».proof.Proof.Gen.KernelIdeal.Skeleton
import proofs.«151212_j72112500900409_2_alg».proof.Proof.KSpec
import proofs.«151212_j72112500900409_2_alg».proof.Proof.LibRowOps
import proofs.«151212_j72112500900409_2_alg».proof.Proof.LibDense

import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Cert.KernelIdeal Cert.KernelIdeal.Gen Idealize.ShloMosaic Idealize.ShloMosaic.TcCoe Idealize.ShloMosaic.ValueIdx Idealize.SL.Sem
open Idealize.ShloMosaic.Pipeline (Dat)

/-- The 64-by-64 product of the bodies contracts the left operand's columns with the right operand's rows. -/
theorem plain64 : Cert.RowOps.IsPlain dot_S4000x64_S64x64_S4000x64_1_0_0_1_n_n := ⟨rfl, rfl, rfl, rfl, rfl, rfl⟩

/-- The first stored block at (r, c): the row's scale times the aggregate, plus the bias, clipped at zero. -/
theorem k1_pay1_apply (d : Vec Ideal S4000x1 .f32) (a : Vec Ideal S4000x64 .f32) (b : Vec Ideal S64 .f32)
    (r : Fin 4000) (c : Fin 64) :
    k1_pay1 (F := Ideal) d a b (ix2 r c) = max (d (ix2 r (0 : Fin 1)) * a (ix2 r c) + b (ix1 c)) GSpec.z := by
  unfold k1_pay1
  rw [maximumf_apply, addf_apply, mulf_apply, Cert.Dense.rowBias_apply, broadcast_apply, shapeCast_self, shapeCast_self,
    Cert.RowOps.spread_apply]
  rfl

/-- The first stored block is `post` of the blocks. -/
theorem k1_pay1_eq (d : Vec Ideal S4000x1 .f32) (a : Vec Ideal S4000x64 .f32) (b : Vec Ideal S64 .f32) :
    k1_pay1 (F := Ideal) d a b = GSpec.post (M := 4000) (N := 64) a b d := by
  funext j
  obtain ⟨r, c, rfl⟩ : ∃ (r : Fin 4000) (c : Fin 64), j = ix2 r c := ⟨j 0, j 1, eq_ix2 j⟩
  rw [k1_pay1_apply]
  rfl

/-- The second stored block: the first one times the next weight, each row scaled again. -/
theorem k1_pay2_eq (d : Vec Ideal S4000x1 .f32) (a : Vec Ideal S4000x64 .f32) (b : Vec Ideal S64 .f32)
    (w : Vec Ideal S64x64 .f32) (d' : Vec Ideal S4000x1 .f32) :
    k1_pay2 (F := Ideal) d a b w d' = GSpec.next (M := 4000) (K := 64) (N := 64) (GSpec.post (M := 4000) (N := 64) a b d) w d' := by
  funext j
  obtain ⟨r, c, rfl⟩ : ∃ (r : Fin 4000) (c : Fin 64), j = ix2 r c := ⟨j 0, j 1, eq_ix2 j⟩
  unfold k1_pay2
  rw [truncf_apply, mulf_apply, Cert.RowOps.spread_apply, shapeCast_self, k1_pay1_eq]
  refine (congrArg (· * d' (ix2 r (0 : Fin 1))) (Cert.RowOps.matmul_zero_apply plain64 none _ _ r c)).trans ?_
  rfl

end Cert.KernelIdeal.Val1

end
-- ==== Proof.Val1.lean ====
/-
  What the first layer-finishing call leaves in its two output arrays, as whole-array functions of the arrays it
  finds.

  The call walks 25 blocks of 4000 rows.  At point t the aggregate, the scale column and both outputs are staged
  through rows 4000 t … 4000 t + 3999, the bias vector and the next layer's weight whole.  Every layer function of
  the specification is local to a row, so what point t computes on its blocks is the block of the same function of
  the whole arrays; the 25 blocks tile the 100000 rows (row r lies in block r / 4000), so the arrays end holding
  that function everywhere.
-/
import proofs.«151212_j72112500900409_2_alg».proof.Proof.Gen.KernelIdeal.Frame
import proofs.«151212_j72112500900409_2_alg».proof.Proof.KSpec
import proofs.«151212_j72112500900409_2_alg».proof.Proof.LibRowOps
import proofs.«151212_j72112500900409_2_alg».proof.Proof.LibDense
import proofs.«151212_j72112500900409_2_alg».proof.Proof.ValRows
import proofs.«151212_j72112500900409_2_alg».proof.Proof.Val1Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## What the body leaves, from the blocks -/

/-- The f32 output's buffer after the body: `post` of the aggregate, bias and scale blocks. -/
theorem out4_eq (x0 : Vec Ideal S4000x64 .f32) (x1 : Vec Ideal S64 .f32) (x2 : Vec Ideal S4000x1 .f32)
    (x3 : Vec Ideal S64x64 .f32) :
    out1_4 (F := Ideal) x0 x1 x2 x3 = GSpec.post (M := 4000) (N := 64) x0 x1 x2 := by
  unfold out1_4
  rw [View.canon_unit_zero hz2]
  simp only [View.ld_unit_zero (S := S4000x64) hz2, View.ld_unit_zero (S := S4000x1) hz2, View.ld_unit_zero (S := S64) hz1]
  exact k1_pay1_eq _ _ _

/-- The bf16 output's buffer after the body: `next` of that and the weight, scaled by the same block. -/
theorem out5_eq (x0 : Vec Ideal S4000x64 .f32) (x1 : Vec Ideal S64 .f32) (x2 : Vec Ideal S4000x1 .f32)
    (x3 : Vec Ideal S64x64 .f32) :
    out1_5 (F := Ideal) x0 x1 x2 x3
      = GSpec.next (M := 4000) (K := 64) (N := 64) (GSpec.post (M := 4000) (N := 64) x0 x1 x2) x3 x2 := by
  unfold out1_5
  rw [View.canon_unit_zero hz2]
  simp only [View.ld_unit_zero (S := S4000x64) hz2, View.ld_unit_zero (S := S4000x1) hz2, View.ld_unit_zero (S := S64) hz1,
    View.ld_unit_zero (S := S64x64) hz2]
  exact k1_pay2_eq _ _ _ _ _

/-! ## The windows' blocks as rows of their arrays -/

/-- The block indices over the grid: the row windows are at block (t, 0), the small ones at block 0. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregate's block at point t is its rows from 4000 t. -/
theorem rows_0 (c : Dev nD) (t : Fin cfg1.N) :
    GSpec.IsRows (M := 100000) (M' := 4000) (n := 64) (4000 * t.val) (iblk1 V c 0 t) (V c (Pipeline.arrRef spec1 0)) := by
  intro r hr cc
  obtain ⟨e0, e1, -⟩ := idx_facts t
  unfold iblk1
  rw [View.read_apply]
  show V c (Pipeline.arrRef spec1 0) (((cfg1.win 0).blk t).view.emb (ix2 r cc))
    = V c (Pipeline.arrRef spec1 0) (ix2 ⟨4000 * t.val + r.val, hr⟩ cc)
  congr 1
  funext a
  apply Fin.ext
  match a with
  | ⟨0, _⟩ => show win1_0.index t (0 : Fin 2) * 4000 + 1 * r.val = 4000 * t.val + r.val; rw [e0]; omega
  | ⟨1, _⟩ => show win1_0.index t (1 : Fin 2) * 64 + 1 * cc.val = cc.val; rw [e1]; omega

/-- The scale column's block at point t is its rows from 4000 t. -/
theorem rows_2 (c : Dev nD) (t : Fin cfg1.N) :
    GSpec.IsRows (M := 100000) (M' := 4000) (n := 1) (4000 * t.val) (iblk1 V c 2 t) (V c (Pipeline.arrRef spec1 2)) := by
  intro r hr cc
  obtain ⟨-, -, -, e0, e1, -⟩ := idx_facts t
  unfold iblk1
  rw [View.read_apply]
  show V c (Pipeline.arrRef spec1 2) (((cfg1.win 2).blk t).view.emb (ix2 r cc))
    = V c (Pipeline.arrRef spec1 2) (ix2 ⟨4000 * t.val + r.val, hr⟩ cc)
  congr 1
  funext a
  apply Fin.ext
  match a with
  | ⟨0, _⟩ => show win1_2.index t (0 : Fin 2) * 4000 + 1 * r.val = 4000 * t.val + r.val; rw [e0]; omega
  | ⟨1, _⟩ => show win1_2.index t (1 : Fin 2) * 1 + 1 * cc.val = cc.val; rw [e1]; omega

/-- The bias window's block is the whole bias vector at every point. -/
theorem whole_1 (c : Dev nD) (t : Fin cfg1.N) :
    (iblk1 V c 1 t : GSpec.Vc 64) = V c (Pipeline.arrRef spec1 1) := by
  obtain ⟨-, -, e0, -⟩ := idx_facts t
  unfold iblk1
  funext (x : S64.Idx)
  rw [View.read_apply]
  show V c (Pipeline.arrRef spec1 1) (((cfg1.win 1).blk t).view.emb x) = V c (Pipeline.arrRef spec1 1) x
  congr 1
  funext a
  apply Fin.ext
  match a with
  | ⟨0, _⟩ => show win1_1.index t (0 : Fin 1) * 64 + 1 * (x 0).val = (x 0).val; rw [e0]; omega

/-- The weight window's block is the whole weight at every point. -/
theorem whole_3 (c : Dev nD) (t : Fin cfg1.N) :
    (iblk1 V c 3 t : GSpec.Mat 64 64) = V c (Pipeline.arrRef spec1 3) := by
  obtain ⟨-, -, -, -, -, e0, e1, -⟩ := idx_facts t
  unfold iblk1
  funext (x : S64x64.Idx)
  rw [View.read_apply]
  show V c (Pipeline.arrRef spec1 3) (((cfg1.win 3).blk t).view.emb x) = V c (Pipeline.arrRef spec1 3) x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-! ## What each point writes back -/

/-- Point t writes back, to the f32 output, the block of `post` of the whole arrays. -/
theorem flushed4_eq (c : Dev nD) (t : Fin cfg1.N) :
    (dat1 (F := Ideal) V c).flushed 4 t = ((cfg1.win 4).blk t).view.read (Elt Ideal)
      (GSpec.post (M := 100000) (N := 64) (V c (Pipeline.arrRef spec1 0)) (V c (Pipeline.arrRef spec1 1))
        (V c (Pipeline.arrRef spec1 2))) := by
  show (cfg1.win 4).cut (grid1.coords t) ((dat1 V c).after 4 t) = _
  rw [after1_4, out4_eq, whole_1]
  obtain ⟨-, -, -, -, -, -, -, e0, e1, -⟩ := idx_facts t
  funext (y : S4000x64.Idx)
  rw [View.read_apply]
  refine ValRows.isRows_apply (GSpec.rows_post (rows_0 V c t) (rows_2 V c t) _) y _ ?_ ?_
  · show win1_4.index t (0 : Fin 2) * 4000 + 1 * (y 0).val = 4000 * t.val + (y 0).val; rw [e0]; omega
  · show win1_4.index t (1 : Fin 2) * 64 + 1 * (y 1).val = (y 1).val; rw [e1]; omega

/-- Point t writes back, to the bf16 output, the block of `next` of `post` of the whole arrays. -/
theorem flushed5_eq (c : Dev nD) (t : Fin cfg1.N) :
    (dat1 (F := Ideal) V c).flushed 5 t = ((cfg1.win 5).blk t).view.read (Elt Ideal)
      (GSpec.next (M := 100000) (K := 64) (N := 64)
        (GSpec.post (M := 100000) (N := 64) (V c (Pipeline.arrRef spec1 0)) (V c (Pipeline.arrRef spec1 1))
          (V c (Pipeline.arrRef spec1 2)))
        (V c (Pipeline.arrRef spec1 3)) (V c (Pipeline.arrRef spec1 2))) := by
  show (cfg1.win 5).cut (grid1.coords t) ((dat1 V c).after 5 t) = _
  rw [after1_5, out5_eq, whole_1, whole_3]
  obtain ⟨-, -, -, -, -, -, -, -, -, e0, e1⟩ := idx_facts t
  funext (y : S4000x64.Idx)
  rw [View.read_apply]
  refine ValRows.isRows_apply
    (ValRows.rows_next (GSpec.rows_post (rows_0 V c t) (rows_2 V c t) _) _ (rows_2 V c t)) y _ ?_ ?_
  · show win1_5.index t (0 : Fin 2) * 4000 + 1 * (y 0).val = 4000 * t.val + (y 0).val; rw [e0]; omega
  · show win1_5.index t (1 : Fin 2) * 64 + 1 * (y 1).val = (y 1).val; rw [e1]; omega

/-! ## The blocks tile the rows -/

/-- An index of the f32 output is in point t's block iff each coordinate is in the block's range on its axis. -/
theorem mem_blk4 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v30_0).slice (win1_4.rect t)).set ↔ _
  rw [View.set_slice_whole, Rect.mem_set_unit]
  exact Iff.rfl

theorem mem_blk5 (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v30_1).slice (win1_5.rect t)).set ↔ _
  rw [View.set_slice_whole, Rect.mem_set_unit]
  exact Iff.rfl

/-- Row r of the f32 output is written back by point r / 4000. -/
theorem cover4 (i : S100000x64.Idx) :
    ∃ t : Fin cfg1.N, (cfg1.win 4).flush t = true ∧ i ∈ ((cfg1.win 4).blk t).view.set := by
  have hN : cfg1.N = 25 := N_1
  have hi0 : (i 0).val < 100000 := (i 0).isLt
  have hi1 : (i 1).val < 64 := (i 1).isLt
  obtain ⟨t, ht⟩ : ∃ t : Fin cfg1.N, t.val = (i 0).val / 4000 := ⟨⟨(i 0).val / 4000, by rw [hN]; omega⟩, rfl⟩
  obtain ⟨-, -, -, -, -, -, -, e0, e1, -⟩ := idx_facts t
  refine ⟨t, flush1_4 t, ?_⟩
  rw [mem_blk4]
  intro a
  match a with
  | ⟨0, _⟩ =>
    show win1_4.index t (0 : Fin 2) * 4000 ≤ (i 0).val ∧ (i 0).val < win1_4.index t (0 : Fin 2) * 4000 + 4000
    rw [e0, ht]; omega
  | ⟨1, _⟩ =>
    show win1_4.index t (1 : Fin 2) * 64 ≤ (i 1).val ∧ (i 1).val < win1_4.index t (1 : Fin 2) * 64 + 64
    rw [e1]; omega

/-- Row r of the bf16 output is written back by point r / 4000. -/
theorem cover5 (i : S100000x64.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 64 := (i 1).isLt
  obtain ⟨t, ht⟩ : ∃ t : Fin cfg1.N, t.val = (i 0).val / 4000 := ⟨⟨(i 0).val / 4000, by rw [hN]; omega⟩, rfl⟩
  obtain ⟨-, -, -, -, -, -, -, -, -, e0, e1⟩ := idx_facts t
  refine ⟨t, flush1_5 t, ?_⟩
  rw [mem_blk5]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 64 ≤ (i 1).val ∧ (i 1).val < win1_5.index t (1 : Fin 2) * 64 + 64
    rw [e1]; omega

/-! ## The arrays after the call -/

/-- The f32 output ends holding `post` of the aggregate, the bias and the scale column. -/
theorem arr1_4 (c : Dev nD) : (dat1 (F := Ideal) V c).arrAt 4 cfg1.N
    = GSpec.post (V c (Pipeline.arrRef spec1 0)) (V c (Pipeline.arrRef spec1 1)) (V c (Pipeline.arrRef spec1 2)) :=
  (dat1 (F := Ideal) V c).arrAt_eq_of_cover 4 _ (fun t _ => flushed4_eq V c t) cover4

/-- The bf16 output ends holding that times the next weight, scaled by the same column. -/
theorem arr1_5 (c : Dev nD) : (dat1 (F := Ideal) V c).arrAt 5 cfg1.N
    = GSpec.next (GSpec.post (V c (Pipeline.arrRef spec1 0)) (V c (Pipeline.arrRef spec1 1)) (V c (Pipeline.arrRef spec1 2)))
        (V c (Pipeline.arrRef spec1 3)) (V c (Pipeline.arrRef spec1 2)) :=
  (dat1 (F := Ideal) V c).arrAt_eq_of_cover 5 _ (fun t _ => flushed5_eq V c t) cover5

end Cert.KernelIdeal.Val1

end
-- ==== Proof.KReg1.lean ====
/-
  Call 1 rewrites the buffer contents as its operations do.

  When the call is entered the weight and bias windows read argument arrays, which still hold what was launched: no
  host operation writes one, and an earlier call leaves every array it does not own as found.  Each output array of the
  call ends at its layer function of the arrays read, every other window's array ends as found, and the call touches no
  other buffer.
-/
import proofs.«151212_j72112500900409_2_alg».proof.Proof.Gen.KernelIdeal.Frame
import proofs.«151212_j72112500900409_2_alg».proof.Proof.KOps
import proofs.«151212_j72112500900409_2_alg».proof.Proof.LibRegionOps
import proofs.«151212_j72112500900409_2_alg».proof.Proof.LibLineEval
import proofs.«151212_j72112500900409_2_alg».proof.Proof.Val1
set_option maxRecDepth 16384

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval
open Idealize.ShloMosaic.Pipeline (Dat)

variable (m : (ℓ : Loc nD τ sig) → Buf (Elt Ideal) ℓ) (ρ : Dev nD → PrngReg) (c : Dev nD)

open Cert.KernelIdeal.Val1 (arr1_4 arr1_5)

/-- The host operations before call 0 write none of this call's argument arrays. -/
theorem r1_pre (V : Valuation τ sig (Elt Ideal)) :
    (after hostOps0_2 (after hostOps0_1 (after hostOps0 V)) (Proc.devRef .tc main_arg8) = V (Proc.devRef .tc main_arg8))
    ∧ (after hostOps0_2 (after hostOps0_1 (after hostOps0 V)) (Proc.devRef .tc main_arg9) = V (Proc.devRef .tc main_arg9)) := by
  simp only [hostOps0, hostOps0_1, hostOps0_2]
  refine ⟨?_, ?_⟩ <;> eval_line

/-- Nor do the host operations before call 1. -/
theorem r1_keeps1 (V : Valuation τ sig (Elt Ideal)) :
    (after hostOps1 V (Proc.devRef .tc main_arg8) = V (Proc.devRef .tc main_arg8))
    ∧ (after hostOps1 V (Proc.devRef .tc main_arg9) = V (Proc.devRef .tc main_arg9)) := by
  simp only [hostOps1]
  refine ⟨?_, ?_⟩ <;> eval_line

/-- Argument 8 is as launched when the call is entered. -/
theorem W5_arg8 : W5 (F := Ideal) m ρ c (Proc.devRef .tc main_arg8) = a8 m c :=
  ((r1_keeps1 (W4 m ρ c)).1).trans ((W4_of_ne m ρ c main_arg8 (by decide)).trans ((r1_pre (W0 m ρ c)).1))

/-- Argument 9 is as launched when the call is entered. -/
theorem W5_arg9 : W5 (F := Ideal) m ρ c (Proc.devRef .tc main_arg9) = a9 m c :=
  ((r1_keeps1 (W4 m ρ c)).2).trans ((W4_of_ne m ρ c main_arg9 (by decide)).trans ((r1_pre (W0 m ρ c)).2))

/-- What the call's operations leave in the output array `main_v30_0`. -/
theorem ops1_out_4 (V : Valuation τ sig (Elt Ideal)) :
    after (ops1 m c) V (Proc.devRef .tc main_v30_0)
      = GSpec.post (V (Proc.devRef .tc main_v29)) (a8 m c) (V (Proc.devRef .tc main_v17)) := by
  simp only [ops1]; eval_line

/-- What the call's operations leave in the output array `main_v30_1`. -/
theorem ops1_out_5 (V : Valuation τ sig (Elt Ideal)) :
    after (ops1 m c) V (Proc.devRef .tc main_v30_1)
      = GSpec.next (GSpec.post (V (Proc.devRef .tc main_v29)) (a8 m c) (V (Proc.devRef .tc main_v17))) (a9 m c) (V (Proc.devRef .tc main_v17)) := by
  simp only [ops1]; eval_line

/-- Call 1 leaves what its operations leave. -/
theorem W6_eq : W6 (F := Ideal) m ρ c = after (ops1 m c) (W5 m ρ c) := by
  have hio : ∀ w : Fin 6, w ∉ ({4, 5} : Finset (Fin 6)) → (cfg1.win w).isOut = false := by decide
  unfold W6
  refine Cert.RegionOps.withArrays_eq_after spec1 launch1.win.arr_inj c _ _ (ops1 m c) {4, 5} ?_ ?_ ?_
  · intro op hop b hb
    simp only [ops1, List.mem_cons, List.mem_singleton, List.not_mem_nil, or_false] at hop
    rcases hop with rfl | rfl
    · rw [binary_writes, Finset.mem_singleton] at hb
      exact ⟨4, by decide, hb⟩
    · rw [binary_writes, Finset.mem_singleton] at hb
      exact ⟨5, by decide, hb⟩
  · intro w hw
    rw [Finset.mem_insert, Finset.mem_singleton] at hw
    rcases hw with rfl | rfl
    · show (dat1 (V5 m ρ) c).arrAt 4 cfg1.N = after (ops1 m c) (W5 m ρ c) (Proc.devRef .tc main_v30_0)
      rw [arr1_4, ops1_out_4]
      show GSpec.post (W5 m ρ c (Proc.devRef .tc main_v29)) (W5 m ρ c (Proc.devRef .tc main_arg8)) (W5 m ρ c (Proc.devRef .tc main_v17)) = _
      rw [W5_arg8 m ρ c]
    · show (dat1 (V5 m ρ) c).arrAt 5 cfg1.N = after (ops1 m c) (W5 m ρ c) (Proc.devRef .tc main_v30_1)
      rw [arr1_5, ops1_out_5]
      show GSpec.next (GSpec.post (W5 m ρ c (Proc.devRef .tc main_v29)) (W5 m ρ c (Proc.devRef .tc main_arg8)) (W5 m ρ c (Proc.devRef .tc main_v17))) (W5 m ρ c (Proc.devRef .tc main_arg9)) (W5 m ρ c (Proc.devRef .tc main_v17)) = _
      rw [W5_arg8 m ρ c, W5_arg9 m ρ c]
  · intro w hw
    exact ((dat1 (V5 m ρ) c).arrAt_in w (hio w hw) _).trans (A_eq1 (V5 m ρ) c w)

end Cert.KernelIdeal.KFold

end
-- ==== Proof.Val2Pay.lean ====
/-
  What one grid point of the second layer-finishing call computes on its block of 4000 rows, as the layer
  functions of the specification at 4000 rows.

  The body scales the aggregate's row r by the row's entry of the one-column scale block, adds the bias row, clips
  at zero and adds the earlier embedding's block (`resid`); it then multiplies the finished block by the next
  layer's weight and scales each row again (`next`).  A change of float format is the identity on the extended
  reals and a reshape between equal shapes moves nothing, so each stored value is the specification's expression
  entry by entry.
-/
import proofs.«151212_j72112500900409_2_alg».proof.Proof.Gen.KernelIdeal.Skeleton
import proofs.«151212_j72112500900409_2_alg».proof.Proof.KSpec
import proofs.«151212_j72112500900409_2_alg».proof.Proof.LibRowOps
import proofs.«151212_j72112500900409_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val2

open Cert.KernelIdeal Cert.KernelIdeal.Gen Idealize.ShloMosaic Idealize.ShloMosaic.TcCoe Idealize.ShloMosaic.ValueIdx Idealize.SL.Sem
open Idealize.ShloMosaic.Pipeline (Dat)

/-- The 64-by-64 product of the body contracts the left operand's columns with the right operand's rows. -/
theorem plain64 : Cert.RowOps.IsPlain dot_S4000x64_S64x64_S4000x64_1_0_0_1_n_n := ⟨rfl, rfl, rfl, rfl, rfl, rfl⟩

/-- The first stored block at (r, c): the earlier embedding plus the clipped, biased, scaled aggregate. -/
theorem k2_pay1_apply (d : Vec Ideal S4000x1 .f32) (a : Vec Ideal S4000x64 .f32) (b : Vec Ideal S64 .f32)
    (res : Vec Ideal S4000x64 .f32) (r : Fin 4000) (c : Fin 64) :
    k2_pay1 (F := Ideal) d a b res (ix2 r c)
      = res (ix2 r c) + max (d (ix2 r (0 : Fin 1)) * a (ix2 r c) + b (ix1 c)) GSpec.z := by
  unfold k2_pay1
  rw [addf_apply, maximumf_apply, addf_apply, mulf_apply, Cert.Dense.rowBias_apply, broadcast_apply, shapeCast_self,
    shapeCast_self, shapeCast_self, Cert.RowOps.spread_apply]
  rfl

/-- The first stored block is `resid` of the blocks. -/
theorem k2_pay1_eq (d : Vec Ideal S4000x1 .f32) (a : Vec Ideal S4000x64 .f32) (b : Vec Ideal S64 .f32)
    (res : Vec Ideal S4000x64 .f32) :
    k2_pay1 (F := Ideal) d a b res = GSpec.resid (M := 4000) (N := 64) a b d res := by
  funext j
  obtain ⟨r, c, rfl⟩ : ∃ (r : Fin 4000) (c : Fin 64), j = ix2 r c := ⟨j 0, j 1, eq_ix2 j⟩
  rw [k2_pay1_apply]
  rfl

/-- The second stored block: the first one times the next weight, each row scaled again. -/
theorem k2_pay2_eq (d : Vec Ideal S4000x1 .f32) (a : Vec Ideal S4000x64 .f32) (b : Vec Ideal S64 .f32)
    (res : Vec Ideal S4000x64 .f32) (w : Vec Ideal S64x64 .f32) (d' : Vec Ideal S4000x1 .f32) :
    k2_pay2 (F := Ideal) d a b res w d'
      = GSpec.next (M := 4000) (K := 64) (N := 64) (GSpec.resid (M := 4000) (N := 64) a b d res) w d' := by
  funext j
  obtain ⟨r, c, rfl⟩ : ∃ (r : Fin 4000) (c : Fin 64), j = ix2 r c := ⟨j 0, j 1, eq_ix2 j⟩
  unfold k2_pay2
  rw [truncf_apply, mulf_apply, Cert.RowOps.spread_apply, shapeCast_self, k2_pay1_eq]
  refine (congrArg (· * d' (ix2 r (0 : Fin 1))) (Cert.RowOps.matmul_zero_apply plain64 none _ _ r c)).trans ?_
  rfl

end Cert.KernelIdeal.Val2

end
-- ==== Proof.Val2.lean ====
/-
  What the second layer-finishing call leaves in its two output arrays, as whole-array functions of the arrays it
  finds.

  The call walks 25 blocks of 4000 rows.  At point t the aggregate, the scale column, the earlier embedding and both
  outputs are staged through rows 4000 t … 4000 t + 3999, the bias vector and the next layer's weight whole.  Every
  layer function of the specification is local to a row, so what point t computes on its blocks is the block of the
  same function of the whole arrays; the 25 blocks tile the 100000 rows (row r lies in block r / 4000), so the
  arrays end holding that function everywhere.
-/
import proofs.«151212_j72112500900409_2_alg».proof.Proof.Gen.KernelIdeal.Frame
import proofs.«151212_j72112500900409_2_alg».proof.Proof.KSpec
import proofs.«151212_j72112500900409_2_alg».proof.Proof.LibRowOps
import proofs.«151212_j72112500900409_2_alg».proof.Proof.LibDense
import proofs.«151212_j72112500900409_2_alg».proof.Proof.ValRows
import proofs.«151212_j72112500900409_2_alg».proof.Proof.Val2Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## What the body leaves, from the blocks -/

/-- The f32 output's buffer after the body: `resid` of the aggregate, bias, scale and earlier-embedding blocks. -/
theorem out5_eq (x0 : Vec Ideal S4000x64 .f32) (x1 : Vec Ideal S64 .f32) (x2 : Vec Ideal S4000x1 .f32)
    (x3 : Vec Ideal S4000x64 .f32) (x4 : Vec Ideal S64x64 .f32) :
    out2_5 (F := Ideal) x0 x1 x2 x3 x4 = GSpec.resid (M := 4000) (N := 64) x0 x1 x2 x3 := by
  unfold out2_5
  rw [View.canon_unit_zero hz2]
  simp only [View.ld_unit_zero (S := S4000x64) hz2, View.ld_unit_zero (S := S4000x1) hz2, View.ld_unit_zero (S := S64) hz1]
  exact k2_pay1_eq _ _ _ _

/-- The bf16 output's buffer after the body: `next` of that and the weight, scaled by the same block. -/
theorem out6_eq (x0 : Vec Ideal S4000x64 .f32) (x1 : Vec Ideal S64 .f32) (x2 : Vec Ideal S4000x1 .f32)
    (x3 : Vec Ideal S4000x64 .f32) (x4 : Vec Ideal S64x64 .f32) :
    out2_6 (F := Ideal) x0 x1 x2 x3 x4
      = GSpec.next (M := 4000) (K := 64) (N := 64) (GSpec.resid (M := 4000) (N := 64) x0 x1 x2 x3) x4 x2 := by
  unfold out2_6
  rw [View.canon_unit_zero hz2]
  simp only [View.ld_unit_zero (S := S4000x64) hz2, View.ld_unit_zero (S := S4000x1) hz2, View.ld_unit_zero (S := S64) hz1,
    View.ld_unit_zero (S := S64x64) hz2]
  exact k2_pay2_eq _ _ _ _ _ _

/-! ## The windows' blocks as rows of their arrays -/

/-- The block indices over the grid: the row windows are at block (t, 0), the small ones at block 0. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 1) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = t.val ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = t.val ∧ win2_5.index t (1 : Fin 2) = 0 :=
  (by decide +kernel : ∀ t : Fin grid2.N, _)
theorem idx_6 : ∀ t : Fin cfg2.N, win2_6.index t (0 : Fin 2) = t.val ∧ win2_6.index t (1 : Fin 2) = 0 :=
  (by decide +kernel : ∀ t : Fin grid2.N, _)

/-- The aggregate's block at point t is its rows from 4000 t. -/
theorem rows_0 (c : Dev nD) (t : Fin cfg2.N) :
    GSpec.IsRows (M := 100000) (M' := 4000) (n := 64) (4000 * t.val) (iblk2 V c 0 t) (V c (Pipeline.arrRef spec2 0)) := by
  intro r hr cc
  obtain ⟨e0, e1⟩ := idx_0 t
  unfold iblk2
  rw [View.read_apply]
  show V c (Pipeline.arrRef spec2 0) (((cfg2.win 0).blk t).view.emb (ix2 r cc))
    = V c (Pipeline.arrRef spec2 0) (ix2 ⟨4000 * t.val + r.val, hr⟩ cc)
  congr 1
  funext a
  apply Fin.ext
  match a with
  | ⟨0, _⟩ => show win2_0.index t (0 : Fin 2) * 4000 + 1 * r.val = 4000 * t.val + r.val; rw [e0]; omega
  | ⟨1, _⟩ => show win2_0.index t (1 : Fin 2) * 64 + 1 * cc.val = cc.val; rw [e1]; omega

/-- The scale column's block at point t is its rows from 4000 t. -/
theorem rows_2 (c : Dev nD) (t : Fin cfg2.N) :
    GSpec.IsRows (M := 100000) (M' := 4000) (n := 1) (4000 * t.val) (iblk2 V c 2 t) (V c (Pipeline.arrRef spec2 2)) := by
  intro r hr cc
  obtain ⟨e0, e1⟩ := idx_2 t
  unfold iblk2
  rw [View.read_apply]
  show V c (Pipeline.arrRef spec2 2) (((cfg2.win 2).blk t).view.emb (ix2 r cc))
    = V c (Pipeline.arrRef spec2 2) (ix2 ⟨4000 * t.val + r.val, hr⟩ cc)
  congr 1
  funext a
  apply Fin.ext
  match a with
  | ⟨0, _⟩ => show win2_2.index t (0 : Fin 2) * 4000 + 1 * r.val = 4000 * t.val + r.val; rw [e0]; omega
  | ⟨1, _⟩ => show win2_2.index t (1 : Fin 2) * 1 + 1 * cc.val = cc.val; rw [e1]; omega

/-- The earlier embedding's block at point t is its rows from 4000 t. -/
theorem rows_3 (c : Dev nD) (t : Fin cfg2.N) :
    GSpec.IsRows (M := 100000) (M' := 4000) (n := 64) (4000 * t.val) (iblk2 V c 3 t) (V c (Pipeline.arrRef spec2 3)) := by
  intro r hr cc
  obtain ⟨e0, e1⟩ := idx_3 t
  unfold iblk2
  rw [View.read_apply]
  show V c (Pipeline.arrRef spec2 3) (((cfg2.win 3).blk t).view.emb (ix2 r cc))
    = V c (Pipeline.arrRef spec2 3) (ix2 ⟨4000 * t.val + r.val, hr⟩ cc)
  congr 1
  funext a
  apply Fin.ext
  match a with
  | ⟨0, _⟩ => show win2_3.index t (0 : Fin 2) * 4000 + 1 * r.val = 4000 * t.val + r.val; rw [e0]; omega
  | ⟨1, _⟩ => show win2_3.index t (1 : Fin 2) * 64 + 1 * cc.val = cc.val; rw [e1]; omega

/-- The bias window's block is the whole bias vector at every point. -/
theorem whole_1 (c : Dev nD) (t : Fin cfg2.N) :
    (iblk2 V c 1 t : GSpec.Vc 64) = V c (Pipeline.arrRef spec2 1) := by
  have e0 := idx_1 t
  unfold iblk2
  funext (x : S64.Idx)
  rw [View.read_apply]
  show V c (Pipeline.arrRef spec2 1) (((cfg2.win 1).blk t).view.emb x) = V c (Pipeline.arrRef spec2 1) x
  congr 1
  funext a
  apply Fin.ext
  match a with
  | ⟨0, _⟩ => show win2_1.index t (0 : Fin 1) * 64 + 1 * (x 0).val = (x 0).val; rw [e0]; omega

/-- The weight window's block is the whole weight at every point. -/
theorem whole_4 (c : Dev nD) (t : Fin cfg2.N) :
    (iblk2 V c 4 t : GSpec.Mat 64 64) = V c (Pipeline.arrRef spec2 4) := by
  obtain ⟨e0, e1⟩ := idx_4 t
  unfold iblk2
  funext (x : S64x64.Idx)
  rw [View.read_apply]
  show V c (Pipeline.arrRef spec2 4) (((cfg2.win 4).blk t).view.emb x) = V c (Pipeline.arrRef spec2 4) x
  congr 1
  funext a
  apply Fin.ext
  match a with
  | ⟨0, _⟩ => show win2_4.index t (0 : Fin 2) * 64 + 1 * (x 0).val = (x 0).val; rw [e0]; omega
  | ⟨1, _⟩ => show win2_4.index t (1 : Fin 2) * 64 + 1 * (x 1).val = (x 1).val; rw [e1]; omega

/-! ## What each point writes back -/

/-- Point t writes back, to the f32 output, the block of `resid` of the whole arrays. -/
theorem flushed5_eq (c : Dev nD) (t : Fin cfg2.N) :
    (dat2 (F := Ideal) V c).flushed 5 t = ((cfg2.win 5).blk t).view.read (Elt Ideal)
      (GSpec.resid (M := 100000) (N := 64) (V c (Pipeline.arrRef spec2 0)) (V c (Pipeline.arrRef spec2 1))
        (V c (Pipeline.arrRef spec2 2)) (V c (Pipeline.arrRef spec2 3))) := by
  show (cfg2.win 5).cut (grid2.coords t) ((dat2 V c).after 5 t) = _
  rw [after2_5, out5_eq, whole_1]
  obtain ⟨e0, e1⟩ := idx_5 t
  funext (y : S4000x64.Idx)
  rw [View.read_apply]
  refine ValRows.isRows_apply (ValRows.rows_resid (rows_0 V c t) (rows_2 V c t) (rows_3 V c t) _) y _ ?_ ?_
  · show win2_5.index t (0 : Fin 2) * 4000 + 1 * (y 0).val = 4000 * t.val + (y 0).val; rw [e0]; omega
  · show win2_5.index t (1 : Fin 2) * 64 + 1 * (y 1).val = (y 1).val; rw [e1]; omega

/-- Point t writes back, to the bf16 output, the block of `next` of `resid` of the whole arrays. -/
theorem flushed6_eq (c : Dev nD) (t : Fin cfg2.N) :
    (dat2 (F := Ideal) V c).flushed 6 t = ((cfg2.win 6).blk t).view.read (Elt Ideal)
      (GSpec.next (M := 100000) (K := 64) (N := 64)
        (GSpec.resid (M := 100000) (N := 64) (V c (Pipeline.arrRef spec2 0)) (V c (Pipeline.arrRef spec2 1))
        (V c (Pipeline.arrRef spec2 2)) (V c (Pipeline.arrRef spec2 3)))
        (V c (Pipeline.arrRef spec2 4)) (V c (Pipeline.arrRef spec2 2))) := by
  show (cfg2.win 6).cut (grid2.coords t) ((dat2 V c).after 6 t) = _
  rw [after2_6, out6_eq, whole_1, whole_4]
  obtain ⟨e0, e1⟩ := idx_6 t
  funext (y : S4000x64.Idx)
  rw [View.read_apply]
  refine ValRows.isRows_apply
    (ValRows.rows_next (ValRows.rows_resid (rows_0 V c t) (rows_2 V c t) (rows_3 V c t) _) _ (rows_2 V c t)) y _ ?_ ?_
  · show win2_6.index t (0 : Fin 2) * 4000 + 1 * (y 0).val = 4000 * t.val + (y 0).val; rw [e0]; omega
  · show win2_6.index t (1 : Fin 2) * 64 + 1 * (y 1).val = (y 1).val; rw [e1]; omega

/-! ## The blocks tile the rows -/

/-- An index of the f32 output is in point t's block iff each coordinate is in the block's range on its axis. -/
theorem mem_blk5 (t : Fin cfg2.N) (i : S100000x64.Idx) :
    i ∈ ((cfg2.win 5).blk t).view.set ↔ ∀ a : Fin 2, win2_5.index t a * S4000x64.size a ≤ (i a).val
      ∧ (i a).val < win2_5.index t a * S4000x64.size a + S4000x64.size a := by
  show i ∈ ((View.whole main_v42_0).slice (win2_5.rect t)).set ↔ _
  rw [View.set_slice_whole, Rect.mem_set_unit]
  exact Iff.rfl

/-- Row r of the f32 output is written back by point r / 4000. -/
theorem cover5 (i : S100000x64.Idx) :
    ∃ t : Fin cfg2.N, (cfg2.win 5).flush t = true ∧ i ∈ ((cfg2.win 5).blk t).view.set := by
  have hN : cfg2.N = 25 := N_2
  have hi0 : (i 0).val < 100000 := (i 0).isLt
  have hi1 : (i 1).val < 64 := (i 1).isLt
  obtain ⟨t, ht⟩ : ∃ t : Fin cfg2.N, t.val = (i 0).val / 4000 := ⟨⟨(i 0).val / 4000, by rw [hN]; omega⟩, rfl⟩
  obtain ⟨e0, e1⟩ := idx_5 t
  refine ⟨t, flush2_5 t, ?_⟩
  rw [mem_blk5]
  intro a
  match a with
  | ⟨0, _⟩ =>
    show win2_5.index t (0 : Fin 2) * 4000 ≤ (i 0).val ∧ (i 0).val < win2_5.index t (0 : Fin 2) * 4000 + 4000
    rw [e0, ht]; omega
  | ⟨1, _⟩ =>
    show win2_5.index t (1 : Fin 2) * 64 ≤ (i 1).val ∧ (i 1).val < win2_5.index t (1 : Fin 2) * 64 + 64
    rw [e1]; omega

/-- An index of the bf16 output is in point t's block iff each coordinate is in the block's range on its axis. -/
theorem mem_blk6 (t : Fin cfg2.N) (i : S100000x64.Idx) :
    i ∈ ((cfg2.win 6).blk t).view.set ↔ ∀ a : Fin 2, win2_6.index t a * S4000x64.size a ≤ (i a).val
      ∧ (i a).val < win2_6.index t a * S4000x64.size a + S4000x64.size a := by
  show i ∈ ((View.whole main_v42_1).slice (win2_6.rect t)).set ↔ _
  rw [View.set_slice_whole, Rect.mem_set_unit]
  exact Iff.rfl

/-- Row r of the bf16 output is written back by point r / 4000. -/
theorem cover6 (i : S100000x64.Idx) :
    ∃ t : Fin cfg2.N, (cfg2.win 6).flush t = true ∧ i ∈ ((cfg2.win 6).blk t).view.set := by
  have hN : cfg2.N = 25 := N_2
  have hi0 : (i 0).val < 100000 := (i 0).isLt
  have hi1 : (i 1).val < 64 := (i 1).isLt
  obtain ⟨t, ht⟩ : ∃ t : Fin cfg2.N, t.val = (i 0).val / 4000 := ⟨⟨(i 0).val / 4000, by rw [hN]; omega⟩, rfl⟩
  obtain ⟨e0, e1⟩ := idx_6 t
  refine ⟨t, flush2_6 t, ?_⟩
  rw [mem_blk6]
  intro a
  match a with
  | ⟨0, _⟩ =>
    show win2_6.index t (0 : Fin 2) * 4000 ≤ (i 0).val ∧ (i 0).val < win2_6.index t (0 : Fin 2) * 4000 + 4000
    rw [e0, ht]; omega
  | ⟨1, _⟩ =>
    show win2_6.index t (1 : Fin 2) * 64 ≤ (i 1).val ∧ (i 1).val < win2_6.index t (1 : Fin 2) * 64 + 64
    rw [e1]; omega

/-! ## The arrays after the call -/

/-- The f32 output ends holding `resid` of the aggregate, the bias, the scale column and the earlier embedding. -/
theorem arr2_5 (c : Dev nD) : (dat2 (F := Ideal) V c).arrAt 5 cfg2.N
    = GSpec.resid (V c (Pipeline.arrRef spec2 0)) (V c (Pipeline.arrRef spec2 1)) (V c (Pipeline.arrRef spec2 2))
        (V c (Pipeline.arrRef spec2 3)) :=
  (dat2 (F := Ideal) V c).arrAt_eq_of_cover 5 _ (fun t _ => flushed5_eq V c t) cover5

/-- The bf16 output ends holding that times the next weight, scaled by the same column. -/
theorem arr2_6 (c : Dev nD) : (dat2 (F := Ideal) V c).arrAt 6 cfg2.N
    = GSpec.next (GSpec.resid (V c (Pipeline.arrRef spec2 0)) (V c (Pipeline.arrRef spec2 1)) (V c (Pipeline.arrRef spec2 2))
        (V c (Pipeline.arrRef spec2 3))) (V c (Pipeline.arrRef spec2 4)) (V c (Pipeline.arrRef spec2 2)) :=
  (dat2 (F := Ideal) V c).arrAt_eq_of_cover 6 _ (fun t _ => flushed6_eq V c t) cover6

end Cert.KernelIdeal.Val2

end
-- ==== Proof.KReg2.lean ====
/-
  Call 2 rewrites the buffer contents as its operations do.

  When the call is entered the weight and bias windows read argument arrays, which still hold what was launched: no
  host operation writes one, and an earlier call leaves every array it does not own as found.  Each output array of the
  call ends at its layer function of the arrays read, every other window's array ends as found, and the call touches no
  other buffer.
-/
import proofs.«151212_j72112500900409_2_alg».proof.Proof.Gen.KernelIdeal.Frame
import proofs.«151212_j72112500900409_2_alg».proof.Proof.KOps
import proofs.«151212_j72112500900409_2_alg».proof.Proof.LibRegionOps
import proofs.«151212_j72112500900409_2_alg».proof.Proof.LibLineEval
import proofs.«151212_j72112500900409_2_alg».proof.Proof.Val2
set_option maxRecDepth 16384

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval
open Idealize.ShloMosaic.Pipeline (Dat)

variable (m : (ℓ : Loc nD τ sig) → Buf (Elt Ideal) ℓ) (ρ : Dev nD → PrngReg) (c : Dev nD)

open Cert.KernelIdeal.Val2 (arr2_5 arr2_6)

/-- The host operations before call 0 write none of this call's argument arrays. -/
theorem r2_pre (V : Valuation τ sig (Elt Ideal)) :
    (after hostOps0_2 (after hostOps0_1 (after hostOps0 V)) (Proc.devRef .tc main_arg10) = V (Proc.devRef .tc main_arg10))
    ∧ (after hostOps0_2 (after hostOps0_1 (after hostOps0 V)) (Proc.devRef .tc main_arg11) = V (Proc.devRef .tc main_arg11)) := by
  simp only [hostOps0, hostOps0_1, hostOps0_2]
  refine ⟨?_, ?_⟩ <;> eval_line

/-- Nor do the host operations before call 1. -/
theorem r2_keeps1 (V : Valuation τ sig (Elt Ideal)) :
    (after hostOps1 V (Proc.devRef .tc main_arg10) = V (Proc.devRef .tc main_arg10))
    ∧ (after hostOps1 V (Proc.devRef .tc main_arg11) = V (Proc.devRef .tc main_arg11)) := by
  simp only [hostOps1]
  refine ⟨?_, ?_⟩ <;> eval_line

/-- Nor do the host operations before call 2. -/
theorem r2_keeps2 (V : Valuation τ sig (Elt Ideal)) :
    (after hostOps2 V (Proc.devRef .tc main_arg10) = V (Proc.devRef .tc main_arg10))
    ∧ (after hostOps2 V (Proc.devRef .tc main_arg11) = V (Proc.devRef .tc main_arg11)) := by
  simp only [hostOps2]
  refine ⟨?_, ?_⟩ <;> eval_line

/-- Argument 10 is as launched when the call is entered. -/
theorem W7_arg10 : W7 (F := Ideal) m ρ c (Proc.devRef .tc main_arg10) = a10 m c :=
  ((r2_keeps2 (W6 m ρ c)).1).trans ((W6_of_ne m ρ c main_arg10 (by decide)).trans (((r2_keeps1 (W4 m ρ c)).1).trans ((W4_of_ne m ρ c main_arg10 (by decide)).trans ((r2_pre (W0 m ρ c)).1))))

/-- Argument 11 is as launched when the call is entered. -/
theorem W7_arg11 : W7 (F := Ideal) m ρ c (Proc.devRef .tc main_arg11) = a11 m c :=
  ((r2_keeps2 (W6 m ρ c)).2).trans ((W6_of_ne m ρ c main_arg11 (by decide)).trans (((r2_keeps1 (W4 m ρ c)).2).trans ((W4_of_ne m ρ c main_arg11 (by decide)).trans ((r2_pre (W0 m ρ c)).2))))

/-- What the call's operations leave in the output array `main_v42_0`. -/
theorem ops2_out_5 (V : Valuation τ sig (Elt Ideal)) :
    after (ops2 m c) V (Proc.devRef .tc main_v42_0)
      = GSpec.resid (V (Proc.devRef .tc main_v41)) (a10 m c) (V (Proc.devRef .tc main_v17)) (V (Proc.devRef .tc main_v30_0)) := by
  simp only [ops2]; eval_line

/-- What the call's operations leave in the output array `main_v42_1`. -/
theorem ops2_out_6 (V : Valuation τ sig (Elt Ideal)) :
    after (ops2 m c) V (Proc.devRef .tc main_v42_1)
      = GSpec.next (GSpec.resid (V (Proc.devRef .tc main_v41)) (a10 m c) (V (Proc.devRef .tc main_v17)) (V (Proc.devRef .tc main_v30_0))) (a11 m c) (V (Proc.devRef .tc main_v17)) := by
  simp only [ops2]; eval_line

/-- Call 2 leaves what its operations leave. -/
theorem W8_eq : W8 (F := Ideal) m ρ c = after (ops2 m c) (W7 m ρ c) := by
  have hio : ∀ w : Fin 7, w ∉ ({5, 6} : Finset (Fin 7)) → (cfg2.win w).isOut = false := by decide
  unfold W8
  refine Cert.RegionOps.withArrays_eq_after spec2 launch2.win.arr_inj c _ _ (ops2 m c) {5, 6} ?_ ?_ ?_
  · intro op hop b hb
    simp only [ops2, List.mem_cons, List.mem_singleton, List.not_mem_nil, or_false] at hop
    rcases hop with rfl | rfl
    · rw [ternary_writes, Finset.mem_singleton] at hb
      exact ⟨5, by decide, hb⟩
    · rw [ternary_writes, Finset.mem_singleton] at hb
      exact ⟨6, by decide, hb⟩
  · intro w hw
    rw [Finset.mem_insert, Finset.mem_singleton] at hw
    rcases hw with rfl | rfl
    · show (dat2 (V7 m ρ) c).arrAt 5 cfg2.N = after (ops2 m c) (W7 m ρ c) (Proc.devRef .tc main_v42_0)
      rw [arr2_5, ops2_out_5]
      show GSpec.resid (W7 m ρ c (Proc.devRef .tc main_v41)) (W7 m ρ c (Proc.devRef .tc main_arg10)) (W7 m ρ c (Proc.devRef .tc main_v17)) (W7 m ρ c (Proc.devRef .tc main_v30_0)) = _
      rw [W7_arg10 m ρ c]
    · show (dat2 (V7 m ρ) c).arrAt 6 cfg2.N = after (ops2 m c) (W7 m ρ c) (Proc.devRef .tc main_v42_1)
      rw [arr2_6, ops2_out_6]
      show GSpec.next (GSpec.resid (W7 m ρ c (Proc.devRef .tc main_v41)) (W7 m ρ c (Proc.devRef .tc main_arg10)) (W7 m ρ c (Proc.devRef .tc main_v17)) (W7 m ρ c (Proc.devRef .tc main_v30_0))) (W7 m ρ c (Proc.devRef .tc main_arg11)) (W7 m ρ c (Proc.devRef .tc main_v17)) = _
      rw [W7_arg10 m ρ c, W7_arg11 m ρ c]
  · intro w hw
    exact ((dat2 (V7 m ρ) c).arrAt_in w (hio w hw) _).trans (A_eq2 (V7 m ρ) c w)

end Cert.KernelIdeal.KFold

end
-- ==== Proof.Val3Pay.lean ====
/-
  What one grid point of the last layer-finishing call computes on its block of 4000 rows, as the layer function
  of the specification at 4000 rows.

  The body scales the aggregate's row r by the row's entry of the one-column scale block, adds the bias row, clips
  at zero and adds the earlier embedding's block (`resid`).  A change of float format is the identity on the
  extended reals and a reshape between equal shapes moves nothing, so the stored value is the specification's
  expression entry by entry.
-/
import proofs.«151212_j72112500900409_2_alg».proof.Proof.Gen.KernelIdeal.Skeleton
import proofs.«151212_j72112500900409_2_alg».proof.Proof.KSpec
import proofs.«151212_j72112500900409_2_alg».proof.Proof.LibRowOps
import proofs.«151212_j72112500900409_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val3

open Cert.KernelIdeal Cert.KernelIdeal.Gen Idealize.ShloMosaic Idealize.ShloMosaic.TcCoe Idealize.ShloMosaic.ValueIdx Idealize.SL.Sem
open Idealize.ShloMosaic.Pipeline (Dat)

/-- The stored block at (r, c): the earlier embedding plus the clipped, biased, scaled aggregate. -/
theorem k3_pay1_apply (d : Vec Ideal S4000x1 .f32) (a : Vec Ideal S4000x64 .f32) (b : Vec Ideal S64 .f32)
    (res : Vec Ideal S4000x64 .f32) (r : Fin 4000) (c : Fin 64) :
    k3_pay1 (F := Ideal) d a b res (ix2 r c)
      = res (ix2 r c) + max (d (ix2 r (0 : Fin 1)) * a (ix2 r c) + b (ix1 c)) GSpec.z := by
  unfold k3_pay1
  rw [truncf_apply, addf_apply, maximumf_apply, addf_apply, mulf_apply, Cert.Dense.rowBias_apply, broadcast_apply,
    shapeCast_self, shapeCast_self, shapeCast_self, Cert.RowOps.spread_apply]
  rfl

/-- The stored block is `resid` of the blocks. -/
theorem k3_pay1_eq (d : Vec Ideal S4000x1 .f32) (a : Vec Ideal S4000x64 .f32) (b : Vec Ideal S64 .f32)
    (res : Vec Ideal S4000x64 .f32) :
    k3_pay1 (F := Ideal) d a b res = GSpec.resid (M := 4000) (N := 64) a b d res := by
  funext j
  obtain ⟨r, c, rfl⟩ : ∃ (r : Fin 4000) (c : Fin 64), j = ix2 r c := ⟨j 0, j 1, eq_ix2 j⟩
  rw [k3_pay1_apply]
  rfl

end Cert.KernelIdeal.Val3

end
-- ==== Proof.Val3.lean ====
/-
  What the last layer-finishing call leaves in its output array, as a whole-array function of the arrays it finds.

  The call walks 25 blocks of 4000 rows.  At point t the aggregate, the scale column, the earlier embedding and the
  output are staged through rows 4000 t … 4000 t + 3999, the bias vector whole.  The layer function of the
  specification is local to a row, so what point t computes on its blocks is the block of the same function of the
  whole arrays; the 25 blocks tile the 100000 rows (row r lies in block r / 4000), so the array ends holding that
  function everywhere.
-/
import proofs.«151212_j72112500900409_2_alg».proof.Proof.Gen.KernelIdeal.Frame
import proofs.«151212_j72112500900409_2_alg».proof.Proof.KSpec
import proofs.«151212_j72112500900409_2_alg».proof.Proof.LibRowOps
import proofs.«151212_j72112500900409_2_alg».proof.Proof.LibDense
import proofs.«151212_j72112500900409_2_alg».proof.Proof.ValRows
import proofs.«151212_j72112500900409_2_alg».proof.Proof.Val3Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## What the body leaves, from the blocks -/

/-- The output's buffer after the body: `resid` of the aggregate, bias, scale and earlier-embedding blocks. -/
theorem out4_eq (x0 : Vec Ideal S4000x64 .f32) (x1 : Vec Ideal S64 .f32) (x2 : Vec Ideal S4000x1 .f32)
    (x3 : Vec Ideal S4000x64 .f32) :
    out3_4 (F := Ideal) x0 x1 x2 x3 = GSpec.resid (M := 4000) (N := 64) x0 x1 x2 x3 := by
  unfold out3_4
  rw [View.canon_unit_zero hz2]
  simp only [View.ld_unit_zero (S := S4000x64) hz2, View.ld_unit_zero (S := S4000x1) hz2, View.ld_unit_zero (S := S64) hz1]
  exact k3_pay1_eq _ _ _ _

/-! ## The windows' blocks as rows of their arrays -/

/-- The block indices over the grid: the row windows are at block (t, 0), the bias at block 0. -/
theorem idx_0 : ∀ t : Fin cfg3.N, win3_0.index t (0 : Fin 2) = t.val ∧ win3_0.index t (1 : Fin 2) = 0 :=
  (by decide +kernel : ∀ t : Fin grid3.N, _)
theorem idx_1 : ∀ t : Fin cfg3.N, win3_1.index t (0 : Fin 1) = 0 :=
  (by decide +kernel : ∀ t : Fin grid3.N, _)
theorem idx_2 : ∀ t : Fin cfg3.N, win3_2.index t (0 : Fin 2) = t.val ∧ win3_2.index t (1 : Fin 2) = 0 :=
  (by decide +kernel : ∀ t : Fin grid3.N, _)
theorem idx_3 : ∀ t : Fin cfg3.N, win3_3.index t (0 : Fin 2) = t.val ∧ win3_3.index t (1 : Fin 2) = 0 :=
  (by decide +kernel : ∀ t : Fin grid3.N, _)
theorem idx_4 : ∀ t : Fin cfg3.N, win3_4.index t (0 : Fin 2) = t.val ∧ win3_4.index t (1 : Fin 2) = 0 :=
  (by decide +kernel : ∀ t : Fin grid3.N, _)

/-- The aggregate's block at point t is its rows from 4000 t. -/
theorem rows_0 (c : Dev nD) (t : Fin cfg3.N) :
    GSpec.IsRows (M := 100000) (M' := 4000) (n := 64) (4000 * t.val) (iblk3 V c 0 t) (V c (Pipeline.arrRef spec3 0)) := by
  intro r hr cc
  obtain ⟨e0, e1⟩ := idx_0 t
  unfold iblk3
  rw [View.read_apply]
  show V c (Pipeline.arrRef spec3 0) (((cfg3.win 0).blk t).view.emb (ix2 r cc))
    = V c (Pipeline.arrRef spec3 0) (ix2 ⟨4000 * t.val + r.val, hr⟩ cc)
  congr 1
  funext a
  apply Fin.ext
  match a with
  | ⟨0, _⟩ => show win3_0.index t (0 : Fin 2) * 4000 + 1 * r.val = 4000 * t.val + r.val; rw [e0]; omega
  | ⟨1, _⟩ => show win3_0.index t (1 : Fin 2) * 64 + 1 * cc.val = cc.val; rw [e1]; omega

/-- The scale column's block at point t is its rows from 4000 t. -/
theorem rows_2 (c : Dev nD) (t : Fin cfg3.N) :
    GSpec.IsRows (M := 100000) (M' := 4000) (n := 1) (4000 * t.val) (iblk3 V c 2 t) (V c (Pipeline.arrRef spec3 2)) := by
  intro r hr cc
  obtain ⟨e0, e1⟩ := idx_2 t
  unfold iblk3
  rw [View.read_apply]
  show V c (Pipeline.arrRef spec3 2) (((cfg3.win 2).blk t).view.emb (ix2 r cc))
    = V c (Pipeline.arrRef spec3 2) (ix2 ⟨4000 * t.val + r.val, hr⟩ cc)
  congr 1
  funext a
  apply Fin.ext
  match a with
  | ⟨0, _⟩ => show win3_2.index t (0 : Fin 2) * 4000 + 1 * r.val = 4000 * t.val + r.val; rw [e0]; omega
  | ⟨1, _⟩ => show win3_2.index t (1 : Fin 2) * 1 + 1 * cc.val = cc.val; rw [e1]; omega

/-- The earlier embedding's block at point t is its rows from 4000 t. -/
theorem rows_3 (c : Dev nD) (t : Fin cfg3.N) :
    GSpec.IsRows (M := 100000) (M' := 4000) (n := 64) (4000 * t.val) (iblk3 V c 3 t) (V c (Pipeline.arrRef spec3 3)) := by
  intro r hr cc
  obtain ⟨e0, e1⟩ := idx_3 t
  unfold iblk3
  rw [View.read_apply]
  show V c (Pipeline.arrRef spec3 3) (((cfg3.win 3).blk t).view.emb (ix2 r cc))
    = V c (Pipeline.arrRef spec3 3) (ix2 ⟨4000 * t.val + r.val, hr⟩ cc)
  congr 1
  funext a
  apply Fin.ext
  match a with
  | ⟨0, _⟩ => show win3_3.index t (0 : Fin 2) * 4000 + 1 * r.val = 4000 * t.val + r.val; rw [e0]; omega
  | ⟨1, _⟩ => show win3_3.index t (1 : Fin 2) * 64 + 1 * cc.val = cc.val; rw [e1]; omega

/-- The bias window's block is the whole bias vector at every point. -/
theorem whole_1 (c : Dev nD) (t : Fin cfg3.N) :
    (iblk3 V c 1 t : GSpec.Vc 64) = V c (Pipeline.arrRef spec3 1) := by
  have e0 := idx_1 t
  unfold iblk3
  funext (x : S64.Idx)
  rw [View.read_apply]
  show V c (Pipeline.arrRef spec3 1) (((cfg3.win 1).blk t).view.emb x) = V c (Pipeline.arrRef spec3 1) x
  congr 1
  funext a
  apply Fin.ext
  match a with
  | ⟨0, _⟩ => show win3_1.index t (0 : Fin 1) * 64 + 1 * (x 0).val = (x 0).val; rw [e0]; omega

/-! ## What each point writes back -/

/-- Point t writes back the block of `resid` of the whole arrays. -/
theorem flushed4_eq (c : Dev nD) (t : Fin cfg3.N) :
    (dat3 (F := Ideal) V c).flushed 4 t = ((cfg3.win 4).blk t).view.read (Elt Ideal)
      (GSpec.resid (M := 100000) (N := 64) (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4, out4_eq, whole_1]
  obtain ⟨e0, e1⟩ := idx_4 t
  funext (y : S4000x64.Idx)
  rw [View.read_apply]
  refine ValRows.isRows_apply (ValRows.rows_resid (rows_0 V c t) (rows_2 V c t) (rows_3 V c t) _) y _ ?_ ?_
  · show win3_4.index t (0 : Fin 2) * 4000 + 1 * (y 0).val = 4000 * t.val + (y 0).val; rw [e0]; omega
  · show win3_4.index t (1 : Fin 2) * 64 + 1 * (y 1).val = (y 1).val; rw [e1]; omega

/-! ## The blocks tile the rows -/

/-- An index of the output is in point t's block iff each coordinate is in the block's range on its axis. -/
theorem mem_blk4 (t : Fin cfg3.N) (i : S100000x64.Idx) :
    i ∈ ((cfg3.win 4).blk t).view.set ↔ ∀ a : Fin 2, win3_4.index t a * S4000x64.size a ≤ (i a).val
      ∧ (i a).val < win3_4.index t a * S4000x64.size a + S4000x64.size a := by
  show i ∈ ((View.whole main_v54).slice (win3_4.rect t)).set ↔ _
  rw [View.set_slice_whole, Rect.mem_set_unit]
  exact Iff.rfl

/-- Row r of the output is written back by point r / 4000. -/
theorem cover4 (i : S100000x64.Idx) :
    ∃ t : Fin cfg3.N, (cfg3.win 4).flush t = true ∧ i ∈ ((cfg3.win 4).blk t).view.set := by
  have hN : cfg3.N = 25 := N_3
  have hi0 : (i 0).val < 100000 := (i 0).isLt
  have hi1 : (i 1).val < 64 := (i 1).isLt
  obtain ⟨t, ht⟩ : ∃ t : Fin cfg3.N, t.val = (i 0).val / 4000 := ⟨⟨(i 0).val / 4000, by rw [hN]; omega⟩, rfl⟩
  obtain ⟨e0, e1⟩ := idx_4 t
  refine ⟨t, flush3_4 t, ?_⟩
  rw [mem_blk4]
  intro a
  match a with
  | ⟨0, _⟩ =>
    show win3_4.index t (0 : Fin 2) * 4000 ≤ (i 0).val ∧ (i 0).val < win3_4.index t (0 : Fin 2) * 4000 + 4000
    rw [e0, ht]; omega
  | ⟨1, _⟩ =>
    show win3_4.index t (1 : Fin 2) * 64 ≤ (i 1).val ∧ (i 1).val < win3_4.index t (1 : Fin 2) * 64 + 64
    rw [e1]; omega

/-! ## The array after the call -/

/-- The output ends holding `resid` of the aggregate, the bias, the scale column and the earlier embedding. -/
theorem arr3_4 (c : Dev nD) : (dat3 (F := Ideal) V c).arrAt 4 cfg3.N
    = GSpec.resid (V c (Pipeline.arrRef spec3 0)) (V c (Pipeline.arrRef spec3 1)) (V c (Pipeline.arrRef spec3 2))
        (V c (Pipeline.arrRef spec3 3)) :=
  (dat3 (F := Ideal) V c).arrAt_eq_of_cover 4 _ (fun t _ => flushed4_eq V c t) cover4

end Cert.KernelIdeal.Val3

end
-- ==== Proof.KReg3.lean ====
/-
  Call 3 rewrites the buffer contents as its operations do.

  When the call is entered the weight and bias windows read argument arrays, which still hold what was launched: no
  host operation writes one, and an earlier call leaves every array it does not own as found.  Each output array of the
  call ends at its layer function of the arrays read, every other window's array ends as found, and the call touches no
  other buffer.
-/
import proofs.«151212_j72112500900409_2_alg».proof.Proof.Gen.KernelIdeal.Frame
import proofs.«151212_j72112500900409_2_alg».proof.Proof.KOps
import proofs.«151212_j72112500900409_2_alg».proof.Proof.LibRegionOps
import proofs.«151212_j72112500900409_2_alg».proof.Proof.LibLineEval
import proofs.«151212_j72112500900409_2_alg».proof.Proof.Val3
set_option maxRecDepth 16384

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval
open Idealize.ShloMosaic.Pipeline (Dat)

variable (m : (ℓ : Loc nD τ sig) → Buf (Elt Ideal) ℓ) (ρ : Dev nD → PrngReg) (c : Dev nD)

open Cert.KernelIdeal.Val3 (arr3_4)

/-- The host operations before call 0 write none of this call's argument arrays. -/
theorem r3_pre (V : Valuation τ sig (Elt Ideal)) :
    (after hostOps0_2 (after hostOps0_1 (after hostOps0 V)) (Proc.devRef .tc main_arg12) = V (Proc.devRef .tc main_arg12)) := by
  simp only [hostOps0, hostOps0_1, hostOps0_2]
  eval_line

/-- Nor do the host operations before call 1. -/
theorem r3_keeps1 (V : Valuation τ sig (Elt Ideal)) :
    (after hostOps1 V (Proc.devRef .tc main_arg12) = V (Proc.devRef .tc main_arg12)) := by
  simp only [hostOps1]
  eval_line

/-- Nor do the host operations before call 2. -/
theorem r3_keeps2 (V : Valuation τ sig (Elt Ideal)) :
    (after hostOps2 V (Proc.devRef .tc main_arg12) = V (Proc.devRef .tc main_arg12)) := by
  simp only [hostOps2]
  eval_line

/-- Nor do the host operations before call 3. -/
theorem r3_keeps3 (V : Valuation τ sig (Elt Ideal)) :
    (after hostOps3 V (Proc.devRef .tc main_arg12) = V (Proc.devRef .tc main_arg12)) := by
  simp only [hostOps3]
  eval_line

/-- Argument 12 is as launched when the call is entered. -/
theorem W9_arg12 : W9 (F := Ideal) m ρ c (Proc.devRef .tc main_arg12) = a12 m c :=
  ((r3_keeps3 (W8 m ρ c))).trans ((W8_of_ne m ρ c main_arg12 (by decide)).trans (((r3_keeps2 (W6 m ρ c))).trans ((W6_of_ne m ρ c main_arg12 (by decide)).trans (((r3_keeps1 (W4 m ρ c))).trans ((W4_of_ne m ρ c main_arg12 (by decide)).trans ((r3_pre (W0 m ρ c))))))))

/-- What the call's operations leave in the output array `main_v54`. -/
theorem ops3_out_4 (V : Valuation τ sig (Elt Ideal)) :
    after (ops3 m c) V (Proc.devRef .tc main_v54)
      = GSpec.resid (V (Proc.devRef .tc main_v53)) (a12 m c) (V (Proc.devRef .tc main_v17)) (V (Proc.devRef .tc main_v42_0)) := by
  simp only [ops3]; eval_line

/-- Call 3 leaves what its operations leave. -/
theorem W10_eq : W10 (F := Ideal) m ρ c = after (ops3 m c) (W9 m ρ c) := by
  have hio : ∀ w : Fin 5, w ∉ ({4} : Finset (Fin 5)) → (cfg3.win w).isOut = false := by decide
  unfold W10
  refine Cert.RegionOps.withArrays_eq_after spec3 launch3.win.arr_inj c _ _ (ops3 m c) {4} ?_ ?_ ?_
  · intro op hop b hb
    simp only [ops3, List.mem_cons, List.mem_singleton, List.not_mem_nil, or_false] at hop
    subst hop
    rw [ternary_writes, Finset.mem_singleton] at hb
    exact ⟨4, by decide, hb⟩
  · intro w hw
    obtain rfl : w = 4 := Finset.mem_singleton.mp hw
    show (dat3 (V9 m ρ) c).arrAt 4 cfg3.N = after (ops3 m c) (W9 m ρ c) (Proc.devRef .tc main_v54)
    rw [arr3_4, ops3_out_4]
    show GSpec.resid (W9 m ρ c (Proc.devRef .tc main_v53)) (W9 m ρ c (Proc.devRef .tc main_arg12)) (W9 m ρ c (Proc.devRef .tc main_v17)) (W9 m ρ c (Proc.devRef .tc main_v42_0)) = _
    rw [W9_arg12 m ρ c]
  · intro w hw
    exact ((dat3 (V9 m ρ) c).arrAt_in w (hio w hw) _).trans (A_eq3 (V9 m ρ) c w)

end Cert.KernelIdeal.KFold

end
-- ==== Proof.Val4Pay.lean ====
/-
  The edge predictor on one block of rows, entry by entry.

  One grid point of the last call holds 4000 rows of each of the two gathered embeddings, the first weight as
  its two halves, and the remaining weights and biases.  Entry (r, 0) of what it stores is the logistic function
  of a three-layer perceptron applied to row r of the two embeddings: the two halves' products added, a bias,
  a clip at zero; a second product, bias and clip; a product with a one-column weight and a bias.  The changes of
  float format on the way into each product are the identity on extended reals, and so are the reshapes of a
  block to its own shape, so the stored block is the specification's predictor at 4000 rows.
-/
import proofs.«151212_j72112500900409_2_alg».proof.Proof.Gen.KernelIdeal.Skeleton
import proofs.«151212_j72112500900409_2_alg».proof.Proof.KSpec
import proofs.«151212_j72112500900409_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val4

open Idealize.ShloMosaic Idealize.ShloMosaic.ValueIdx Cert.KernelIdeal Cert.KernelIdeal.Gen Cert.RowOps Cert.Dense

/-- The three products of the body contract the left operand's columns with the right operand's rows. -/
theorem plain_64_128 : IsPlain dot_S4000x64_S64x128_S4000x128_1_0_0_1_n_n := ⟨rfl, rfl, rfl, rfl, rfl, rfl⟩
theorem plain_128_64 : IsPlain dot_S4000x128_S128x64_S4000x64_1_0_0_1_n_n := ⟨rfl, rfl, rfl, rfl, rfl, rfl⟩
theorem plain_64_1 : IsPlain dot_S4000x64_S64x1_S4000x1_1_0_0_1_n_n := ⟨rfl, rfl, rfl, rfl, rfl, rfl⟩

/-- The logistic function of a vector, at an index. -/
theorem logistic_apply {s : Shape} {φ : FTy} (a : FVec Ideal s φ) (i : s.Idx) : logistic a i = Ideal.logistic (a i) := rfl

/-- Entry (r, c) of the stored block. -/
theorem pay_apply (x0 x1 : FVec Ideal S4000x64 .bf16) (x2 x3 : FVec Ideal S64x128 .f32) (x4 : FVec Ideal S128 .f32)
    (x5 : FVec Ideal S128x64 .f32) (x6 : FVec Ideal S64 .f32) (x7 : FVec Ideal S64x1 .f32) (x8 : FVec Ideal S1 .f32)
    (r : Fin 4000) (c : Fin 1) :
    k4_pay1 (F := Ideal) x0 x1 x2 x3 x4 x5 x6 x7 x8 (ix2 r c)
      = GSpec.edge x0 x1 x2 x3 x4 x5 x6 x7 x8 (ix2 r c) := by
  unfold k4_pay1
  simp only [GSpec.edge, GSpec.ofFn2_apply]
  rw [logistic_apply, addf_apply, rowBias_apply]
  refine congrArg (fun s => Ideal.logistic (s + x8 (ix1 c))) ?_
  refine (matmul_zero_apply plain_64_1 none _ _ r c).trans (Finset.sum_congr rfl fun k _ => ?_)
  rw [truncf_apply, truncf_apply, maximumf_apply, addf_apply, rowBias_apply, broadcast_apply]
  refine congrArg (fun s => max (s + x6 (ix1 k)) GSpec.z * x7 (ix2 k c)) ?_
  refine (matmul_zero_apply plain_128_64 none _ _ r k).trans (Finset.sum_congr rfl fun j _ => ?_)
  rw [truncf_apply, truncf_apply, maximumf_apply, addf_apply, addf_apply, rowBias_apply, broadcast_apply]
  refine congrArg (fun s => max (s + x4 (ix1 j)) GSpec.z * x5 (ix2 j k)) ?_
  refine congrArg₂ (· + ·) ?_ ?_
  · refine (matmul_zero_apply plain_64_128 none _ _ r j).trans (Finset.sum_congr rfl fun i _ => ?_)
    rw [shapeCast_self, truncf_apply, shapeCast_self]
  · refine (matmul_zero_apply plain_64_128 none _ _ r j).trans (Finset.sum_congr rfl fun i _ => ?_)
    rw [shapeCast_self, truncf_apply, shapeCast_self]

/-- The stored block is the predictor of the specification on the block's 4000 rows. -/
theorem pay_eq (x0 x1 : FVec Ideal S4000x64 .bf16) (x2 x3 : FVec Ideal S64x128 .f32) (x4 : FVec Ideal S128 .f32)
    (x5 : FVec Ideal S128x64 .f32) (x6 : FVec Ideal S64 .f32) (x7 : FVec Ideal S64x1 .f32) (x8 : FVec Ideal S1 .f32) :
    k4_pay1 (F := Ideal) x0 x1 x2 x3 x4 x5 x6 x7 x8 = GSpec.edge x0 x1 x2 x3 x4 x5 x6 x7 x8 := by
  funext j
  obtain ⟨r, c, rfl⟩ : ∃ (r : Fin 4000) (c : Fin 1), j = ix2 r c := ⟨j 0, j 1, eq_ix2 j⟩
  exact pay_apply x0 x1 x2 x3 x4 x5 x6 x7 x8 r c

end Cert.KernelIdeal.Val4

end
-- ==== Proof.Val4.lean ====
/-
  What the last call leaves in its output array.

  The call runs over 50 blocks of 4000 rows.  At block t the two gathered embeddings are staged as their rows
  4000·t … 4000·t + 3999 and every weight and bias as the whole array; the body's result for those rows is written
  back to rows 4000·t … of the output.  The predictor is local to a row, so the block written back is the block of
  the predictor applied to the whole arrays, and the 50 blocks cover the 200000 rows: the output array ends holding
  the predictor of the arrays the call found.
-/
import proofs.«151212_j72112500900409_2_alg».proof.Proof.Gen.KernelIdeal.Frame
import proofs.«151212_j72112500900409_2_alg».proof.Proof.KSpec
import proofs.«151212_j72112500900409_2_alg».proof.Proof.Val4Pay
import Idealize.ShloMosaic.Lib.Pipeline.Value
import Idealize.ShloMosaic.Lib.ValueIdx

noncomputable section

namespace Cert.KernelIdeal.Val4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- What the body leaves in the output's staging buffer is the predictor on the staged blocks. -/
theorem out_eq (x0 x1 : Vec Ideal S4000x64 .bf16) (x2 x3 : Vec Ideal S64x128 .f32) (x4 : Vec Ideal S128 .f32)
    (x5 : Vec Ideal S128x64 .f32) (x6 : Vec Ideal S64 .f32) (x7 : Vec Ideal S64x1 .f32) (x8 : Vec Ideal S1 .f32) :
    out4_9 (F := Ideal) x0 x1 x2 x3 x4 x5 x6 x7 x8 = GSpec.edge x0 x1 x2 x3 x4 x5 x6 x7 x8 := by
  unfold out4_9
  rw [View.canon_unit_zero zero2]
  simp only [View.ld_unit_zero (S := S4000x64) zero2, View.ld_unit_zero (S := S64x128) zero2,
    View.ld_unit_zero (S := S128) zero1, View.ld_unit_zero (S := S128x64) zero2, View.ld_unit_zero (S := S64) zero1,
    View.ld_unit_zero (S := S64x1) zero2, View.ld_unit_zero (S := S1) zero1]
  exact pay_eq x0 x1 x2 x3 x4 x5 x6 x7 x8

/-- The block indices over the grid: the row windows are at block t, the weights and biases at block 0. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ win4_4.index t (0 : Fin 1) = 0
    ∧ (win4_5.index t (0 : Fin 2) = 0 ∧ win4_5.index t (1 : Fin 2) = 0)
    ∧ win4_6.index t (0 : Fin 1) = 0
    ∧ (win4_7.index t (0 : Fin 2) = 0 ∧ win4_7.index t (1 : Fin 2) = 0)
    ∧ win4_8.index t (0 : Fin 1) = 0
    ∧ (win4_9.index t (0 : Fin 2) = t.val ∧ win4_9.index t (1 : Fin 2) = 0) :=
  (by decide +kernel : ∀ t : Fin grid4.N, _)

/-! ## The staged blocks as parts of the arrays -/

/-- The first embedding's block at point t is its rows 4000·t …. -/
theorem rows0 (c : Dev nD) (t : Fin cfg4.N) :
    GSpec.IsRows (M := 200000) (M' := 4000) (4000 * t.val) (iblk4 V c 0 t) (V c (Pipeline.arrRef spec4 0)) := by
  obtain ⟨⟨e0, e1⟩, -⟩ := idx_facts t
  intro r hr k
  show V c (Pipeline.arrRef spec4 0) (((cfg4.win 0).blk t).view.emb (ix2 r k))
    = V c (Pipeline.arrRef spec4 0) (ix2 ⟨4000 * t.val + r.val, hr⟩ k)
  refine congrArg _ (funext fun a => Fin.ext ?_)
  match a with
  | ⟨0, _⟩ => show win4_0.index t (0 : Fin 2) * 4000 + 1 * r.val = 4000 * t.val + r.val; omega
  | ⟨1, _⟩ => show win4_0.index t (1 : Fin 2) * 64 + 1 * k.val = k.val; omega

/-- The second embedding's block at point t is its rows 4000·t …. -/
theorem rows1 (c : Dev nD) (t : Fin cfg4.N) :
    GSpec.IsRows (M := 200000) (M' := 4000) (4000 * t.val) (iblk4 V c 1 t) (V c (Pipeline.arrRef spec4 1)) := by
  obtain ⟨-, ⟨e0, e1⟩, -⟩ := idx_facts t
  intro r hr k
  show V c (Pipeline.arrRef spec4 1) (((cfg4.win 1).blk t).view.emb (ix2 r k))
    = V c (Pipeline.arrRef spec4 1) (ix2 ⟨4000 * t.val + r.val, hr⟩ k)
  refine congrArg _ (funext fun a => Fin.ext ?_)
  match a with
  | ⟨0, _⟩ => show win4_1.index t (0 : Fin 2) * 4000 + 1 * r.val = 4000 * t.val + r.val; omega
  | ⟨1, _⟩ => show win4_1.index t (1 : Fin 2) * 64 + 1 * k.val = k.val; omega

/-- A weight's or bias's block at any point is the whole array. -/
theorem whole2 (c : Dev nD) (t : Fin cfg4.N) : (iblk4 V c 2 t : GSpec.Mat 64 128) = V c (Pipeline.arrRef spec4 2) := by
  obtain ⟨-, -, ⟨e0, e1⟩, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 128 + 1 * (y 1).val = (y 1).val; omega

theorem whole4 (c : Dev nD) (t : Fin cfg4.N) : (iblk4 V c 4 t : GSpec.Vc 128) = V c (Pipeline.arrRef spec4 4) := by
  obtain ⟨-, -, -, -, e0, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 1) * 128 + 1 * (y 0).val = (y 0).val; omega

theorem whole3 (c : Dev nD) (t : Fin cfg4.N) : (iblk4 V c 3 t : GSpec.Mat 64 128) = V c (Pipeline.arrRef spec4 3) := by
  obtain ⟨-, -, -, ⟨e0, e1⟩, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 128 + 1 * (y 1).val = (y 1).val; omega

theorem whole5 (c : Dev nD) (t : Fin cfg4.N) : (iblk4 V c 5 t : GSpec.Mat 128 64) = V c (Pipeline.arrRef spec4 5) := by
  obtain ⟨-, -, -, -, -, ⟨e0, e1⟩, -⟩ := idx_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 64 + 1 * (y 1).val = (y 1).val; omega

theorem whole6 (c : Dev nD) (t : Fin cfg4.N) : (iblk4 V c 6 t : GSpec.Vc 64) = V c (Pipeline.arrRef spec4 6) := by
  obtain ⟨-, -, -, -, -, -, e0, -⟩ := idx_facts t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 1) * 64 + 1 * (y 0).val = (y 0).val; omega

theorem whole7 (c : Dev nD) (t : Fin cfg4.N) : (iblk4 V c 7 t : GSpec.Mat 64 1) = V c (Pipeline.arrRef spec4 7) := by
  obtain ⟨-, -, -, -, -, -, -, ⟨e0, e1⟩, -⟩ := idx_facts t
  funext y
  show V c (Pipeline.arrRef spec4 7) (((cfg4.win 7).blk t).view.emb y) = V c (Pipeline.arrRef spec4 7) y
  refine congrArg _ (funext fun a => Fin.ext ?_)
  match a with
  | ⟨0, _⟩ => show win4_7.index t (0 : Fin 2) * 64 + 1 * (y 0).val = (y 0).val; omega
  | ⟨1, _⟩ => show win4_7.index t (1 : Fin 2) * 1 + 1 * (y 1).val = (y 1).val; omega

theorem whole8 (c : Dev nD) (t : Fin cfg4.N) : (iblk4 V c 8 t : GSpec.Vc 1) = V c (Pipeline.arrRef spec4 8) := by
  obtain ⟨-, -, -, -, -, -, -, -, e0, -⟩ := idx_facts t
  funext y
  show V c (Pipeline.arrRef spec4 8) (((cfg4.win 8).blk t).view.emb y) = V c (Pipeline.arrRef spec4 8) y
  refine congrArg _ (funext fun a => Fin.ext ?_)
  match a with
  | ⟨0, _⟩ => show win4_8.index t (0 : Fin 1) * 1 + 1 * (y 0).val = (y 0).val; omega

/-! ## What each point writes back, and the array -/

/-- The predictor of the arrays the call finds. -/
abbrev result (c : Dev nD) : GSpec.Mat 200000 1 :=
  GSpec.edge (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (V c (Pipeline.arrRef spec4 7)) (V c (Pipeline.arrRef spec4 8))

/-- Point t writes back rows 4000·t … of the predictor of the whole arrays. -/
theorem flushed_eq (c : Dev nD) (t : Fin cfg4.N) :
    (dat4 V c).flushed 9 t = ((cfg4.win 9).blk t).view.read (Elt Ideal) (result V c) := by
  have hN : cfg4.N = 50 := N_4
  have ht : t.val < 50 := hN ▸ t.isLt
  obtain ⟨-, -, -, -, -, -, -, -, -, ⟨e0, e1⟩⟩ := idx_facts t
  show (cfg4.win 9).cut (grid4.coords t) ((dat4 V c).after 9 t) = _
  rw [after4_9, out_eq, whole2 V c t, whole3 V c t, whole4 V c t, whole5 V c t, whole6 V c t, whole7 V c t, whole8 V c t]
  funext y
  obtain ⟨r, k, rfl⟩ : ∃ (r : Fin 4000) (k : Fin 1), y = ix2 r k := ⟨y 0, y 1, eq_ix2 y⟩
  have hr : 4000 * t.val + r.val < 200000 := by have := r.isLt; omega
  refine (GSpec.rows_edge (rows0 V c t) (rows1 V c t) _ _ _ _ _ _ _ r hr k).trans ?_
  show result V c (ix2 ⟨4000 * t.val + r.val, hr⟩ k) = result V c (((cfg4.win 9).blk t).view.emb (ix2 r k))
  refine congrArg _ (funext fun a => Fin.ext ?_)
  match a with
  | ⟨0, _⟩ => show 4000 * t.val + r.val = win4_9.index t (0 : Fin 2) * 4000 + 1 * r.val; omega
  | ⟨1, _⟩ => show k.val = win4_9.index t (1 : Fin 2) * 1 + 1 * k.val; omega

/-- A row of the output is in point t's block iff it is one of rows 4000·t … 4000·t + 3999. -/
theorem mem_blk (t : Fin cfg4.N) (i : S200000x1.Idx) :
    i ∈ ((cfg4.win 9).blk t).view.set ↔ ∀ a : Fin 2, win4_9.index t a * S4000x1.size a ≤ (i a).val
      ∧ (i a).val < win4_9.index t a * S4000x1.size a + S4000x1.size a := by
  show i ∈ ((View.whole main_v75).slice (win4_9.rect t)).set ↔ _
  rw [View.set_slice_whole, Rect.mem_set_unit]
  exact Iff.rfl

/-- Every row of the output is in the block of the point its number divided by 4000 names. -/
theorem cover (i : S200000x1.Idx) :
    ∃ t : Fin cfg4.N, (cfg4.win 9).flush t = true ∧ i ∈ ((cfg4.win 9).blk t).view.set := by
  have hN : cfg4.N = 50 := N_4
  have h0 : (i 0).val < 200000 := (i 0).isLt
  have h1 : (i 1).val < 1 := (i 1).isLt
  let t : Fin cfg4.N := ⟨(i 0).val / 4000, by rw [hN]; omega⟩
  have htv : t.val = (i 0).val / 4000 := rfl
  obtain ⟨-, -, -, -, -, -, -, -, -, ⟨e0, e1⟩⟩ := idx_facts t
  refine ⟨t, flush4_9 t, ?_⟩
  rw [mem_blk]
  intro a
  match a with
  | ⟨0, _⟩ =>
    show win4_9.index t (0 : Fin 2) * 4000 ≤ (i 0).val ∧ (i 0).val < win4_9.index t (0 : Fin 2) * 4000 + 4000
    omega
  | ⟨1, _⟩ =>
    show win4_9.index t (1 : Fin 2) * 1 ≤ (i 1).val ∧ (i 1).val < win4_9.index t (1 : Fin 2) * 1 + 1
    omega

/-- The output array after the call: the predictor of the arrays the call found. -/
theorem arr4_9 (c : Dev nD) :
    (dat4 (F := Ideal) V c).arrAt 9 cfg4.N
      = GSpec.edge (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) (V c (Pipeline.arrRef spec4 7)) (V c (Pipeline.arrRef spec4 8)) :=
  (dat4 V c).arrAt_eq_of_cover 9 (result V c) (fun t _ => flushed_eq V c t) cover

end Cert.KernelIdeal.Val4

end
-- ==== Proof.KReg4.lean ====
/-
  Call 4 rewrites the buffer contents as its operations do.

  When the call is entered the weight and bias windows read argument arrays, which still hold what was launched: no
  host operation writes one, and an earlier call leaves every array it does not own as found.  Each output array of the
  call ends at its layer function of the arrays read, every other window's array ends as found, and the call touches no
  other buffer.
-/
import proofs.«151212_j72112500900409_2_alg».proof.Proof.Gen.KernelIdeal.Frame
import proofs.«151212_j72112500900409_2_alg».proof.Proof.KOps
import proofs.«151212_j72112500900409_2_alg».proof.Proof.LibRegionOps
import proofs.«151212_j72112500900409_2_alg».proof.Proof.LibLineEval
import proofs.«151212_j72112500900409_2_alg».proof.Proof.Val4
set_option maxRecDepth 16384

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval
open Idealize.ShloMosaic.Pipeline (Dat)

variable (m : (ℓ : Loc nD τ sig) → Buf (Elt Ideal) ℓ) (ρ : Dev nD → PrngReg) (c : Dev nD)

open Cert.KernelIdeal.Val4 (arr4_9)

/-- The host operations before call 0 write none of this call's argument arrays. -/
theorem r4_pre (V : Valuation τ sig (Elt Ideal)) :
    (after hostOps0_2 (after hostOps0_1 (after hostOps0 V)) (Proc.devRef .tc main_arg14) = V (Proc.devRef .tc main_arg14))
    ∧ (after hostOps0_2 (after hostOps0_1 (after hostOps0 V)) (Proc.devRef .tc main_arg15) = V (Proc.devRef .tc main_arg15))
    ∧ (after hostOps0_2 (after hostOps0_1 (after hostOps0 V)) (Proc.devRef .tc main_arg16) = V (Proc.devRef .tc main_arg16))
    ∧ (after hostOps0_2 (after hostOps0_1 (after hostOps0 V)) (Proc.devRef .tc main_arg17) = V (Proc.devRef .tc main_arg17))
    ∧ (after hostOps0_2 (after hostOps0_1 (after hostOps0 V)) (Proc.devRef .tc main_arg18) = V (Proc.devRef .tc main_arg18)) := by
  simp only [hostOps0, hostOps0_1, hostOps0_2]
  refine ⟨?_, ?_, ?_, ?_, ?_⟩ <;> eval_line

/-- Nor do the host operations before call 1. -/
theorem r4_keeps1 (V : Valuation τ sig (Elt Ideal)) :
    (after hostOps1 V (Proc.devRef .tc main_arg14) = V (Proc.devRef .tc main_arg14))
    ∧ (after hostOps1 V (Proc.devRef .tc main_arg15) = V (Proc.devRef .tc main_arg15))
    ∧ (after hostOps1 V (Proc.devRef .tc main_arg16) = V (Proc.devRef .tc main_arg16))
    ∧ (after hostOps1 V (Proc.devRef .tc main_arg17) = V (Proc.devRef .tc main_arg17))
    ∧ (after hostOps1 V (Proc.devRef .tc main_arg18) = V (Proc.devRef .tc main_arg18)) := by
  simp only [hostOps1]
  refine ⟨?_, ?_, ?_, ?_, ?_⟩ <;> eval_line

/-- Nor do the host operations before call 2. -/
theorem r4_keeps2 (V : Valuation τ sig (Elt Ideal)) :
    (after hostOps2 V (Proc.devRef .tc main_arg14) = V (Proc.devRef .tc main_arg14))
    ∧ (after hostOps2 V (Proc.devRef .tc main_arg15) = V (Proc.devRef .tc main_arg15))
    ∧ (after hostOps2 V (Proc.devRef .tc main_arg16) = V (Proc.devRef .tc main_arg16))
    ∧ (after hostOps2 V (Proc.devRef .tc main_arg17) = V (Proc.devRef .tc main_arg17))
    ∧ (after hostOps2 V (Proc.devRef .tc main_arg18) = V (Proc.devRef .tc main_arg18)) := by
  simp only [hostOps2]
  refine ⟨?_, ?_, ?_, ?_, ?_⟩ <;> eval_line

/-- Nor do the host operations before call 3. -/
theorem r4_keeps3 (V : Valuation τ sig (Elt Ideal)) :
    (after hostOps3 V (Proc.devRef .tc main_arg14) = V (Proc.devRef .tc main_arg14))
    ∧ (after hostOps3 V (Proc.devRef .tc main_arg15) = V (Proc.devRef .tc main_arg15))
    ∧ (after hostOps3 V (Proc.devRef .tc main_arg16) = V (Proc.devRef .tc main_arg16))
    ∧ (after hostOps3 V (Proc.devRef .tc main_arg17) = V (Proc.devRef .tc main_arg17))
    ∧ (after hostOps3 V (Proc.devRef .tc main_arg18) = V (Proc.devRef .tc main_arg18)) := by
  simp only [hostOps3]
  refine ⟨?_, ?_, ?_, ?_, ?_⟩ <;> eval_line

/-- Nor do the host operations before call 4. -/
theorem r4_keeps4 (V : Valuation τ sig (Elt Ideal)) :
    (after hostOps4 V (Proc.devRef .tc main_arg14) = V (Proc.devRef .tc main_arg14))
    ∧ (after hostOps4 V (Proc.devRef .tc main_arg15) = V (Proc.devRef .tc main_arg15))
    ∧ (after hostOps4 V (Proc.devRef .tc main_arg16) = V (Proc.devRef .tc main_arg16))
    ∧ (after hostOps4 V (Proc.devRef .tc main_arg17) = V (Proc.devRef .tc main_arg17))
    ∧ (after hostOps4 V (Proc.devRef .tc main_arg18) = V (Proc.devRef .tc main_arg18)) := by
  simp only [hostOps4]
  refine ⟨?_, ?_, ?_, ?_, ?_⟩ <;> eval_line

/-- Argument 14 is as launched when the call is entered. -/
theorem W11_arg14 : W11 (F := Ideal) m ρ c (Proc.devRef .tc main_arg14) = a14 m c :=
  ((r4_keeps4 (W10 m ρ c)).1).trans ((W10_of_ne m ρ c main_arg14 (by decide)).trans (((r4_keeps3 (W8 m ρ c)).1).trans ((W8_of_ne m ρ c main_arg14 (by decide)).trans (((r4_keeps2 (W6 m ρ c)).1).trans ((W6_of_ne m ρ c main_arg14 (by decide)).trans (((r4_keeps1 (W4 m ρ c)).1).trans ((W4_of_ne m ρ c main_arg14 (by decide)).trans ((r4_pre (W0 m ρ c)).1))))))))

/-- Argument 15 is as launched when the call is entered. -/
theorem W11_arg15 : W11 (F := Ideal) m ρ c (Proc.devRef .tc main_arg15) = a15 m c :=
  ((r4_keeps4 (W10 m ρ c)).2.1).trans ((W10_of_ne m ρ c main_arg15 (by decide)).trans (((r4_keeps3 (W8 m ρ c)).2.1).trans ((W8_of_ne m ρ c main_arg15 (by decide)).trans (((r4_keeps2 (W6 m ρ c)).2.1).trans ((W6_of_ne m ρ c main_arg15 (by decide)).trans (((r4_keeps1 (W4 m ρ c)).2.1).trans ((W4_of_ne m ρ c main_arg15 (by decide)).trans ((r4_pre (W0 m ρ c)).2.1))))))))

/-- Argument 16 is as launched when the call is entered. -/
theorem W11_arg16 : W11 (F := Ideal) m ρ c (Proc.devRef .tc main_arg16) = a16 m c :=
  ((r4_keeps4 (W10 m ρ c)).2.2.1).trans ((W10_of_ne m ρ c main_arg16 (by decide)).trans (((r4_keeps3 (W8 m ρ c)).2.2.1).trans ((W8_of_ne m ρ c main_arg16 (by decide)).trans (((r4_keeps2 (W6 m ρ c)).2.2.1).trans ((W6_of_ne m ρ c main_arg16 (by decide)).trans (((r4_keeps1 (W4 m ρ c)).2.2.1).trans ((W4_of_ne m ρ c main_arg16 (by decide)).trans ((r4_pre (W0 m ρ c)).2.2.1))))))))

/-- Argument 17 is as launched when the call is entered. -/
theorem W11_arg17 : W11 (F := Ideal) m ρ c (Proc.devRef .tc main_arg17) = a17 m c :=
  ((r4_keeps4 (W10 m ρ c)).2.2.2.1).trans ((W10_of_ne m ρ c main_arg17 (by decide)).trans (((r4_keeps3 (W8 m ρ c)).2.2.2.1).trans ((W8_of_ne m ρ c main_arg17 (by decide)).trans (((r4_keeps2 (W6 m ρ c)).2.2.2.1).trans ((W6_of_ne m ρ c main_arg17 (by decide)).trans (((r4_keeps1 (W4 m ρ c)).2.2.2.1).trans ((W4_of_ne m ρ c main_arg17 (by decide)).trans ((r4_pre (W0 m ρ c)).2.2.2.1))))))))

/-- Argument 18 is as launched when the call is entered. -/
theorem W11_arg18 : W11 (F := Ideal) m ρ c (Proc.devRef .tc main_arg18) = a18 m c :=
  ((r4_keeps4 (W10 m ρ c)).2.2.2.2).trans ((W10_of_ne m ρ c main_arg18 (by decide)).trans (((r4_keeps3 (W8 m ρ c)).2.2.2.2).trans ((W8_of_ne m ρ c main_arg18 (by decide)).trans (((r4_keeps2 (W6 m ρ c)).2.2.2.2).trans ((W6_of_ne m ρ c main_arg18 (by decide)).trans (((r4_keeps1 (W4 m ρ c)).2.2.2.2).trans ((W4_of_ne m ρ c main_arg18 (by decide)).trans ((r4_pre (W0 m ρ c)).2.2.2.2))))))))

/-- What the call's operations leave in the output array `main_v75`. -/
theorem ops4_out_9 (V : Valuation τ sig (Elt Ideal)) :
    after (ops4 m c) V (Proc.devRef .tc main_v75)
      = GSpec.edge (V (Proc.devRef .tc main_v63)) (V (Proc.devRef .tc main_v72)) (V (Proc.devRef .tc main_v73)) (V (Proc.devRef .tc main_v74)) (a14 m c) (a15 m c) (a16 m c) (a17 m c) (a18 m c) := by
  simp only [ops4]; eval_line

/-- Call 4 leaves what its operations leave. -/
theorem W12_eq : W12 (F := Ideal) m ρ c = after (ops4 m c) (W11 m ρ c) := by
  have hio : ∀ w : Fin 10, w ∉ ({9} : Finset (Fin 10)) → (cfg4.win w).isOut = false := by decide
  unfold W12
  refine Cert.RegionOps.withArrays_eq_after spec4 launch4.win.arr_inj c _ _ (ops4 m c) {9} ?_ ?_ ?_
  · intro op hop b hb
    simp only [ops4, List.mem_cons, List.mem_singleton, List.not_mem_nil, or_false] at hop
    subst hop
    rw [quaternary_writes, Finset.mem_singleton] at hb
    exact ⟨9, by decide, hb⟩
  · intro w hw
    obtain rfl : w = 9 := Finset.mem_singleton.mp hw
    show (dat4 (V11 m ρ) c).arrAt 9 cfg4.N = after (ops4 m c) (W11 m ρ c) (Proc.devRef .tc main_v75)
    rw [arr4_9, ops4_out_9]
    show GSpec.edge (W11 m ρ c (Proc.devRef .tc main_v63)) (W11 m ρ c (Proc.devRef .tc main_v72)) (W11 m ρ c (Proc.devRef .tc main_v73)) (W11 m ρ c (Proc.devRef .tc main_v74)) (W11 m ρ c (Proc.devRef .tc main_arg14)) (W11 m ρ c (Proc.devRef .tc main_arg15)) (W11 m ρ c (Proc.devRef .tc main_arg16)) (W11 m ρ c (Proc.devRef .tc main_arg17)) (W11 m ρ c (Proc.devRef .tc main_arg18)) = _
    rw [W11_arg14 m ρ c, W11_arg15 m ρ c, W11_arg16 m ρ c, W11_arg17 m ρ c, W11_arg18 m ρ c]
  · intro w hw
    exact ((dat4 (V11 m ρ) c).arrAt_in w (hio w hw) _).trans (A_eq4 (V11 m ρ) c w)

end Cert.KernelIdeal.KFold

end
-- ==== Proof.KFold.lean ====
/-
  The program's result is the last stage of the chain of values.

  Each pipelined call rewrites the buffer contents as its pure operations do, and a stretch of host operations as its
  own line does.  Boundary by boundary, from the launch to the return, the few buffers that later operations still
  read hold the named stages: walking one stretch or one call's operations backwards from such a buffer gives the
  operations' functions applied to buffers of the boundary before, which hold the stages before.
-/
import proofs.«151212_j72112500900409_2_alg».proof.Proof.Gen.KernelIdeal.Frame
import proofs.«151212_j72112500900409_2_alg».proof.Proof.KReg0
import proofs.«151212_j72112500900409_2_alg».proof.Proof.KReg1
import proofs.«151212_j72112500900409_2_alg».proof.Proof.KReg2
import proofs.«151212_j72112500900409_2_alg».proof.Proof.KReg3
import proofs.«151212_j72112500900409_2_alg».proof.Proof.KReg4
import proofs.«151212_j72112500900409_2_alg».proof.Proof.LibTypedRef

set_option maxRecDepth 16384
set_option pp.maxSteps 5000
set_option pp.deepTerms false

noncomputable section

namespace Cert.KernelIdeal.KFold

open Idealize.ShloMosaic Idealize.ShloMosaic.StableHlo Idealize.ShloMosaic.TcCoe
open Cert.KernelIdeal Cert.KernelIdeal.Gen Cert.KernelIdeal.KTerm Cert.LineEval

variable (m : (ℓ : Loc nD τ sig) → Buf (Elt Ideal) ℓ) (ρ : Dev nD → PrngReg) (c : Dev nD)

/-- The host operations after the last call's inputs are ready write neither of the two argument arrays read there. -/
theorem late_keeps (V : Valuation τ sig (Elt Ideal)) :
    (after hostOps4 V (Proc.devRef .tc main_arg2) = V (Proc.devRef .tc main_arg2)) ∧ (after hostOps4 V (Proc.devRef .tc main_arg13) = V (Proc.devRef .tc main_arg13))
    ∧ (after hostOps5 V (Proc.devRef .tc main_arg2) = V (Proc.devRef .tc main_arg2)) ∧ (after hostOps5 V (Proc.devRef .tc main_arg13) = V (Proc.devRef .tc main_arg13)) := by
  simp only [hostOps4, hostOps5]
  refine ⟨?_, ?_, ?_, ?_⟩ <;> eval_line

/-- The candidate edges are as launched when call 3 has returned. -/
theorem W10_arg2 : W10 (F := Ideal) m ρ c (Proc.devRef .tc main_arg2) = a2 m c :=
  ((late_keeps (W10 m ρ c)).1).symm.trans ((W12_of_ne m ρ c main_arg2 (by decide)).symm.trans
    (((late_keeps (W12 m ρ c)).2.2.1).symm.trans (W13_main_arg2 m ρ c)))

/-- The edge predictor's first weight is as launched when call 3 has returned. -/
theorem W10_arg13 : W10 (F := Ideal) m ρ c (Proc.devRef .tc main_arg13) = a13 m c :=
  ((late_keeps (W10 m ρ c)).2.1).symm.trans ((W12_of_ne m ρ c main_arg13 (by decide)).symm.trans
    (((late_keeps (W12 m ρ c)).2.2.2).symm.trans (W13_main_arg13 m ρ c)))

/-- When call 0 is entered: the two edge lists and the scale column. -/
theorem at3 :
    W3 (F := Ideal) m ρ c (Proc.devRef .tc main_v3) = srcRaw m c
    ∧ W3 (F := Ideal) m ρ c (Proc.devRef .tc main_v6) = dstRaw m c
    ∧ W3 (F := Ideal) m ρ c (Proc.devRef .tc main_v17) = dinv2d m c := by
  show after hostOps0_2 (after hostOps0_1 (after hostOps0 (W0 m ρ c))) (Proc.devRef .tc main_v3) = _
    ∧ after hostOps0_2 (after hostOps0_1 (after hostOps0 (W0 m ρ c))) (Proc.devRef .tc main_v6) = _
    ∧ after hostOps0_2 (after hostOps0_1 (after hostOps0 (W0 m ρ c))) (Proc.devRef .tc main_v17) = _
  generalize hV : W0 m ρ c = V
  simp only [hostOps0, hostOps0_1, hostOps0_2]
  refine ⟨?_, ?_, ?_⟩
  · eval_line; subst hV; rfl
  · eval_line; subst hV; rfl
  · eval_line
    -- the select of the inlined call reads and writes its buffers through typed references: the transports along
    -- the buffers' type equations are identities
    simp only [Cert.TypedRef.ofBuf_toBuf, id_eq]
    subst hV
    unfold KTerm.dinv2d
    refine congrArg _ ?_
    refine (Cert.TypedRef.toBuf_eq _ _ _ HEq.rfl).trans ?_
    unfold KTerm.dinv
    refine congr (congr (congrArg select ?_) ?_) ?_
    · exact (Cert.TypedRef.ofBuf_eq _ _ _ HEq.rfl).trans rfl
    · exact (Cert.TypedRef.ofBuf_eq _ _ _ HEq.rfl).trans rfl
    · exact congrArg _ (Cert.TypedRef.ofBuf_eq _ _ _ HEq.rfl)

/-- When call 0 has returned: its output, and what the later stretches still read. -/
theorem at4 :
    W4 (F := Ideal) m ρ c (Proc.devRef .tc main_v18) = xw0 m c
    ∧ W4 (F := Ideal) m ρ c (Proc.devRef .tc main_v3) = srcRaw m c
    ∧ W4 (F := Ideal) m ρ c (Proc.devRef .tc main_v6) = dstRaw m c
    ∧ W4 (F := Ideal) m ρ c (Proc.devRef .tc main_v17) = dinv2d m c := by
  obtain ⟨h3, h6, h17⟩ := at3 m ρ c
  rw [W4_eq]
  generalize W3 m ρ c = V at h3 h6 h17 ⊢
  simp only [ops0]
  refine ⟨?_, ?_, ?_, ?_⟩
  · eval_line; rw [h17]; rfl
  · eval_line; exact h3
  · eval_line; exact h6
  · eval_line; exact h17

/-- When call 1 is entered: the first aggregate. -/
theorem at5 :
    W5 (F := Ideal) m ρ c (Proc.devRef .tc main_v29) = agg m c (xw0 m c)
    ∧ W5 (F := Ideal) m ρ c (Proc.devRef .tc main_v3) = srcRaw m c
    ∧ W5 (F := Ideal) m ρ c (Proc.devRef .tc main_v6) = dstRaw m c
    ∧ W5 (F := Ideal) m ρ c (Proc.devRef .tc main_v17) = dinv2d m c := by
  obtain ⟨h18, h3, h6, h17⟩ := at4 m ρ c
  show after hostOps1 (W4 m ρ c) (Proc.devRef .tc main_v29) = _
    ∧ after hostOps1 (W4 m ρ c) (Proc.devRef .tc main_v3) = _
    ∧ after hostOps1 (W4 m ρ c) (Proc.devRef .tc main_v6) = _
    ∧ after hostOps1 (W4 m ρ c) (Proc.devRef .tc main_v17) = _
  generalize W4 m ρ c = V at h18 h3 h6 h17 ⊢
  simp only [hostOps1]
  refine ⟨?_, ?_, ?_, ?_⟩
  · eval_line; rw [h18, h3, h6]; rfl
  · eval_line; exact h3
  · eval_line; exact h6
  · eval_line; exact h17

/-- When call 1 has returned: the first embedding and the second layer's scaled input. -/
theorem at6 :
    W6 (F := Ideal) m ρ c (Proc.devRef .tc main_v30_0) = ha m c
    ∧ W6 (F := Ideal) m ρ c (Proc.devRef .tc main_v30_1) = xw1 m c
    ∧ W6 (F := Ideal) m ρ c (Proc.devRef .tc main_v3) = srcRaw m c
    ∧ W6 (F := Ideal) m ρ c (Proc.devRef .tc main_v6) = dstRaw m c
    ∧ W6 (F := Ideal) m ρ c (Proc.devRef .tc main_v17) = dinv2d m c := by
  obtain ⟨h29, h3, h6, h17⟩ := at5 m ρ c
  rw [W6_eq]
  generalize W5 m ρ c = V at h29 h3 h6 h17 ⊢
  simp only [ops1]
  refine ⟨?_, ?_, ?_, ?_, ?_⟩
  · eval_line; rw [h29, h17]; rfl
  · eval_line; rw [h29, h17]; rfl
  · eval_line; exact h3
  · eval_line; exact h6
  · eval_line; exact h17

/-- When call 2 is entered: the second aggregate. -/
theorem at7 :
    W7 (F := Ideal) m ρ c (Proc.devRef .tc main_v41) = agg m c (xw1 m c)
    ∧ W7 (F := Ideal) m ρ c (Proc.devRef .tc main_v30_0) = ha m c
    ∧ W7 (F := Ideal) m ρ c (Proc.devRef .tc main_v3) = srcRaw m c
    ∧ W7 (F := Ideal) m ρ c (Proc.devRef .tc main_v6) = dstRaw m c
    ∧ W7 (F := Ideal) m ρ c (Proc.devRef .tc main_v17) = dinv2d m c := by
  obtain ⟨h30, h30', h3, h6, h17⟩ := at6 m ρ c
  show after hostOps2 (W6 m ρ c) (Proc.devRef .tc main_v41) = _
    ∧ after hostOps2 (W6 m ρ c) (Proc.devRef .tc main_v30_0) = _
    ∧ after hostOps2 (W6 m ρ c) (Proc.devRef .tc main_v3) = _
    ∧ after hostOps2 (W6 m ρ c) (Proc.devRef .tc main_v6) = _
    ∧ after hostOps2 (W6 m ρ c) (Proc.devRef .tc main_v17) = _
  generalize W6 m ρ c = V at h30 h30' h3 h6 h17 ⊢
  simp only [hostOps2]
  refine ⟨?_, ?_, ?_, ?_, ?_⟩
  · eval_line; rw [h30', h3, h6]; rfl
  · eval_line; exact h30
  · eval_line; exact h3
  · eval_line; exact h6
  · eval_line; exact h17

/-- When call 2 has returned: the second embedding and the third layer's scaled input. -/
theorem at8 :
    W8 (F := Ideal) m ρ c (Proc.devRef .tc main_v42_0) = hb m c
    ∧ W8 (F := Ideal) m ρ c (Proc.devRef .tc main_v42_1) = xw2 m c
    ∧ W8 (F := Ideal) m ρ c (Proc.devRef .tc main_v3) = srcRaw m c
    ∧ W8 (F := Ideal) m ρ c (Proc.devRef .tc main_v6) = dstRaw m c
    ∧ W8 (F := Ideal) m ρ c (Proc.devRef .tc main_v17) = dinv2d m c := by
  obtain ⟨h41, h30, h3, h6, h17⟩ := at7 m ρ c
  rw [W8_eq]
  generalize W7 m ρ c = V at h41 h30 h3 h6 h17 ⊢
  simp only [ops2]
  refine ⟨?_, ?_, ?_, ?_, ?_⟩
  · eval_line; rw [h41, h17, h30]; rfl
  · eval_line; rw [h41, h17, h30]; rfl
  · eval_line; exact h3
  · eval_line; exact h6
  · eval_line; exact h17

/-- When call 3 is entered: the third aggregate. -/
theorem at9 :
    W9 (F := Ideal) m ρ c (Proc.devRef .tc main_v53) = agg m c (xw2 m c)
    ∧ W9 (F := Ideal) m ρ c (Proc.devRef .tc main_v42_0) = hb m c
    ∧ W9 (F := Ideal) m ρ c (Proc.devRef .tc main_v17) = dinv2d m c := by
  obtain ⟨h42, h42', h3, h6, h17⟩ := at8 m ρ c
  show after hostOps3 (W8 m ρ c) (Proc.devRef .tc main_v53) = _
    ∧ after hostOps3 (W8 m ρ c) (Proc.devRef .tc main_v42_0) = _
    ∧ after hostOps3 (W8 m ρ c) (Proc.devRef .tc main_v17) = _
  generalize W8 m ρ c = V at h42 h42' h3 h6 h17 ⊢
  simp only [hostOps3]
  refine ⟨?_, ?_, ?_⟩
  · eval_line; rw [h42', h3, h6]; rfl
  · eval_line; exact h42
  · eval_line; exact h17

/-- When call 3 has returned: the final embedding. -/
theorem at10 :
    W10 (F := Ideal) m ρ c (Proc.devRef .tc main_v54) = hfin m c := by
  obtain ⟨h53, h42, h17⟩ := at9 m ρ c
  rw [W10_eq]
  generalize W9 m ρ c = V at h53 h42 h17 ⊢
  simp only [ops3]
  eval_line; rw [h53, h17, h42]; rfl

/-- When call 4 is entered: the two ends' embeddings and the two halves of the first weight. -/
theorem at11 :
    W11 (F := Ideal) m ρ c (Proc.devRef .tc main_v63) = g0 m c
    ∧ W11 (F := Ideal) m ρ c (Proc.devRef .tc main_v72) = g1 m c
    ∧ W11 (F := Ideal) m ρ c (Proc.devRef .tc main_v73) = w1a m c
    ∧ W11 (F := Ideal) m ρ c (Proc.devRef .tc main_v74) = w1b m c := by
  have h54 := at10 m ρ c
  have h2 := W10_arg2 m ρ c
  have h13 := W10_arg13 m ρ c
  show after hostOps4 (W10 m ρ c) (Proc.devRef .tc main_v63) = _
    ∧ after hostOps4 (W10 m ρ c) (Proc.devRef .tc main_v72) = _
    ∧ after hostOps4 (W10 m ρ c) (Proc.devRef .tc main_v73) = _
    ∧ after hostOps4 (W10 m ρ c) (Proc.devRef .tc main_v74) = _
  generalize W10 m ρ c = V at h54 h2 h13 ⊢
  simp only [hostOps4]
  refine ⟨?_, ?_, ?_, ?_⟩
  · eval_line; rw [h54, h2]; rfl
  · eval_line; rw [h54, h2]; rfl
  · eval_line; rw [h13]; rfl
  · eval_line; rw [h13]; rfl

/-- When call 4 has returned: the scores, one column. -/
theorem at12 :
    W12 (F := Ideal) m ρ c (Proc.devRef .tc main_v75) = e m c := by
  obtain ⟨h63, h72, h73, h74⟩ := at11 m ρ c
  rw [W12_eq]
  generalize W11 m ρ c = V at h63 h72 h73 h74 ⊢
  simp only [ops4]
  eval_line; rw [h63, h72, h73, h74]; rfl

/-- The result buffer ends holding the scores as a vector. -/
theorem W13_out : W13 (F := Ideal) m ρ c (Proc.devRef .tc main_v76) = KTerm.out m c := by
  have h75 := at12 m ρ c
  show after hostOps5 (W12 m ρ c) (Proc.devRef .tc main_v76) = _
  generalize W12 m ρ c = V at h75 ⊢
  simp only [hostOps5]
  eval_line; rw [h75]; rfl

end Cert.KernelIdeal.KFold

end
-- ==== Proof.BridgeDefs.lean ====
/-
  The names the bridge between the two programs is stated in.

  Both programs aggregate along the same edge list with the same node scales.  `dcol` is the nodes' scales as a one-column
  array; `aggK` is the aggregate of rows that were scaled before they were gathered; `aggR` is the aggregate in which every
  gathered row is multiplied by the edge's own factor, the product of the scales at its two ends.
-/
import proofs.«151212_j72112500900409_2_alg».proof.Proof.RefRead
import proofs.«151212_j72112500900409_2_alg».proof.Proof.KSpec

noncomputable section

namespace Cert.Bridge

open Idealize.ShloMosaic Idealize.ShloMosaic.ValueIdx Cert.GSpec Cert.ReferenceIdeal Cert.ReferenceIdeal.Read

theorem hN : 0 < 100000 := by decide

variable (x1 : (⟨S2x1600000, .i32⟩ : BufTy).Contents (Elt Ideal))

/-- The nodes' scales as a one-column array. -/
def dcol : Mat 100000 1 := ofFn2 fun n _ => val_main_v26 (F := Ideal) x1 (ix1 n)

/-- Rows gathered at the edges' sources and added at their destinations, starting from zero. -/
def aggK (Y : Mat 100000 64) : Mat 100000 64 :=
  Host.scatterAdd (F := Ideal) (φ := .f32) scatter_S100000x64_S1700000x1_S1700000x64_1_0_0_1 (val_main_v53 (F := Ideal))
    (val_main_v54 (F := Ideal) x1)
    (Host.gather gather_S100000x64_S1700000x1_S1700000x64_1_0_n_n_0_1_164 Y (val_main_v49 (F := Ideal) x1))

/-- Rows gathered at the edges' sources, each multiplied by its edge's factor, and added at the destinations. -/
def aggR (X : Mat 100000 64) : Mat 100000 64 :=
  Host.scatterAdd (F := Ideal) (φ := .f32) scatter_S100000x64_S1700000x1_S1700000x64_1_0_0_1 (val_main_v53 (F := Ideal))
    (val_main_v54 (F := Ideal) x1)
    (mulf (F := Ideal) (φ := .f32) (Host.gather gather_S100000x64_S1700000x1_S1700000x64_1_0_n_n_0_1_164 X (val_main_v49 (F := Ideal) x1))
      (val_main_v51 (F := Ideal) x1))

end Cert.Bridge

end
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.LibScatterLand.lean ====
/-
  Where a host scatter's update index lands, as one equation per axis.

  An update index lands on an operand index exactly when, on every axis, the operand coordinate is the window's
  start on that axis plus the update's window coordinate there (as integers: the start is read signed).  This is the
  form in which a landing place is both exhibited (for the index that hits) and refuted (for an index that cannot).
-/
import proofs.«151212_j72112500900409_2_alg».proof.Proof.LibScatterAt

namespace Idealize.ShloMosaic

/-- An update index `j` lands on `i` iff on every axis `i`'s coordinate is the start plus the window coordinate. -/
theorem ScatterDims.resultIdx?_eq_some_iff {s si u : Shape} (d : ScatterDims s si u) {w : Nat} (j : u.Idx)
    (idx : IVec si w) (i : s.Idx) :
    d.resultIdx? j idx = some i ↔ ∀ a, ((i a).val : ℤ) = d.start j idx a + (d.window j a : ℤ) := by
  constructor
  · intro h a; exact ScatterDims.resultIdx?_val d h a
  · intro h
    have hb : ∀ a, 0 ≤ d.start j idx a + d.window j a ∧ d.start j idx a + d.window j a < s.size a := fun a => by
      rw [← h a]; exact ⟨Int.natCast_nonneg _, by exact_mod_cast (i a).isLt⟩
    unfold ScatterDims.resultIdx?
    rw [dif_pos hb]
    congr 1
    funext a
    apply Fin.ext
    show (d.start j idx a + d.window j a).toNat = (i a).val
    rw [← h a]
    exact Int.toNat_natCast _

end Idealize.ShloMosaic
-- ==== Proof.LibEdgeSums.lean ====
/-
  Rows gathered along a list of edges and added up at their destinations, read at one index.

  A graph's E edges are pairs (source, destination) of integer words.  Indexing an [N, C] array by the sources
  takes, for every edge e, the row whose number is the source read as a signed integer and clamped into
  [0, N − 1].  A scatter with an `add` body then adds row e of an [E, C] array of updates into row `dst e` of an
  [N, C] operand for every edge whose destination, read signed and NOT clamped, is a row of the operand; an edge
  whose destination is no row is dropped.  On the extended reals the result at (n, c) is the operand's element plus
  the sum over the edges of the update at (e, c) where the destination is n and of zero elsewhere.  With one scalar
  update per edge and a length-N operand the same sum weighs the edges that arrive at n.  Addition of extended
  reals is commutative and associative, so the order of the edges plays no part and nothing has to be finite.
-/
import Idealize.ShloMosaic.PureOps.Ideal
import Idealize.ShloMosaic.Lib.ValueIdx
import proofs.«151212_j72112500900409_2_alg».proof.Proof.LibScatterLand

noncomputable section

open scoped BigOperators

namespace Cert.EdgeSums

open Idealize.ShloMosaic Idealize.ShloMosaic.ValueIdx

/-! ## The row an edge reads -/

/-- Dimension numbers of `x[src]` for an [N, C] operand and E start indices held as an [E, 1] array: whole rows,
    the row axis collapsed. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index as a signed integer, clamped into [0, N − 1]. -/
def srcRow {N E w : Nat} (hN : 0 < N) (idx : IVec ⟨2, ![E, 1]⟩ w) (e : Fin E) : Fin N :=
  ⟨min (idx (ix2 e (0 : Fin 1))).toInt.toNat (N - 1), by omega⟩

section Gather
variable {α : Type} {N C E w : Nat}

/-- The gathered array at (e, c) is the operand at (the row edge e reads, c). -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c) = x (ix2 (srcRow hN idx e) c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    have h1 : (1 : Fin 2) ∉ (rowGatherDims N C E wf).startIndexMap := fun h =>
      absurd (List.mem_singleton.mp h) (by decide : (1 : Fin 2) ≠ 0)
    have hk : (1 : Fin 2) ∈ (rowGatherDims N C E wf).sKept :=
      (GatherDims.mem_sKept _ _).mpr ⟨fun h => absurd (List.mem_singleton.mp h) (by decide : (1 : Fin 2) ≠ 0), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Gather

/-! ## Rows added at their destinations -/

/-- Dimension numbers of `operand.at[dst].add(updates)` for an [N, C] operand, E destinations held as an [E, 1]
    array and [E, C] updates: whole rows, the row axis inserted. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N C E w : Nat} (wf : ScatterDims.WF ⟨2, ![N, C]⟩ ⟨2, ![E, 1]⟩ ⟨2, ![E, C]⟩ [1] [0] [0] 1)
  (idx : IVec ⟨2, ![E, 1]⟩ w)

theorem rowScatter_start0 (e : Fin E) (c : Fin C) :
    (rowScatterDims N C E wf).start (ix2 e c) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (e : Fin E) (c : Fin C) : (rowScatterDims N C E wf).start (ix2 e c) idx 1 = 0 := by
  unfold ScatterDims.start
  rw [dif_neg (fun h => absurd (List.mem_singleton.mp h) (by decide : (1 : Fin 2) ≠ 0))]

/-- The operand's axes that receive a window coordinate: the column axis alone. -/
theorem rowScatter_mem_sKept (a : Fin 2) : a ∈ (rowScatterDims N C E wf).sKept ↔ a ≠ 0 := by
  show a ∈ (List.finRange 2).filter (· ∉ [(0 : Fin 2)]) ↔ a ≠ 0
  rw [List.mem_filter]
  simp [List.mem_finRange]

theorem rowScatter_window0 (e : Fin E) (c : Fin C) : (rowScatterDims N C E wf).window (ix2 e c) 0 = 0 := by
  unfold ScatterDims.window
  rw [dif_neg (fun h => (rowScatter_mem_sKept wf 0).mp h rfl)]

theorem rowScatter_window1 (e : Fin E) (c : Fin C) : (rowScatterDims N C E wf).window (ix2 e c) 1 = c.val := by
  unfold ScatterDims.window
  rw [dif_pos ((rowScatter_mem_sKept wf 1).mpr (by decide : (1 : Fin 2) ≠ 0))]
  rfl

/-- The update at (e, c') lands on (n, c) exactly when edge e's destination is n and the columns agree. -/
theorem rowScatter_lands (e : Fin E) (c' : Fin C) (n : Fin N) (c : Fin C) :
    (rowScatterDims N C E wf).resultIdx? (ix2 e c') idx = some (ix2 n c)
      ↔ (idx (ix2 e (0 : Fin 1))).toInt = (n.val : ℤ) ∧ c' = c := by
  rw [ScatterDims.resultIdx?_eq_some_iff]
  constructor
  · intro h
    have h0 := h 0
    have h1 := h 1
    rw [rowScatter_start0, rowScatter_window0] at h0
    rw [rowScatter_start1, rowScatter_window1] at h1
    refine ⟨?_, Fin.ext ?_⟩
    · have : ((n.val : ℕ) : ℤ) = (idx (ix2 e (0 : Fin 1))).toInt + ((0 : ℕ) : ℤ) := h0
      omega
    · have : ((c.val : ℕ) : ℤ) = 0 + ((c'.val : ℕ) : ℤ) := h1
      omega
  · rintro ⟨h0, rfl⟩ a
    match a with
    | ⟨0, _⟩ =>
      show ((n.val : ℕ) : ℤ) = (rowScatterDims N C E wf).start (ix2 e c') idx 0 + ((rowScatterDims N C E wf).window (ix2 e c') 0 : ℤ)
      rw [rowScatter_start0, rowScatter_window0, h0]; simp
    | ⟨1, _⟩ =>
      show ((c'.val : ℕ) : ℤ) = (rowScatterDims N C E wf).start (ix2 e c') idx 1 + ((rowScatterDims N C E wf).window (ix2 e c') 1 : ℤ)
      rw [rowScatter_start1, rowScatter_window1]; simp

/-- ROWS ADDED AT THEIR DESTINATIONS, at (n, c): the operand's element plus the sum over the edges of the update at
    (e, c) where edge e's destination is n. -/
theorem rowScatterAdd_apply (x : (⟨2, ![N, C]⟩ : Shape).Idx → EReal) (upd : (⟨2, ![E, C]⟩ : Shape).Idx → EReal)
    (n : Fin N) (c : Fin C) :
    Ideal.hostScatterAdd (rowScatterDims N C E wf) x idx upd (ix2 n c)
      = x (ix2 n c) + ∑ e : Fin E, if (idx (ix2 e (0 : Fin 1))).toInt = (n.val : ℤ) then upd (ix2 e c) else 0 := by
  unfold Ideal.hostScatterAdd
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq' Finset.univ c, if_pos (Finset.mem_univ _)]
  · simp only [h, false_and, if_false, Finset.sum_const_zero]

end RowScatter

/-! ## Gathered rows added at their destinations -/

/-- What arrives at node n in column c: the sum over the edges whose destination is n of the source row's entry c. -/
def rowsInto {N C E w : Nat} (hN : 0 < N) (x : (⟨2, ![N, C]⟩ : Shape).Idx → EReal) (sidx didx : IVec ⟨2, ![E, 1]⟩ w)
    (n : Fin N) (c : Fin C) : EReal :=
  ∑ e : Fin E, if (didx (ix2 e (0 : Fin 1))).toInt = (n.val : ℤ) then x (ix2 (srcRow hN sidx e) c) else 0

/-- The weight that arrives at node n: the sum over the edges whose destination is n of the edge's weight. -/
def weightInto {N E w : Nat} (didx : IVec ⟨2, ![E, 1]⟩ w) (u : Fin E → EReal) (n : Fin N) : EReal :=
  ∑ e : Fin E, if (didx (ix2 e (0 : Fin 1))).toInt = (n.val : ℤ) then u e else 0

/-- Rows taken at the sources and added at the destinations, at (n, c): the operand's element plus what arrives. -/
theorem gatherScatter_apply {N C E w : Nat} (hN : 0 < N)
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (Z x : (⟨2, ![N, C]⟩ : Shape).Idx → EReal) (sidx didx : IVec ⟨2, ![E, 1]⟩ w) (n : Fin N) (c : Fin C) :
    Ideal.hostScatterAdd (rowScatterDims N C E ws) Z didx (Host.gather (rowGatherDims N C E wg) x sidx) (ix2 n c)
      = Z (ix2 n c) + rowsInto hN x sidx didx n c := by
  rw [rowScatterAdd_apply]
  refine congrArg (Z (ix2 n c) + ·) (Finset.sum_congr rfl fun e _ => ?_)
  rw [rowGather_apply hN]

/-- What arrives depends on the rows' entries in that column only. -/
theorem rowsInto_congr {N C C' E w : Nat} (hN : 0 < N) (x : (⟨2, ![N, C]⟩ : Shape).Idx → EReal)
    (x' : (⟨2, ![N, C']⟩ : Shape).Idx → EReal) (sidx didx : IVec ⟨2, ![E, 1]⟩ w) (n : Fin N) (c : Fin C) (c' : Fin C')
    (h : ∀ r : Fin N, x (ix2 r c) = x' (ix2 r c')) : rowsInto hN x sidx didx n c = rowsInto hN x' sidx didx n c' := by
  unfold rowsInto
  refine Finset.sum_congr rfl fun e _ => ?_
  rw [h]

/-- Where every row's entry in the column is the same number u, what arrives is the weight u per arriving edge. -/
theorem rowsInto_const {N C E w : Nat} (hN : 0 < N) (x : (⟨2, ![N, C]⟩ : Shape).Idx → EReal)
    (sidx didx : IVec ⟨2, ![E, 1]⟩ w) (n : Fin N) (c : Fin C) (u : EReal) (h : ∀ r : Fin N, x (ix2 r c) = u) :
    rowsInto hN x sidx didx n c = weightInto didx (fun _ => u) n := by
  unfold rowsInto weightInto
  refine Finset.sum_congr rfl fun e _ => ?_
  rw [h]

/-! ## One number per edge added at its destination -/

/-- Dimension numbers of `operand.at[dst].add(updates)` for a length-N operand and one scalar update per edge. -/
abbrev pointScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

section PointScatter
variable {N E w : Nat} (wf : ScatterDims.WF ⟨1, ![N]⟩ ⟨2, ![E, 1]⟩ ⟨1, ![E]⟩ [] [0] [0] 1) (idx : IVec ⟨2, ![E, 1]⟩ w)

theorem pointScatter_start (e : Fin E) :
    (pointScatterDims N E wf).start (ix1 e) idx 0 = (idx (ix2 e (0 : Fin 1))).toInt := by
  unfold ScatterDims.start
  rw [dif_pos (show (0 : Fin 1) ∈ (pointScatterDims N E wf).scatterDimsToOperandDims from List.mem_singleton.mpr rfl)]
  have hsi : (pointScatterDims N E wf).siIdx (ix1 e) ⟨List.idxOf (0 : Fin 1) (pointScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem pointScatter_window (e : Fin E) : (pointScatterDims N E wf).window (ix1 e) 0 = 0 := by
  unfold ScatterDims.window
  have h0 : (0 : Fin 1) ∉ (pointScatterDims N E wf).sKept := by
    show (0 : Fin 1) ∉ (List.finRange 1).filter (· ∉ [(0 : Fin 1)])
    rw [List.mem_filter]
    simp
  rw [dif_neg h0]

/-- The update of edge e lands on n exactly when the edge's destination is n. -/
theorem pointScatter_lands (e : Fin E) (n : Fin N) :
    (pointScatterDims N E wf).resultIdx? (ix1 e) idx = some (ix1 n) ↔ (idx (ix2 e (0 : Fin 1))).toInt = (n.val : ℤ) := by
  rw [ScatterDims.resultIdx?_eq_some_iff]
  constructor
  · intro h
    have h0 := h 0
    rw [pointScatter_start, pointScatter_window] at h0
    have : ((n.val : ℕ) : ℤ) = (idx (ix2 e (0 : Fin 1))).toInt + ((0 : ℕ) : ℤ) := h0
    omega
  · intro h0 a
    match a with
    | ⟨0, _⟩ =>
      show ((n.val : ℕ) : ℤ) = (pointScatterDims N E wf).start (ix1 e) idx 0 + ((pointScatterDims N E wf).window (ix1 e) 0 : ℤ)
      rw [pointScatter_start, pointScatter_window, h0]; simp

/-- ONE NUMBER PER EDGE ADDED AT ITS DESTINATION, at n: the operand's element plus the sum over the edges of the
    edge's number where its destination is n. -/
theorem pointScatterAdd_apply (x : (⟨1, ![N]⟩ : Shape).Idx → EReal) (upd : (⟨1, ![E]⟩ : Shape).Idx → EReal) (n : Fin N) :
    Ideal.hostScatterAdd (pointScatterDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [pointScatter_lands]

/-- The same with the edges' numbers named: the operand's element plus the weight that arrives. -/
theorem pointScatterAdd_weight (x : (⟨1, ![N]⟩ : Shape).Idx → EReal) (upd : (⟨1, ![E]⟩ : Shape).Idx → EReal) (n : Fin N) :
    Ideal.hostScatterAdd (pointScatterDims N E wf) x idx upd (ix1 n)
      = x (ix1 n) + weightInto idx (fun e => upd (ix1 e)) n :=
  pointScatterAdd_apply wf idx x upd n

end PointScatter

end Cert.EdgeSums

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«151212_j72112500900409_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibScale.lean ====
/-
  The algebra that joins the two arrangements of a degree-normalised graph layer.

  One arrangement scales every gathered row by the product of the two end points' scales, edge by edge, and adds
  the scaled rows at their destinations.  The other scales every node's row once by the node's own scale before the
  rows are gathered, adds the gathered rows at their destinations, and scales the sum once more by the destination's
  scale.  The two agree because a scale is a nonnegative real number: multiplication by a nonnegative real
  distributes over any sum of extended reals, infinite terms included, and multiplication of extended reals is
  commutative and associative.  Nothing about the rows themselves has to be finite.
-/
import Mathlib.Data.EReal.Inv
import Mathlib.Algebra.BigOperators.Group.Finset.Basic

open scoped BigOperators

namespace Cert.Scale

/-- A nonnegative real factor distributes over a finite sum of extended reals. -/
theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The factor moved inside a sum whose terms are switched on by a condition. -/
theorem mul_sum_ite {ι : Type*} (s : Finset ι) (p : ι → Prop) [DecidablePred p] (f : ι → EReal) {a : EReal}
    (h0 : 0 ≤ a) (ht : a ≠ ⊤) :
    a * ∑ i ∈ s, (if p i then f i else 0) = ∑ i ∈ s, if p i then a * f i else 0 := by
  rw [mul_sum s _ h0 ht]
  refine Finset.sum_congr rfl fun i _ => ?_
  split_ifs <;> simp

/-- ONE LAYER, at one entry.  `x e` is the entry of the row edge `e` reads, `u e` the scale of the edge's source,
    `v e` the scale found at the edge's destination, `hit e` whether the edge arrives at the node in question, whose own
    scale is `a`; every edge that arrives finds the node's own scale there (`hv`).  Scaling the rows at the source and
    the sum at the destination is scaling every edge's row by the product of its two scales. -/
theorem layer {ι : Type*} (s : Finset ι) (hit : ι → Prop) [DecidablePred hit] (x u v : ι → EReal) {a : EReal}
    (h0 : 0 ≤ a) (ht : a ≠ ⊤) (hv : ∀ e, hit e → v e = a) :
    a * ∑ e ∈ s, (if hit e then x e * u e else 0) = ∑ e ∈ s, if hit e then x e * (u e * v e) else 0 := by
  rw [mul_sum_ite s hit _ h0 ht]
  refine Finset.sum_congr rfl fun e _ => ?_
  split_ifs with h
  · rw [hv e h, mul_comm a, mul_assoc]
  · rfl

end Cert.Scale
-- ==== Proof.EdgeLayer.lean ====
/-
  A degree-normalised graph layer's aggregate, in its two arrangements, at one entry.

  Every node has a scale, a nonnegative real number.  The first arrangement scales node rows before they are
  gathered along the edges and added at the destinations, and multiplies the sum by the destination's scale.  The
  second gathers unscaled rows, multiplies edge e's row by the product of the scale of e's source and the scale read
  at e's destination, and adds.  An edge that arrives at node n reads n's own scale at its destination; the factor
  of n moves inside the sum because a nonnegative real factor distributes over any sum of extended reals.  The
  rows may hold infinite entries.
-/
import proofs.«151212_j72112500900409_2_alg».proof.Proof.LibEdgeSums
import proofs.«151212_j72112500900409_2_alg».proof.Proof.LibScale
import proofs.«151212_j72112500900409_2_alg».proof.Proof.KSpec

noncomputable section

open scoped BigOperators

namespace Cert.EdgeLayer

open Idealize.ShloMosaic Idealize.ShloMosaic.ValueIdx Cert.EdgeSums Cert.GSpec

/-! ## One number per edge read off a vector -/

/-- Dimension numbers of `v[src]` for a length-N vector and E start indices held as an [E, 1] array. -/
abbrev pointGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the row edge e reads (the start index read signed and clamped). -/
theorem pointGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pointGatherDims N E wf) x idx (ix1 e) = x (ix1 (srcRow hN idx e)) := by
  unfold Host.gather
  congr 1
  funext a
  refine Fin.ext ?_
  match a with
  | ⟨0, _⟩ =>
    show (pointGatherDims N E wf).start (ix1 e) idx 0 + (pointGatherDims N E wf).batchCoord (ix1 e) 0
      + (pointGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (pointGatherDims N E wf).startIndexMap from List.mem_singleton.mpr rfl)]
    have hsi : (pointGatherDims N E wf).siIdx (ix1 e) ⟨List.idxOf (0 : Fin 1) (pointGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The two arrangements of the aggregate -/

/-- THE AGGREGATE, at (n, c).  `X` the unscaled node rows, `d` the nodes' scales as a one-column array, `U` the second
    arrangement's per-edge updates: edge e's gathered row times `nrm e`, where `nrm e` is the product of the scale of e's
    source and the scale of n for every edge e that arrives at n.  Both scatters start from zero. -/
theorem agg_scaled {N C E w : Nat} (hN : 0 < N)
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (X : Mat N C) (d : Mat N 1) (hd0 : ∀ n, 0 ≤ d (ix2 n (0 : Fin 1))) (hdt : ∀ n, d (ix2 n (0 : Fin 1)) ≠ ⊤)
    (sidx didx : IVec ⟨2, ![E, 1]⟩ w) (nrm : Fin E → EReal)
    (Z : Mat N C) (hZ : ∀ j, Z j = 0) (U : Mat E C)
    (hU : ∀ e c, U (ix2 e c) = X (ix2 (srcRow hN sidx e) c) * nrm e)
    (n : Fin N) (c : Fin C)
    (hnrm : ∀ e, (didx (ix2 e (0 : Fin 1))).toInt = (n.val : ℤ) →
      nrm e = d (ix2 (srcRow hN sidx e) (0 : Fin 1)) * d (ix2 n (0 : Fin 1))) :
    d (ix2 n (0 : Fin 1)) * Ideal.hostScatterAdd (rowScatterDims N C E ws) Z didx
        (Host.gather (rowGatherDims N C E wg) (scaleR X d) sidx) (ix2 n c)
      = Ideal.hostScatterAdd (rowScatterDims N C E ws) Z didx U (ix2 n c) := by
  rw [gatherScatter_apply hN wg ws, rowScatterAdd_apply, hZ, zero_add, zero_add]
  unfold rowsInto
  rw [Cert.Scale.mul_sum_ite _ _ _ (hd0 n) (hdt n)]
  refine Finset.sum_congr rfl fun e _ => ?_
  split_ifs with h
  · rw [hU, hnrm e h]
    simp only [scaleR, ofFn2_apply]
    rw [mul_comm (d (ix2 n (0 : Fin 1))), mul_assoc]
  · rfl

/-- The same with the host's spelling of both scatters and of the second arrangement's updates (the gathered rows times a
    per-edge factor array `V` whose row e holds `nrm e` in every column), for any dimension numbers that are the
    whole-row gather and scatter. -/
theorem agg_scaled_host {N C E w : Nat} (hN : 0 < N)
    (gd : GatherDims ⟨2, ![N, C]⟩ ⟨2, ![E, 1]⟩ ⟨2, ![E, C]⟩) (sd : ScatterDims ⟨2, ![N, C]⟩ ⟨2, ![E, 1]⟩ ⟨2, ![E, C]⟩)
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (hgd : gd = rowGatherDims N C E wg) (hsd : sd = rowScatterDims N C E ws)
    (X : Mat N C) (d : Mat N 1) (hd0 : ∀ n, 0 ≤ d (ix2 n (0 : Fin 1))) (hdt : ∀ n, d (ix2 n (0 : Fin 1)) ≠ ⊤)
    (sidx didx : IVec ⟨2, ![E, 1]⟩ w) (nrm : Fin E → EReal)
    (Z : Mat N C) (hZ : ∀ j, Z j = 0) (V : Mat E C) (hV : ∀ e c, V (ix2 e c) = nrm e)
    (n : Fin N) (c : Fin C)
    (hnrm : ∀ e, (didx (ix2 e (0 : Fin 1))).toInt = (n.val : ℤ) →
      nrm e = d (ix2 (srcRow hN sidx e) (0 : Fin 1)) * d (ix2 n (0 : Fin 1))) :
    d (ix2 n (0 : Fin 1)) * Host.scatterAdd (F := Ideal) (φ := .f32) sd Z didx (Host.gather gd (scaleR X d) sidx) (ix2 n c)
      = Host.scatterAdd (F := Ideal) (φ := .f32) sd Z didx
          (mulf (F := Ideal) (φ := .f32) (Host.gather gd X sidx) V) (ix2 n c) := by
  subst hgd hsd
  exact agg_scaled hN wg ws X d hd0 hdt sidx didx nrm Z hZ _
    (fun e q => by rw [mulf_apply, rowGather_apply hN, hV] <;> rfl) n c hnrm

end Cert.EdgeLayer

end
-- ==== Proof.LibNodeScale.lean ====
/-
  A node's scale is a nonnegative real number.

  The scale of a node is the reciprocal square root of its degree, raised to at least one, or zero for a node of
  degree zero.  Whatever extended real the degree is, a number that is at least one has a reciprocal square root
  between zero and one, and zero is such a number too; so the scale is never negative and never infinite.
-/
import Idealize.ShloMosaic.PureOps.Ideal.Laws
import Idealize.ShloMosaic.Lib.IdealHost

noncomputable section

namespace Cert.NodeScale

open Idealize.ShloMosaic

/-- The reciprocal square root of an extended real that is at least one is a nonnegative real. -/
theorem rsqrt_range (y : EReal) (h : 1 ≤ y) : 0 ≤ Ideal.rsqrt y ∧ Ideal.rsqrt y ≠ ⊤ := by
  induction y using EReal.rec with
  | bot => exact absurd (le_bot_iff.mp h) (EReal.coe_ne_bot 1)
  | top => rw [Ideal.rsqrt_top]; exact ⟨le_refl _, EReal.zero_ne_top⟩
  | coe r =>
    have hr : (1 : ℝ) ≤ r := by exact_mod_cast h
    rw [Ideal.rsqrt_coe, if_neg (by linarith), if_neg (by linarith)]
    exact ⟨by exact_mod_cast inv_nonneg.mpr (Real.sqrt_nonneg r), EReal.coe_ne_top _⟩

/-- The scale chosen by the degree test: the reciprocal square root of the raised degree, or zero. -/
theorem scale_range (cnd : BitVec 1) (deg : EReal) :
    0 ≤ Scalar.select cnd (Ideal.rsqrt (max deg (Ideal.ofBits .f32 0x3F800000#32))) (Ideal.ofBits .f32 0x00000000#32)
      ∧ Scalar.select cnd (Ideal.rsqrt (max deg (Ideal.ofBits .f32 0x3F800000#32))) (Ideal.ofBits .f32 0x00000000#32) ≠ ⊤ := by
  unfold Scalar.select
  split_ifs
  · exact rsqrt_range _ (by rw [Ideal.ofBits_one_f32]; exact le_max_right _ _)
  · rw [Ideal.ofBits_zero_f32]; exact ⟨le_refl _, EReal.zero_ne_top⟩

end Cert.NodeScale

end
-- ==== Proof.BridgeIdx.lean ====
/-
  The edge lists, the node scales and the aggregate, entry by entry, in both programs.

  Both programs append a self-loop per node to the edge list, wrap negative source indices, count every node's
  arriving edges and take the reciprocal square root of the count (raised to at least one; zero for a node no edge
  reaches).  The reference multiplies every gathered row by its edge's factor, the product of the scales read at the
  edge's two ends; the other program scales rows before the gather and after the sum.  Here: a node's scale is a
  nonnegative real; the edge's factor at an edge is the product of the two scales at the rows the edge's ends read; the
  factor is laid along the 64 columns unchanged; an edge whose raw destination word is node n reads n's scale at its
  destination end (a nonnegative word is not wrapped, and a row number below 100000 is not clamped); the sums start
  from zero; and the other program's index arrays, scales and aggregate are the same host operations on the same
  argument, so they are the same functions.
-/
import proofs.«151212_j72112500900409_2_alg».proof.Proof.BridgeDefs
import proofs.«151212_j72112500900409_2_alg».proof.Proof.KTerm
import proofs.«151212_j72112500900409_2_alg».proof.Proof.LibEdgeSums
import proofs.«151212_j72112500900409_2_alg».proof.Proof.LibHostRowOps
import proofs.«151212_j72112500900409_2_alg».proof.Proof.EdgeLayer
import proofs.«151212_j72112500900409_2_alg».proof.Proof.LibNodeScale
import Idealize.ShloMosaic.Lib.Affine

noncomputable section

open scoped BigOperators

namespace Cert.Bridge

open Idealize.ShloMosaic Idealize.ShloMosaic.ValueIdx Cert.GSpec Cert.EdgeSums Cert.ReferenceIdeal Cert.ReferenceIdeal.Read

variable (x1 : (⟨S2x1600000, .i32⟩ : BufTy).Contents (Elt Ideal))

/-! ## A node's scale -/

/-- A node's scale spelled out: chosen by the degree test, the reciprocal square root of the degree raised to at
    least one, or zero. -/
theorem dcol_apply (n : Fin 100000) :
    dcol x1 (ix2 n (0 : Fin 1))
      = Scalar.select (val_main_v22 (F := Ideal) x1 (ix1 n))
          (Ideal.rsqrt (max (val_main_v20 (F := Ideal) x1 (ix1 n)) (Ideal.ofBits .f32 0x3F800000#32)))
          (Ideal.ofBits .f32 0x00000000#32) := by
  show val_main_v26 (F := Ideal) x1 (ix1 n) = _
  rw [val_main_v26_apply, val_main_v25_apply, val_main_v24_apply, val_main_call2_v1_apply, val_main_call2_v0_apply,
    val_main_cst_3_apply, val_main_v23_apply, val_main_cst_2_apply]
  generalize val_main_v22 (F := Ideal) x1 (ix1 n) = cnd
  generalize val_main_v20 (F := Ideal) x1 (ix1 n) = dg
  simp only [Ideal.hostUnary_rsqrt_def, Ideal.maximumf_def, Ideal.ofBits_def]

theorem dcol_nonneg (n : Fin 100000) : 0 ≤ dcol x1 (ix2 n (0 : Fin 1)) := by
  rw [dcol_apply]
  exact (Cert.NodeScale.scale_range _ _).1

theorem dcol_ne_top (n : Fin 100000) : dcol x1 (ix2 n (0 : Fin 1)) ≠ ⊤ := by
  rw [dcol_apply]
  exact (Cert.NodeScale.scale_range _ _).2

/-! ## An edge's factor -/

/-- The scales gathered by an index array: at edge e, the scale of the row the edge reads. -/
theorem scaleGather_apply (idx : (⟨S1700000x1, .i32⟩ : BufTy).Contents (Elt Ideal)) (e : Fin 1700000) :
    Host.gather gather_S100000_S1700000x1_S1700000_n_0_n_n_0_1_1 (val_main_v26 (F := Ideal) x1) idx (ix1 e)
      = dcol x1 (ix2 (srcRow hN idx e) (0 : Fin 1)) :=
  Cert.EdgeLayer.pointGather_apply hN _ (val_main_v26 (F := Ideal) x1) idx e

/-- The wrapped sources are computed twice by the reference, by the same operations. -/
theorem src_twice : val_main_v32 (F := Ideal) x1 = val_main_v49 (F := Ideal) x1 := rfl

theorem norm_apply (e : Fin 1700000) :
    val_main_v41 (F := Ideal) x1 (ix1 e)
      = dcol x1 (ix2 (srcRow hN (val_main_v49 (F := Ideal) x1) e) (0 : Fin 1))
        * dcol x1 (ix2 (srcRow hN (val_main_v39 (F := Ideal) x1) e) (0 : Fin 1)) := by
  rw [val_main_v41_apply]
  show val_main_v33 (F := Ideal) x1 (ix1 e) * val_main_v40 (F := Ideal) x1 (ix1 e) = _
  unfold val_main_v33 val_main_v40
  rw [scaleGather_apply, scaleGather_apply, src_twice]

theorem norm_spread (e : Fin 1700000) (k : Fin 64) :
    val_main_v51 (F := Ideal) x1 (ix2 e k) = val_main_v41 (F := Ideal) x1 (ix1 e) := by
  rw [val_main_v51_apply, val_main_v42_apply]
  exact congrArg (val_main_v41 (F := Ideal) x1) (funext fun a => by match a with | ⟨0, _⟩ => rfl)

/-! ## The destination end of an edge that arrives at node n -/

theorem dst_hit (e : Fin 1700000) (n : Fin 100000)
    (h : (val_main_v54 (F := Ideal) x1 (ix2 e (0 : Fin 1))).toInt = (n.val : ℤ)) :
    srcRow hN (val_main_v39 (F := Ideal) x1) e = n := by
  have hi54 : idx_main_v54 (ix2 e (0 : Fin 1)) = ix1 e := funext fun a => by match a with | ⟨0, _⟩ => rfl
  have hi39 : idx_main_v39 (ix2 e (0 : Fin 1)) = ix1 e := funext fun a => by match a with | ⟨0, _⟩ => rfl
  have h39 : val_main_v39 (F := Ideal) x1 (ix2 e (0 : Fin 1))
      = Scalar.select (IntOp.cmpi .slt (val_main_v16 (F := Ideal) x1 (ix1 e)) 0#32)
          (IntOp.addi (val_main_v16 (F := Ideal) x1 (ix1 e)) 100000#32) (val_main_v16 (F := Ideal) x1 (ix1 e)) := by
    rw [val_main_v39_apply, hi39, val_main_v38_apply, val_main_v35_apply, val_main_v37_apply, val_main_v34_apply,
      val_main_v36_apply, val_main_c_5_apply, val_main_c_6_apply]
  rw [val_main_v54_apply, hi54] at h
  generalize val_main_v16 (F := Ideal) x1 (ix1 e) = a at h h39
  have hlt : ¬ IntOp.cmpi .slt a 0#32 = 1#1 := by
    rw [IntOp.cmpi_slt, h, BitVec.toInt_zero]
    omega
  have hsel : Scalar.select (IntOp.cmpi .slt a 0#32) (IntOp.addi a 100000#32) a = a := if_neg hlt
  apply Fin.ext
  show min (val_main_v39 (F := Ideal) x1 (ix2 e (0 : Fin 1))).toInt.toNat (100000 - 1) = n.val
  rw [h39, hsel, h]
  have := n.isLt
  omega

/-! ## The sums start from zero -/

theorem zero_apply (j : (⟨2, ![100000, 64]⟩ : Shape).Idx) : val_main_v53 (F := Ideal) j = 0 := by
  rw [val_main_v53_apply, val_main_cst_9_apply]
  exact Ideal.ofBits_zero_f32

/-! ## The other program's scales and aggregate are the same functions -/

theorem kdinv2d_eq (m : (ℓ : Loc Cert.KernelIdeal.nD Cert.KernelIdeal.τ Cert.KernelIdeal.sig) → Buf (Elt Ideal) ℓ)
    (c : Dev Cert.KernelIdeal.nD) :
    Cert.KernelIdeal.KTerm.dinv2d m c = dcol (Cert.KernelIdeal.KTerm.a1 m c) := by
  funext j
  obtain ⟨n, u, rfl⟩ : ∃ (n : Fin 100000) (u : Fin 1), j = ix2 n u := ⟨j 0, j 1, eq_ix2 j⟩
  unfold Cert.KernelIdeal.KTerm.dinv2d
  rw [Cert.HostRowOps.vecToCol_apply]
  rfl

theorem kagg_eq (m : (ℓ : Loc Cert.KernelIdeal.nD Cert.KernelIdeal.τ Cert.KernelIdeal.sig) → Buf (Elt Ideal) ℓ)
    (c : Dev Cert.KernelIdeal.nD) (Y : Mat 100000 64) :
    Cert.KernelIdeal.KTerm.agg m c Y = aggK (Cert.KernelIdeal.KTerm.a1 m c) Y := rfl

end Cert.Bridge

end
-- ==== Proof.BridgeRef.lean ====
/-
  The reference's node stages, read in the layer functions.

  The reference computes the two encoder layers and every layer's matrix product as host operations on the array of
  all 100000 rows.  Entry by entry these are the row-local layer functions of the specification: a host matrix product
  with one contracted axis is the sum over that axis, a bias vector laid along the rows adds its entry, and clipping at
  zero is the maximum with zero.
-/
import proofs.«151212_j72112500900409_2_alg».proof.Proof.RefRead
import proofs.«151212_j72112500900409_2_alg».proof.Proof.KSpec
import proofs.«151212_j72112500900409_2_alg».proof.Proof.LibDense
import proofs.«151212_j72112500900409_2_alg».proof.Proof.LibHostRowOps

noncomputable section

open scoped BigOperators

namespace Cert.Bridge

open Idealize.ShloMosaic Idealize.ShloMosaic.ValueIdx Cert.GSpec Cert.ReferenceIdeal Cert.ReferenceIdeal.Read
open Cert.ReferenceIdeal.Facts₀ Cert.ReferenceIdeal.Facts

/-- Every matrix product of the reference contracts the left operand's columns with the right operand's rows. -/
theorem plain {M K N : Nat} {d : DotDims ⟨2, ![M, K]⟩ ⟨2, ![K, N]⟩ ⟨2, ![M, N]⟩}
    (lc : d.lhsContracting = [1]) (rc : d.rhsContracting = [0]) (ln : d.lhsNonContracting = [0])
    (rn : d.rhsNonContracting = [1]) (lb : d.lhsBatch = []) (rb : d.rhsBatch = []) : Cert.RowOps.IsPlain d :=
  ⟨lc, rc, ln, rn, lb, rb⟩

section Encoder
variable (x0 : Mat 100000 32) (x3 : Mat 32 256) (x4 : Vc 256) (x5 : Mat 256 128) (x6 : Vc 128) (x7 : Mat 128 64)

/-- The reference's first encoder layer. -/
theorem ref_enc1 : val_main_v4 (F := Ideal) x0 x3 x4 = dense x0 x3 x4 := by
  funext j
  obtain ⟨r, k, rfl⟩ : ∃ (r : Fin 100000) (k : Fin 256), j = ix2 r k := ⟨j 0, j 1, eq_ix2 j⟩
  simp only [dense, ofFn2_apply]
  unfold val_main_v4 val_main_v3 val_main_v2 val_main_v1 val_main_v0 val_main_call0_v0 val_main_call0_cst
  exact Cert.Dense.hostEncode_apply (plain rfl rfl rfl rfl rfl rfl) x0 x3 x4 _ _ _ r k

/-- The reference's two encoder layers are the encoder. -/
theorem ref_enc : val_main_v9 (F := Ideal) x0 x3 x4 x5 x6 = enc x0 x3 x4 x5 x6 := by
  funext j
  obtain ⟨r, k, rfl⟩ : ∃ (r : Fin 100000) (k : Fin 128), j = ix2 r k := ⟨j 0, j 1, eq_ix2 j⟩
  unfold enc
  rw [← ref_enc1]
  simp only [dense, ofFn2_apply]
  unfold val_main_v9 val_main_v8 val_main_v7 val_main_v6 val_main_v5 val_main_call1_v0 val_main_call1_cst
  exact Cert.Dense.hostEncode_apply (plain rfl rfl rfl rfl rfl rfl) (val_main_v4 (F := Ideal) x0 x3 x4) x5 x6 _ _ _ r k

/-- The first layer's transformed rows. -/
theorem ref_xw0 : val_main_v43 (F := Ideal) x0 x3 x4 x5 x6 x7 = lin (enc x0 x3 x4 x5 x6) x7 := by
  funext j
  obtain ⟨r, k, rfl⟩ : ∃ (r : Fin 100000) (k : Fin 64), j = ix2 r k := ⟨j 0, j 1, eq_ix2 j⟩
  rw [← ref_enc]
  simp only [lin, ofFn2_apply]
  unfold val_main_v43
  exact Cert.HostRowOps.dot_apply (plain rfl rfl rfl rfl rfl rfl) none _ x7 r k

end Encoder

/-- A host matrix product of any [100000, 64] array with a [64, 64] weight is `lin`. -/
theorem ref_lin64 (H : Mat 100000 64) (W : Mat 64 64) :
    Host.dotGeneral (F := Ideal) (φ₁ := .f32) (φ₂ := .f32) dot_S100000x64_S64x64_S100000x64_1_0_0_1_n_n none H W = lin H W := by
  funext j
  obtain ⟨r, k, rfl⟩ : ∃ (r : Fin 100000) (k : Fin 64), j = ix2 r k := ⟨j 0, j 1, eq_ix2 j⟩
  simp only [lin, ofFn2_apply]
  exact Cert.HostRowOps.dot_apply (plain rfl rfl rfl rfl rfl rfl) none H W r k

/-- An aggregate plus a bias row, clipped at zero, as the reference spells it, at one entry. -/
theorem ref_act (A : Mat 100000 64) (b : Vc 64) (r : Fin 100000) (k : Fin 64) :
    maximumf (F := Ideal) (φ := .f32) (addf A (broadcastInDim S100000x64 ![0, 1] bcast_S1x64_S100000x64_0_1
        (broadcastInDim S1x64 ![1] bcast_S64_S1x64_1 b)))
      (broadcastInDim S100000x64 ![] bcast_S_S100000x64 (constant (F := Ideal) S_ .f32 0x00000000#32)) (ix2 r k)
      = max (A (ix2 r k) + b (ix1 k)) z :=
  Cert.Dense.hostActivate_apply A b _ _ _ r k

end Cert.Bridge

end
-- ==== Proof.BridgeNodes.lean ====
/-
  The three graph layers of the two programs leave the same node embeddings.

  The kernel program scales the transformed rows by the node scale before they are gathered, aggregates, and scales
  the aggregate by the node scale again inside the next call; the reference multiplies every gathered row by the
  product of the two scales of its edge and aggregates.  The aggregates agree entry by entry (`agg_bridge`: a node's
  scale is a nonnegative real and so distributes over the sum along the edges), the rest of a layer — bias, clipping at
  zero, the residual sum, the next weight — is the same function on both sides, and so the embeddings agree layer after
  layer.
-/
import proofs.«151212_j72112500900409_2_alg».proof.Proof.BridgeDefs
import proofs.«151212_j72112500900409_2_alg».proof.Proof.BridgeIdx
import proofs.«151212_j72112500900409_2_alg».proof.Proof.BridgeRef
import proofs.«151212_j72112500900409_2_alg».proof.Proof.KTerm
import proofs.«151212_j72112500900409_2_alg».proof.Proof.EdgeLayer
import proofs.«151212_j72112500900409_2_alg».proof.Proof.LibEdgeSums

noncomputable section

open scoped BigOperators

namespace Cert.Bridge

open Idealize.ShloMosaic Idealize.ShloMosaic.ValueIdx Cert.GSpec Cert.EdgeSums Cert.ReferenceIdeal Cert.ReferenceIdeal.Read
open Cert.ReferenceIdeal.Facts₀ Cert.ReferenceIdeal.Facts

section Aggregate
variable (x1 : (⟨S2x1600000, .i32⟩ : BufTy).Contents (Elt Ideal))

/-- THE AGGREGATE in its two arrangements, at (n, k): the node's scale times the aggregate of the pre-scaled rows is the
    aggregate of the rows multiplied edge by edge by the product of the two scales. -/
theorem agg_bridge (X : Mat 100000 64) (n : Fin 100000) (k : Fin 64) :
    dcol x1 (ix2 n (0 : Fin 1)) * aggK x1 (scaleR X (dcol x1)) (ix2 n k) = aggR x1 X (ix2 n k) := by
  have hnrm : ∀ e, (val_main_v54 (F := Ideal) x1 (ix2 e (0 : Fin 1))).toInt = (n.val : ℤ) →
      val_main_v41 (F := Ideal) x1 (ix1 e)
        = dcol x1 (ix2 (srcRow hN (val_main_v49 (F := Ideal) x1) e) (0 : Fin 1)) * dcol x1 (ix2 n (0 : Fin 1)) := by
    intro e h
    rw [norm_apply, dst_hit x1 e n h]
  unfold aggK aggR
  exact Cert.EdgeLayer.agg_scaled_host hN gather_S100000x64_S1700000x1_S1700000x64_1_0_n_n_0_1_164
    scatter_S100000x64_S1700000x1_S1700000x64_1_0_0_1 gather_S100000x64_S1700000x1_S1700000x64_1_0_n_n_0_1_164_wf
    scatter_S100000x64_S1700000x1_S1700000x64_1_0_0_1_wf rfl rfl X (dcol x1) (dcol_nonneg x1) (dcol_ne_top x1)
    (val_main_v49 (F := Ideal) x1) (val_main_v54 (F := Ideal) x1) (fun e => val_main_v41 (F := Ideal) x1 (ix1 e))
    (val_main_v53 (F := Ideal)) zero_apply (val_main_v51 (F := Ideal) x1) (norm_spread x1) n k hnrm

end Aggregate

section Layers
variable (m : (ℓ : Loc Cert.KernelIdeal.nD Cert.KernelIdeal.τ Cert.KernelIdeal.sig) → Buf (Elt Ideal) ℓ)
  (c : Dev Cert.KernelIdeal.nD)

/-- The first layer's embedding. -/
theorem ha_eq : Cert.KernelIdeal.KTerm.ha m c = val_main_v59 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) := by
  funext j
  obtain ⟨n, k, rfl⟩ : ∃ (n : Fin 100000) (k : Fin 64), j = ix2 n k := ⟨j 0, j 1, eq_ix2 j⟩
  unfold Cert.KernelIdeal.KTerm.ha Cert.KernelIdeal.KTerm.xw0 GSpec.G0
  rw [kdinv2d_eq, kagg_eq]
  simp only [GSpec.post, ofFn2_apply]
  rw [agg_bridge]
  unfold val_main_v59 val_main_v58 val_main_v57 val_main_v56 val_main_call3_v0 val_main_call3_cst
  rw [ref_act]
  rw [show val_main_v55 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) = aggR (Cert.KernelIdeal.KTerm.a1 m c) (val_main_v43 (F := Ideal) (Cert.KernelIdeal.KTerm.a0 m c) (Cert.KernelIdeal.KTerm.a3 m c) (Cert.KernelIdeal.KTerm.a4 m c) (Cert.KernelIdeal.KTerm.a5 m c) (Cert.KernelIdeal.KTerm.a6 m c) (Cert.KernelIdeal.KTerm.a7 m c)) from rfl, ref_xw0]

/-- The second layer's embedding, with its residual. -/
theorem hb_eq : Cert.KernelIdeal.KTerm.hb m c = val_main_v77 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) := by
  funext j
  obtain ⟨n, k, rfl⟩ : ∃ (n : Fin 100000) (k : Fin 64), j = ix2 n k := ⟨j 0, j 1, eq_ix2 j⟩
  unfold Cert.KernelIdeal.KTerm.hb Cert.KernelIdeal.KTerm.xw1 GSpec.next GSpec.resid
  rw [kdinv2d_eq, kagg_eq, ha_eq]
  simp only [GSpec.addM, GSpec.post, ofFn2_apply]
  rw [agg_bridge]
  unfold val_main_v77 val_main_v76 val_main_v75 val_main_v74 val_main_v73 val_main_call4_v0 val_main_call4_cst
  rw [addf_apply, ref_act]
  rw [show val_main_v72 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) = aggR (Cert.KernelIdeal.KTerm.a1 m c) (val_main_v60 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c)) from rfl]
  unfold val_main_v60
  rw [ref_lin64]

/-- The third layer's embedding, with its residual: the final node embedding. -/
theorem hfin_eq : Cert.KernelIdeal.KTerm.hfin m c = val_main_v95 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) := by
  funext j
  obtain ⟨n, k, rfl⟩ : ∃ (n : Fin 100000) (k : Fin 64), j = ix2 n k := ⟨j 0, j 1, eq_ix2 j⟩
  unfold Cert.KernelIdeal.KTerm.hfin Cert.KernelIdeal.KTerm.xw2 GSpec.next GSpec.resid
  rw [kdinv2d_eq, kagg_eq, hb_eq]
  simp only [GSpec.addM, GSpec.post, ofFn2_apply]
  rw [agg_bridge]
  unfold val_main_v95 val_main_v94 val_main_v93 val_main_v92 val_main_v91 val_main_call5_v0 val_main_call5_cst
  rw [addf_apply, ref_act]
  rw [show val_main_v90 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) = aggR (Cert.KernelIdeal.KTerm.a1 m c) (val_main_v78 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c)) from rfl]
  unfold val_main_v78
  rw [ref_lin64]

end Layers

end Cert.Bridge

end
-- ==== Proof.BridgeEdge.lean ====
/-
  The edge predictor: the scores the program computes from the two gathered end points are the reference's.

  A candidate edge has two end points.  Both programs read the final embedding's row of each end point (the same
  rows: the same index arithmetic on the same argument) and pass the pair through a three-layer perceptron followed
  by the logistic function.  The reference joins the two 64-entry rows into one 128-entry row and multiplies it by
  the whole 128-by-128 first weight; the program multiplies each row by its own 64-row half of that weight and adds
  the two products.  A sum over 128 terms is the sum over the first 64 plus the sum over the last 64, so the two
  first layers agree entry by entry, whatever the entries are (nothing has to be finite).  The later layers are the
  same expressions, and the reference's spelling 1 / (1 + exp (−x)) is the logistic function by definition.
-/
import proofs.«151212_j72112500900409_2_alg».proof.Proof.KTerm
import proofs.«151212_j72112500900409_2_alg».proof.Proof.RefRead
import proofs.«151212_j72112500900409_2_alg».proof.Proof.KSpec
import Idealize.ShloMosaic.Lib.Pipeline.Value
import Idealize.ShloMosaic.Lib.ValueIdx
import Idealize.ShloMosaic.Lib.IdealHost

noncomputable section

open scoped BigOperators

namespace Cert.Bridge

open Idealize.ShloMosaic Idealize.ShloMosaic.ValueIdx

/-! ## A sum over 128 terms in two halves -/

/-- The sum over 128 terms is the sum over the first 64 plus the sum over the last 64. -/
theorem sum_halves (f : Fin 128 → EReal) :
    ∑ k : Fin 128, f k
      = (∑ i : Fin 64, f ⟨i.val, by omega⟩) + ∑ i : Fin 64, f ⟨64 + i.val, by omega⟩ :=
  Fin.sum_univ_add (a := 64) (b := 64) f

/-! ## Two arrays joined side by side, read at an entry -/

section Join
variable {α : Type} {a n p q : Nat}

/-- Left of column n the join of an [a, n] and an [a, p] array reads the first piece. -/
theorem join_left (A : (⟨2, ![a, n]⟩ : Shape).Idx → α) (B : (⟨2, ![a, p]⟩ : Shape).Idx → α)
    (h : Shape.Concatenates [(⟨2, ![a, n]⟩ : Shape), ⟨2, ![a, p]⟩] ⟨2, ![a, q]⟩ 1) (r : Fin a) (i : Fin n) (hi : i.val < q) :
    concatenate ⟨2, ![a, q]⟩ 1 [⟨⟨2, ![a, n]⟩, A⟩, ⟨⟨2, ![a, p]⟩, B⟩] h (ix2 r (⟨i.val, hi⟩ : Fin q)) = A (ix2 r i) :=
  concatenate_pair_apply_left 1 A B h _ rfl _ (fun b => by
    match b with
    | ⟨0, _⟩ => rfl
    | ⟨1, _⟩ => rfl)

/-- From column n on it reads the second piece, n columns to the left. -/
theorem join_right (A : (⟨2, ![a, n]⟩ : Shape).Idx → α) (B : (⟨2, ![a, p]⟩ : Shape).Idx → α)
    (h : Shape.Concatenates [(⟨2, ![a, n]⟩ : Shape), ⟨2, ![a, p]⟩] ⟨2, ![a, q]⟩ 1) (r : Fin a) (i : Fin p) (hi : n + i.val < q) :
    concatenate ⟨2, ![a, q]⟩ 1 [⟨⟨2, ![a, n]⟩, A⟩, ⟨⟨2, ![a, p]⟩, B⟩] h (ix2 r (⟨n + i.val, hi⟩ : Fin q)) = B (ix2 r i) :=
  concatenate_pair_apply_right 1 A B h _ rfl rfl _
    (fun b hb => by
      match b with
      | ⟨0, _⟩ => rfl
      | ⟨1, _⟩ => exact absurd rfl hb)
    (by show i.val + n = n + i.val; omega)

end Join

/-! ## The two halves of the first weight, read at an entry -/

/-- Rows 0 … 63 of a 128-row array. -/
theorem upper_apply (W : (⟨2, ![128, 128]⟩ : Shape).Idx → EReal)
    (h : (⟨2, ![128, 128]⟩ : Shape).Slices ![0, 0] ⟨2, ![64, 128]⟩) (i : Fin 64) (j : Fin 128) :
    extractStridedSlice ⟨2, ![64, 128]⟩ ![0, 0] W h (ix2 i j) = W (ix2 (⟨i.val, by omega⟩ : Fin 128) j) :=
  extractStridedSlice_apply _ W h _ _ fun b => by
    match b with
    | ⟨0, _⟩ => exact (Nat.zero_add i.val).symm
    | ⟨1, _⟩ => exact (Nat.zero_add j.val).symm

/-- Rows 64 … 127 of a 128-row array. -/
theorem lower_apply (W : (⟨2, ![128, 128]⟩ : Shape).Idx → EReal)
    (h : (⟨2, ![128, 128]⟩ : Shape).Slices ![64, 0] ⟨2, ![64, 128]⟩) (i : Fin 64) (j : Fin 128) :
    extractStridedSlice ⟨2, ![64, 128]⟩ ![64, 0] W h (ix2 i j) = W (ix2 (⟨64 + i.val, by omega⟩ : Fin 128) j) :=
  extractStridedSlice_apply _ W h _ _ fun b => by
    match b with
    | ⟨0, _⟩ => rfl
    | ⟨1, _⟩ => exact (Nat.zero_add j.val).symm

/-! ## The reference's edge predictor, layer by layer -/

section Reference
open Cert.ReferenceIdeal Cert.ReferenceIdeal.Read

variable (x0 : (⟨S100000x32, .f32⟩ : BufTy).Contents (Elt Ideal))
  (x1 : (⟨S2x1600000, .i32⟩ : BufTy).Contents (Elt Ideal))
  (x2 : (⟨S2x200000, .i32⟩ : BufTy).Contents (Elt Ideal))
  (x3 : (⟨S32x256, .f32⟩ : BufTy).Contents (Elt Ideal))
  (x4 : (⟨S256, .f32⟩ : BufTy).Contents (Elt Ideal))
  (x5 : (⟨S256x128, .f32⟩ : BufTy).Contents (Elt Ideal))
  (x6 : (⟨S128, .f32⟩ : BufTy).Contents (Elt Ideal))
  (x7 : (⟨S128x64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64, .f32⟩ : BufTy).Contents (Elt Ideal))
  (x13 : (⟨S128x128, .f32⟩ : BufTy).Contents (Elt Ideal))
  (x14 : (⟨S128, .f32⟩ : BufTy).Contents (Elt Ideal))
  (x15 : (⟨S128x64, .f32⟩ : BufTy).Contents (Elt Ideal))
  (x16 : (⟨S64, .f32⟩ : BufTy).Contents (Elt Ideal))
  (x17 : (⟨S64x1, .f32⟩ : BufTy).Contents (Elt Ideal))
  (x18 : (⟨S1, .f32⟩ : BufTy).Contents (Elt Ideal))

/-- The first layer before its bias: the joined row times the whole weight is the two rows times the two halves. -/
theorem ref_product (hs0 : (⟨2, ![128, 128]⟩ : Shape).Slices ![0, 0] ⟨2, ![64, 128]⟩)
    (hs1 : (⟨2, ![128, 128]⟩ : Shape).Slices ![64, 0] ⟨2, ![64, 128]⟩) (r : Fin 200000) (j : Fin 128) :
    val_main_v115 (F := Ideal) x0 x1 x2 x3 x4 x5 x6 x7 x8 x9 x10 x11 x12 x13 (ix2 r j)
      = (∑ i : Fin 64, val_main_v104 (F := Ideal) x0 x1 x2 x3 x4 x5 x6 x7 x8 x9 x10 x11 x12 (ix2 r i)
            * extractStridedSlice ⟨2, ![64, 128]⟩ ![0, 0] x13 hs0 (ix2 i j))
        + ∑ i : Fin 64, val_main_v113 (F := Ideal) x0 x1 x2 x3 x4 x5 x6 x7 x8 x9 x10 x11 x12 (ix2 r i)
            * extractStridedSlice ⟨2, ![64, 128]⟩ ![64, 0] x13 hs1 (ix2 i j) := by
  refine (val_main_v115_apply x0 x1 x2 x3 x4 x5 x6 x7 x8 x9 x10 x11 x12 x13 (ix2 r j)).trans ((sum_halves _).trans ?_)
  have hl : ∀ k : Fin 128, lidx_main_v115 (ix2 r j) k = ix2 r k := fun k => funext fun b => by
    match b with
    | ⟨0, _⟩ => rfl
    | ⟨1, _⟩ => rfl
  have hr : ∀ k : Fin 128, ridx_main_v115 (ix2 r j) k = ix2 k j := fun k => funext fun b => by
    match b with
    | ⟨0, _⟩ => rfl
    | ⟨1, _⟩ => rfl
  unfold val_main_v114
  generalize val_main_v104 (F := Ideal) x0 x1 x2 x3 x4 x5 x6 x7 x8 x9 x10 x11 x12 = A
  generalize val_main_v113 (F := Ideal) x0 x1 x2 x3 x4 x5 x6 x7 x8 x9 x10 x11 x12 = B
  refine congrArg₂ (· + ·) (Finset.sum_congr rfl fun i _ => ?_) (Finset.sum_congr rfl fun i _ => ?_)
  · beta_reduce
    rw [hl, hr]
    exact congrArg₂ (· * ·) (join_left A B _ r i _)
      (upper_apply x13 hs0 i j).symm
  · beta_reduce
    rw [hl, hr]
    exact congrArg₂ (· * ·) (join_right A B _ r i _)
      (lower_apply x13 hs1 i j).symm

/-- The first layer: the product plus the bias, clipped at zero. -/
theorem ref_layer1 (r : Fin 200000) (j : Fin 128) :
    val_main_v119 (F := Ideal) x0 x1 x2 x3 x4 x5 x6 x7 x8 x9 x10 x11 x12 x13 x14 (ix2 r j)
      = max (val_main_v115 (F := Ideal) x0 x1 x2 x3 x4 x5 x6 x7 x8 x9 x10 x11 x12 x13 (ix2 r j) + x14 (ix1 j)) Cert.GSpec.z := by
  rw [val_main_v119_apply, val_main_v118_apply, val_main_v117_apply, val_main_v116_apply, val_main_call6_v0_apply,
    val_main_call6_cst_apply]
  have hb : idx_main_v116 (idx_main_v117 (ix2 r j)) = ix1 j := funext fun b => by
    match b with
    | ⟨0, _⟩ => rfl
  rw [hb]
  rfl

/-- The second layer. -/
theorem ref_layer2 (r : Fin 200000) (k : Fin 64) :
    val_main_v124 (F := Ideal) x0 x1 x2 x3 x4 x5 x6 x7 x8 x9 x10 x11 x12 x13 x14 x15 x16 (ix2 r k)
      = max ((∑ j : Fin 128, val_main_v119 (F := Ideal) x0 x1 x2 x3 x4 x5 x6 x7 x8 x9 x10 x11 x12 x13 x14 (ix2 r j) * x15 (ix2 j k)) + x16 (ix1 k)) Cert.GSpec.z := by
  rw [val_main_v124_apply, val_main_v123_apply, val_main_v122_apply, val_main_v121_apply, val_main_call7_v0_apply,
    val_main_call7_cst_apply, val_main_v120_apply]
  have hb : idx_main_v121 (idx_main_v122 (ix2 r k)) = ix1 k := funext fun b => by
    match b with
    | ⟨0, _⟩ => rfl
  have hl : ∀ j : Fin 128, lidx_main_v120 (ix2 r k) j = ix2 r j := fun j => funext fun b => by
    match b with
    | ⟨0, _⟩ => rfl
    | ⟨1, _⟩ => rfl
  have hr : ∀ j : Fin 128, ridx_main_v120 (ix2 r k) j = ix2 j k := fun j => funext fun b => by
    match b with
    | ⟨0, _⟩ => rfl
    | ⟨1, _⟩ => rfl
  simp only [hb, hl, hr]
  rfl

/-- The last layer, one column. -/
theorem ref_layer3 (r : Fin 200000) :
    val_main_v128 (F := Ideal) x0 x1 x2 x3 x4 x5 x6 x7 x8 x9 x10 x11 x12 x13 x14 x15 x16 x17 x18 (ix2 r (0 : Fin 1))
      = (∑ k : Fin 64, val_main_v124 (F := Ideal) x0 x1 x2 x3 x4 x5 x6 x7 x8 x9 x10 x11 x12 x13 x14 x15 x16 (ix2 r k) * x17 (ix2 k (0 : Fin 1))) + x18 (ix1 (0 : Fin 1)) := by
  rw [val_main_v128_apply, val_main_v127_apply, val_main_v126_apply, val_main_v125_apply]
  have hb : idx_main_v126 (idx_main_v127 (ix2 r (0 : Fin 1))) = ix1 (0 : Fin 1) := funext fun b => by
    match b with
    | ⟨0, _⟩ => rfl
  have hl : ∀ k : Fin 64, lidx_main_v125 (ix2 r (0 : Fin 1)) k = ix2 r k := fun k => funext fun b => by
    match b with
    | ⟨0, _⟩ => rfl
    | ⟨1, _⟩ => rfl
  have hr : ∀ k : Fin 64, ridx_main_v125 (ix2 r (0 : Fin 1)) k = ix2 k (0 : Fin 1) := fun k => funext fun b => by
    match b with
    | ⟨0, _⟩ => rfl
    | ⟨1, _⟩ => rfl
  simp only [hb, hl, hr]
  rfl

/-- One over one plus the exponential of the negative is the logistic function. -/
theorem ref_logistic (j : S200000x1.Idx) :
    val_main_v134 (F := Ideal) x0 x1 x2 x3 x4 x5 x6 x7 x8 x9 x10 x11 x12 x13 x14 x15 x16 x17 x18 j = Ideal.logistic (val_main_v128 (F := Ideal) x0 x1 x2 x3 x4 x5 x6 x7 x8 x9 x10 x11 x12 x13 x14 x15 x16 x17 x18 j) := by
  rw [val_main_v134_apply, val_main_v133_apply, val_main_cst_21_apply, val_main_v132_apply, val_main_v131_apply,
    val_main_cst_20_apply, val_main_v130_apply, val_main_v129_apply]
  simp only [Ideal.hostDivf_def, Ideal.addf_def, Ideal.hostUnary_exp_def, Ideal.hostNegf_def, Ideal.negf_def,
    Ideal.ofBits_def, Ideal.ofBits_one_f32]
  rfl

/-- THE REFERENCE'S SCORES are the predictor of `Cert.GSpec` on its two gathered arrays and the two halves of its first
    weight. -/
theorem ref_score (hs0 : (⟨2, ![128, 128]⟩ : Shape).Slices ![0, 0] ⟨2, ![64, 128]⟩)
    (hs1 : (⟨2, ![128, 128]⟩ : Shape).Slices ![64, 0] ⟨2, ![64, 128]⟩) :
    val_main_v134 (F := Ideal) x0 x1 x2 x3 x4 x5 x6 x7 x8 x9 x10 x11 x12 x13 x14 x15 x16 x17 x18
      = Cert.GSpec.edge (val_main_v104 (F := Ideal) x0 x1 x2 x3 x4 x5 x6 x7 x8 x9 x10 x11 x12) (val_main_v113 (F := Ideal) x0 x1 x2 x3 x4 x5 x6 x7 x8 x9 x10 x11 x12)
          (extractStridedSlice ⟨2, ![64, 128]⟩ ![0, 0] x13 hs0) (extractStridedSlice ⟨2, ![64, 128]⟩ ![64, 0] x13 hs1)
          x14 x15 x16 x17 x18 := by
  funext j
  obtain ⟨r, q, rfl⟩ : ∃ (r : Fin 200000) (q : Fin 1), j = ix2 r q := ⟨j 0, j 1, eq_ix2 j⟩
  obtain rfl : q = 0 := Subsingleton.elim _ _
  rw [ref_logistic, ref_layer3]
  simp only [ref_layer2, ref_layer1, ref_product x0 x1 x2 x3 x4 x5 x6 x7 x8 x9 x10 x11 x12 x13 hs0 hs1]
  simp only [Cert.GSpec.edge, Cert.GSpec.ofFn2_apply]

end Reference

/-! ## The program's scores are the reference's -/

section Program
open Cert.KernelIdeal

variable (m : (ℓ : Loc Cert.KernelIdeal.nD Cert.KernelIdeal.τ Cert.KernelIdeal.sig) → Buf (Elt Ideal) ℓ) (c : Dev Cert.KernelIdeal.nD)

/-- The first end points are the same index array: the same operations on the same argument. -/
theorem eli0_eq : KTerm.eli0 m c = Cert.ReferenceIdeal.Read.val_main_v103 (F := Ideal) (KTerm.a2 m c) := rfl

/-- So are the second end points. -/
theorem eli1_eq : KTerm.eli1 m c = Cert.ReferenceIdeal.Read.val_main_v112 (F := Ideal) (KTerm.a2 m c) := rfl

end Program

/-- THE SCORES AGREE.  Where the two final embeddings are equal, the two gathers read the same rows of equal arrays, the
    program's predictor on them is the reference's (`ref_score`), and both results are the same one-column array viewed
    as a vector. -/
theorem out_eq (m : (ℓ : Loc Cert.KernelIdeal.nD Cert.KernelIdeal.τ Cert.KernelIdeal.sig) → Buf (Elt Ideal) ℓ) (c : Dev Cert.KernelIdeal.nD)
    (hh : Cert.KernelIdeal.KTerm.hfin m c = Cert.ReferenceIdeal.Read.val_main_v95 (F := Ideal) (Cert.KernelIdeal.KTerm.a0 m c) (Cert.KernelIdeal.KTerm.a1 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c)) :
    Cert.KernelIdeal.KTerm.out m c = Cert.ReferenceIdeal.Read.val_main_v135 (F := Ideal) (Cert.KernelIdeal.KTerm.a0 m c) (Cert.KernelIdeal.KTerm.a1 m c) (Cert.KernelIdeal.KTerm.a2 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) (Cert.KernelIdeal.KTerm.a13 m c) (Cert.KernelIdeal.KTerm.a14 m c) (Cert.KernelIdeal.KTerm.a15 m c) (Cert.KernelIdeal.KTerm.a16 m c) (Cert.KernelIdeal.KTerm.a17 m c) (Cert.KernelIdeal.KTerm.a18 m c) := by
  have hg0 : Cert.KernelIdeal.KTerm.g0 m c = Cert.ReferenceIdeal.Read.val_main_v104 (F := Ideal) (Cert.KernelIdeal.KTerm.a0 m c) (Cert.KernelIdeal.KTerm.a1 m c) (Cert.KernelIdeal.KTerm.a2 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) := by
    unfold Cert.KernelIdeal.KTerm.g0 Cert.ReferenceIdeal.Read.val_main_v104
    rw [hh, eli0_eq]
    rfl
  have hg1 : Cert.KernelIdeal.KTerm.g1 m c = Cert.ReferenceIdeal.Read.val_main_v113 (F := Ideal) (Cert.KernelIdeal.KTerm.a0 m c) (Cert.KernelIdeal.KTerm.a1 m c) (Cert.KernelIdeal.KTerm.a2 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) := by
    unfold Cert.KernelIdeal.KTerm.g1 Cert.ReferenceIdeal.Read.val_main_v113
    rw [hh, eli1_eq]
    rfl
  have he : Cert.KernelIdeal.KTerm.e m c = Cert.ReferenceIdeal.Read.val_main_v134 (F := Ideal) (Cert.KernelIdeal.KTerm.a0 m c) (Cert.KernelIdeal.KTerm.a1 m c) (Cert.KernelIdeal.KTerm.a2 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) (Cert.KernelIdeal.KTerm.a13 m c) (Cert.KernelIdeal.KTerm.a14 m c) (Cert.KernelIdeal.KTerm.a15 m c) (Cert.KernelIdeal.KTerm.a16 m c) (Cert.KernelIdeal.KTerm.a17 m c) (Cert.KernelIdeal.KTerm.a18 m c) := by
    unfold Cert.KernelIdeal.KTerm.e
    rw [hg0, hg1]
    exact (ref_score (Cert.KernelIdeal.KTerm.a0 m c) (Cert.KernelIdeal.KTerm.a1 m c) (Cert.KernelIdeal.KTerm.a2 m c) (Cert.KernelIdeal.KTerm.a3 m c) (Cert.KernelIdeal.KTerm.a4 m c) (Cert.KernelIdeal.KTerm.a5 m c) (Cert.KernelIdeal.KTerm.a6 m c) (Cert.KernelIdeal.KTerm.a7 m c) (Cert.KernelIdeal.KTerm.a8 m c) (Cert.KernelIdeal.KTerm.a9 m c) (Cert.KernelIdeal.KTerm.a10 m c) (Cert.KernelIdeal.KTerm.a11 m c) (Cert.KernelIdeal.KTerm.a12 m c) (Cert.KernelIdeal.KTerm.a13 m c) (Cert.KernelIdeal.KTerm.a14 m c) (Cert.KernelIdeal.KTerm.a15 m c) (Cert.KernelIdeal.KTerm.a16 m c) (Cert.KernelIdeal.KTerm.a17 m c) (Cert.KernelIdeal.KTerm.a18 m c) _ _).symm
  unfold Cert.KernelIdeal.KTerm.out Cert.ReferenceIdeal.Read.val_main_v135
  rw [he]

end Cert.Bridge

end
-- ==== Proof.lean ====
/-
  A three-layer graph network with an edge predictor, as five pipelined calls among host operations, against its plain
  reference: the proof of `Cert.Claim`.

  Both programs, read on the extended reals, compute for every candidate edge the logistic of a three-layer perceptron
  of the two end points' final embeddings.  They differ in two places.  (1) The degree normalisation of a graph layer:
  the kernel program scales each node's transformed row by the node's scale d before the rows are gathered along the
  edges, adds the gathered rows at their destinations, and multiplies the sum at node n by d n inside the next call; the
  reference multiplies edge e's gathered row by d (source e) · d (destination e) and adds.  A scale is a nonnegative real
  number (the reciprocal square root of a degree raised to at least one, or zero), and a nonnegative real factor
  distributes over any sum of extended reals, so the two aggregates agree entry by entry with no finiteness
  assumption on the features or the weights.  (2) The first layer of the edge predictor: the reference joins the two
  gathered rows and multiplies by the whole weight matrix, the kernel multiplies each row by its half of the matrix and
  adds — one sum of 128 terms regrouped as two sums of 64.  Everything else (the encoder, bias rows, clipping at zero,
  residual sums, matrix products into a zero accumulator, the changes of float format, which are the identity on the
  extended reals, and the logistic, which is one function on both sides) is the same function of the same values.

  The frames of the two kernel programs are the generated frame certificates; the reference's frame is its run with the
  result dropped.  The ideal pass rewrote nothing, so there is nothing to preserve.  For the algebraic claim the kernel
  program's run leaves its result at the last boundary of the fold through its host stretches and calls
  (`KRun.run`), that fold is evaluated to the staged term `KTerm.out` (`KFold.W13_out`, each call acting as the layer
  function of the arrays it reads: `Val0` … `Val4`), and the bridge (`Bridge.hfin_eq`, `Bridge.out_eq`) identifies that
  term with the reference's result stage.
-/
import proofs.«151212_j72112500900409_2_alg».proof.Defs
import proofs.«151212_j72112500900409_2_alg».proof.Proof.Gen.Kernel
import proofs.«151212_j72112500900409_2_alg».proof.Proof.Gen.Kernel.Skeleton
import proofs.«151212_j72112500900409_2_alg».proof.Proof.Gen.Kernel.Launch
import proofs.«151212_j72112500900409_2_alg».proof.Proof.Gen.Kernel.Points
import proofs.«151212_j72112500900409_2_alg».proof.Proof.Gen.Kernel.Frame
import proofs.«151212_j72112500900409_2_alg».proof.Proof.Gen.KernelIdeal
import proofs.«151212_j72112500900409_2_alg».proof.Proof.Gen.KernelIdeal.Skeleton
import proofs.«151212_j72112500900409_2_alg».proof.Proof.Gen.KernelIdeal.Launch
import proofs.«151212_j72112500900409_2_alg».proof.Proof.Gen.KernelIdeal.Points
import proofs.«151212_j72112500900409_2_alg».proof.Proof.Gen.KernelIdeal.Frame
import proofs.«151212_j72112500900409_2_alg».proof.Proof.Gen.ReferenceIdeal
import proofs.«151212_j72112500900409_2_alg».proof.Proof.Gen.Pre_finite_inputs
import proofs.«151212_j72112500900409_2_alg».proof.Proof.RefOps
import proofs.«151212_j72112500900409_2_alg».proof.Proof.RefRunH
import proofs.«151212_j72112500900409_2_alg».proof.Proof.RefRead
import proofs.«151212_j72112500900409_2_alg».proof.Proof.KRun
import proofs.«151212_j72112500900409_2_alg».proof.Proof.KFold
import proofs.«151212_j72112500900409_2_alg».proof.Proof.BridgeNodes
import proofs.«151212_j72112500900409_2_alg».proof.Proof.BridgeEdge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- On the extended reals the two programs, run from memories that agree on the arguments, end with the same result:
    the kernel program's at the staged term `KTerm.out`, the reference's at its last stage, and the bridge identifies
    the two. -/
theorem algebraic : Cert.algebraic_KernelIdeal_ReferenceIdeal := by
  intro m ρ m' ρ' _ hagree
  refine ⟨fun c => Cert.KernelIdeal.KTerm.out m c, ?_, ?_⟩
  · exact (θ_run Cert.KernelIdeal.defs _ _).mono
      (fun _ h c => ⟨(h c).1.trans (Cert.KernelIdeal.KFold.W13_out m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run m' ρ')
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact (Cert.Bridge.out_eq m c (Cert.Bridge.hfin_eq m c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
